-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S60000x256 : Shape := ⟨2, ![60000, 256]⟩
abbrev S40000x256 : Shape := ⟨2, ![40000, 256]⟩
abbrev S120000 : Shape := ⟨1, ![120000]⟩
abbrev S160000 : Shape := ⟨1, ![160000]⟩
abbrev S240000 : Shape := ⟨1, ![240000]⟩
abbrev S20000 : Shape := ⟨1, ![20000]⟩
abbrev S60000 : Shape := ⟨1, ![60000]⟩
abbrev S40000 : Shape := ⟨1, ![40000]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S60000x256 : S_.BroadcastsInDim S60000x256 (![] : Fin 0 → Fin S60000x256.rank)
  reducesTo_S60000x256_S_d0_1 : S60000x256.ReducesTo [0, 1] S_
  bcast_S_S40000x256 : S_.BroadcastsInDim S40000x256 (![] : Fin 0 → Fin S40000x256.rank)
  reducesTo_S40000x256_S_d0_1 : S40000x256.ReducesTo [0, 1] S_
  bcast_S_S120000 : S_.BroadcastsInDim S120000 (![] : Fin 0 → Fin S120000.rank)
  reducesTo_S120000_S_d0 : S120000.ReducesTo [0] S_
  bcast_S_S160000 : S_.BroadcastsInDim S160000 (![] : Fin 0 → Fin S160000.rank)
  reducesTo_S160000_S_d0 : S160000.ReducesTo [0] S_
  bcast_S_S240000 : S_.BroadcastsInDim S240000 (![] : Fin 0 → Fin S240000.rank)
  reducesTo_S240000_S_d0 : S240000.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg40 : FVec F S64 .f32) (main_arg41 : FVec F S256x64 .f32) (main_arg42 : FVec F S64 .f32) (main_v98 : IVec S_ 1) (main_v101 : IVec S256x64 1) (main_c_39 : IVec S_ 1) : IVec S_ 1 :=
  let main_v102 : IVec S_ 1 := (fun x v => Host.reduce IntOp.andi x v reducesTo_S256x64_S_d0_1 h_S_) main_v101 main_c_39
  let main_v103 : IVec S_ 1 := andi main_v98 main_v102
  let main_v104 : FVec F S64 .f32 := Host.absf main_arg40
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S256x64 .f32 := Host.absf main_arg41
  let main_cst_42 : FVec F S_ .f32 := constant S_ .f32 0x7F800000#32
  let main_v110 : FVec F S256x64 .f32 := broadcastInDim S256x64 ![] bcast_S_S256x64 main_cst_42
  let main_v111 : IVec S256x64 1 := cmpf .olt main_v109 main_v110
  let main_c_43 : IVec S_ 1 := constantI S_ 1 1#1
  let main_v112 : IVec S_ 1 := (fun x v => Host.reduce IntOp.andi x v reducesTo_S256x64_S_d0_1 h_S_) main_v111 main_c_43
  let main_v113 : IVec S_ 1 := andi main_v108 main_v112
  let main_v114 : FVec F S64 .f32 := Host.absf main_arg42
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  main_v118

def fn_part5 {F : FTy → Type} [FloatOps F] (main_arg37 : FVec F S256x64 .f32) (main_arg38 : FVec F S64 .f32) (main_arg39 : FVec F S256x64 .f32) (main_arg40 : FVec F S64 .f32) (main_arg41 : FVec F S256x64 .f32) (main_arg42 : FVec F S64 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256x64 .f32 := Host.absf main_arg37
  let main_cst_34 : FVec F S_ .f32 := constant S_ .f32 0x7F800000#32
  let main_v90 : FVec F S256x64 .f32 := broadcastInDim S256x64 ![] bcast_S_S256x64 main_cst_34
  let main_v91 : IVec S256x64 1 := cmpf .olt main_v89 main_v90
  let main_c_35 : IVec S_ 1 := constantI S_ 1 1#1
  let main_v92 : IVec S_ 1 := (fun x v => Host.reduce IntOp.andi x v reducesTo_S256x64_S_d0_1 h_S_) main_v91 main_c_35
  let main_v93 : IVec S_ 1 := andi main_v88 main_v92
  let main_v94 : FVec F S64 .f32 := Host.absf main_arg38
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S256x64 .f32 := Host.absf main_arg39
  let main_cst_38 : FVec F S_ .f32 := constant S_ .f32 0x7F800000#32
  let main_v100 : FVec F S256x64 .f32 := broadcastInDim S256x64 ![] bcast_S_S256x64 main_cst_38
  let main_v101 : IVec S256x64 1 := cmpf .olt main_v99 main_v100
  let main_c_39 : IVec S_ 1 := constantI S_ 1 1#1
  fn_part6 (F := F) main_arg40 main_arg41 main_arg42 main_v98 main_v101 main_c_39

def fn_part4 {F : FTy → Type} [FloatOps F] (main_arg33 : FVec F S256x256 .f32) (main_arg34 : FVec F S256x256 .f32) (main_arg35 : FVec F S256x256 .f32) (main_arg36 : FVec F S256x256 .f32) (main_arg37 : FVec F S256x64 .f32) (main_arg38 : FVec F S64 .f32) (main_arg39 : FVec F S256x64 .f32) (main_arg40 : FVec F S64 .f32) (main_arg41 : FVec F S256x64 .f32) (main_arg42 : FVec F S64 .f32) (main_v63 : IVec S_ 1) (main_v67 : IVec S_ 1) : IVec S_ 1 :=
  let main_v68 : IVec S_ 1 := andi main_v63 main_v67
  let main_v69 : FVec F S256x256 .f32 := Host.absf main_arg33
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg34
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256x256 .f32 := Host.absf main_arg35
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg36
  let main_cst_32 : FVec F S_ .f32 := constant S_ .f32 0x7F800000#32
  fn_part5 (F := F) main_arg37 main_arg38 main_arg39 main_arg40 main_arg41 main_arg42 main_v83 main_v84 main_cst_32

def fn_part3 {F : FTy → Type} [FloatOps F] (main_arg30 : FVec F S256x256 .f32) (main_arg31 : FVec F S256x256 .f32) (main_arg32 : FVec F S256x256 .f32) (main_arg33 : FVec F S256x256 .f32) (main_arg34 : FVec F S256x256 .f32) (main_arg35 : FVec F S256x256 .f32) (main_arg36 : FVec F S256x256 .f32) (main_arg37 : FVec F S256x64 .f32) (main_arg38 : FVec F S64 .f32) (main_arg39 : FVec F S256x64 .f32) (main_arg40 : FVec F S64 .f32) (main_arg41 : FVec F S256x64 .f32) (main_arg42 : FVec F S64 .f32) (main_v48 : IVec S_ 1) (main_v49 : FVec F S160000 .f32) (main_v50 : FVec F S160000 .f32) : IVec S_ 1 :=
  let main_v51 : IVec S160000 1 := cmpf .olt main_v49 main_v50
  let main_c_19 : IVec S_ 1 := constantI S_ 1 1#1
  let main_v52 : IVec S_ 1 := (fun x v => Host.reduce IntOp.andi x v reducesTo_S160000_S_d0 h_S_) main_v51 main_c_19
  let main_v53 : IVec S_ 1 := andi main_v48 main_v52
  let main_v54 : FVec F S256x256 .f32 := Host.absf main_arg30
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg31
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg32
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg33 main_arg34 main_arg35 main_arg36 main_arg37 main_arg38 main_arg39 main_arg40 main_arg41 main_arg42 main_v63 main_v67

def fn_part2 {F : FTy → Type} [FloatOps F] (main_arg17 : FVec F S160000 .f32) (main_arg20 : FVec F S240000 .f32) (main_arg23 : FVec F S240000 .f32) (main_arg26 : FVec F S160000 .f32) (main_arg30 : FVec F S256x256 .f32) (main_arg31 : FVec F S256x256 .f32) (main_arg32 : FVec F S256x256 .f32) (main_arg33 : FVec F S256x256 .f32) (main_arg34 : FVec F S256x256 .f32) (main_arg35 : FVec F S256x256 .f32) (main_arg36 : FVec F S256x256 .f32) (main_arg37 : FVec F S256x64 .f32) (main_arg38 : FVec F S64 .f32) (main_arg39 : FVec F S256x64 .f32) (main_arg40 : FVec F S64 .f32) (main_arg41 : FVec F S256x64 .f32) (main_arg42 : FVec F S64 .f32) (main_v33 : IVec S_ 1) : IVec S_ 1 :=
  let main_v34 : FVec F S160000 .f32 := Host.absf main_arg17
  let main_cst_12 : FVec F S_ .f32 := constant S_ .f32 0x7F800000#32
  let main_v35 : FVec F S160000 .f32 := broadcastInDim S160000 ![] bcast_S_S160000 main_cst_12
  let main_v36 : IVec S160000 1 := cmpf .olt main_v34 main_v35
  let main_c_13 : IVec S_ 1 := constantI S_ 1 1#1
  let main_v37 : IVec S_ 1 := (fun x v => Host.reduce IntOp.andi x v reducesTo_S160000_S_d0 h_S_) main_v36 main_c_13
  let main_v38 : IVec S_ 1 := andi main_v33 main_v37
  let main_v39 : FVec F S240000 .f32 := Host.absf main_arg20
  let main_cst_14 : FVec F S_ .f32 := constant S_ .f32 0x7F800000#32
  let main_v40 : FVec F S240000 .f32 := broadcastInDim S240000 ![] bcast_S_S240000 main_cst_14
  let main_v41 : IVec S240000 1 := cmpf .olt main_v39 main_v40
  let main_c_15 : IVec S_ 1 := constantI S_ 1 1#1
  let main_v42 : IVec S_ 1 := (fun x v => Host.reduce IntOp.andi x v reducesTo_S240000_S_d0 h_S_) main_v41 main_c_15
  let main_v43 : IVec S_ 1 := andi main_v38 main_v42
  let main_v44 : FVec F S240000 .f32 := Host.absf main_arg23
  let main_cst_16 : FVec F S_ .f32 := constant S_ .f32 0x7F800000#32
  let main_v45 : FVec F S240000 .f32 := broadcastInDim S240000 ![] bcast_S_S240000 main_cst_16
  let main_v46 : IVec S240000 1 := cmpf .olt main_v44 main_v45
  let main_c_17 : IVec S_ 1 := constantI S_ 1 1#1
  let main_v47 : IVec S_ 1 := (fun x v => Host.reduce IntOp.andi x v reducesTo_S240000_S_d0 h_S_) main_v46 main_c_17
  let main_v48 : IVec S_ 1 := andi main_v43 main_v47
  let main_v49 : FVec F S160000 .f32 := Host.absf main_arg26
  let main_cst_18 : FVec F S_ .f32 := constant S_ .f32 0x7F800000#32
  let main_v50 : FVec F S160000 .f32 := broadcastInDim S160000 ![] bcast_S_S160000 main_cst_18
  fn_part3 (F := F) main_arg30 main_arg31 main_arg32 main_arg33 main_arg34 main_arg35 main_arg36 main_arg37 main_arg38 main_arg39 main_arg40 main_arg41 main_arg42 main_v48 main_v49 main_v50

def fn_part1 {F : FTy → Type} [FloatOps F] (main_arg8 : FVec F S120000 .f32) (main_arg11 : FVec F S120000 .f32) (main_arg14 : FVec F S120000 .f32) (main_arg17 : FVec F S160000 .f32) (main_arg20 : FVec F S240000 .f32) (main_arg23 : FVec F S240000 .f32) (main_arg26 : FVec F S160000 .f32) (main_arg30 : FVec F S256x256 .f32) (main_arg31 : FVec F S256x256 .f32) (main_arg32 : FVec F S256x256 .f32) (main_arg33 : FVec F S256x256 .f32) (main_arg34 : FVec F S256x256 .f32) (main_arg35 : FVec F S256x256 .f32) (main_arg36 : FVec F S256x256 .f32) (main_arg37 : FVec F S256x64 .f32) (main_arg38 : FVec F S64 .f32) (main_arg39 : FVec F S256x64 .f32) (main_arg40 : FVec F S64 .f32) (main_arg41 : FVec F S256x64 .f32) (main_arg42 : FVec F S64 .f32) (main_v13 : IVec S_ 1) (main_v16 : IVec S120000 1) : IVec S_ 1 :=
  let main_c_5 : IVec S_ 1 := constantI S_ 1 1#1
  let main_v17 : IVec S_ 1 := (fun x v => Host.reduce IntOp.andi x v reducesTo_S120000_S_d0 h_S_) main_v16 main_c_5
  let main_v18 : IVec S_ 1 := andi main_v13 main_v17
  let main_v19 : FVec F S120000 .f32 := Host.absf main_arg8
  let main_cst_6 : FVec F S_ .f32 := constant S_ .f32 0x7F800000#32
  let main_v20 : FVec F S120000 .f32 := broadcastInDim S120000 ![] bcast_S_S120000 main_cst_6
  let main_v21 : IVec S120000 1 := cmpf .olt main_v19 main_v20
  let main_c_7 : IVec S_ 1 := constantI S_ 1 1#1
  let main_v22 : IVec S_ 1 := (fun x v => Host.reduce IntOp.andi x v reducesTo_S120000_S_d0 h_S_) main_v21 main_c_7
  let main_v23 : IVec S_ 1 := andi main_v18 main_v22
  let main_v24 : FVec F S120000 .f32 := Host.absf main_arg11
  let main_cst_8 : FVec F S_ .f32 := constant S_ .f32 0x7F800000#32
  let main_v25 : FVec F S120000 .f32 := broadcastInDim S120000 ![] bcast_S_S120000 main_cst_8
  let main_v26 : IVec S120000 1 := cmpf .olt main_v24 main_v25
  let main_c_9 : IVec S_ 1 := constantI S_ 1 1#1
  let main_v27 : IVec S_ 1 := (fun x v => Host.reduce IntOp.andi x v reducesTo_S120000_S_d0 h_S_) main_v26 main_c_9
  let main_v28 : IVec S_ 1 := andi main_v23 main_v27
  let main_v29 : FVec F S120000 .f32 := Host.absf main_arg14
  let main_cst_10 : FVec F S_ .f32 := constant S_ .f32 0x7F800000#32
  let main_v30 : FVec F S120000 .f32 := broadcastInDim S120000 ![] bcast_S_S120000 main_cst_10
  let main_v31 : IVec S120000 1 := cmpf .olt main_v29 main_v30
  let main_c_11 : IVec S_ 1 := constantI S_ 1 1#1
  let main_v32 : IVec S_ 1 := (fun x v => Host.reduce IntOp.andi x v reducesTo_S120000_S_d0 h_S_) main_v31 main_c_11
  let main_v33 : IVec S_ 1 := andi main_v28 main_v32
  fn_part2 (F := F) main_arg17 main_arg20 main_arg23 main_arg26 main_arg30 main_arg31 main_arg32 main_arg33 main_arg34 main_arg35 main_arg36 main_arg37 main_arg38 main_arg39 main_arg40 main_arg41 main_arg42 main_v33

def fn {F : FTy → Type} [FloatOps F] (main_arg0 : FVec F S20000x256 .f32) (main_arg1 : FVec F S60000x256 .f32) (main_arg2 : FVec F S40000x256 .f32) (main_arg3 : IVec S120000 32) (main_arg4 : IVec S120000 32) (main_arg5 : FVec F S120000 .f32) (main_arg6 : IVec S120000 32) (main_arg7 : IVec S120000 32) (main_arg8 : FVec F S120000 .f32) (main_arg9 : IVec S120000 32) (main_arg10 : IVec S120000 32) (main_arg11 : FVec F S120000 .f32) (main_arg12 : IVec S120000 32) (main_arg13 : IVec S120000 32) (main_arg14 : FVec F S120000 .f32) (main_arg15 : IVec S160000 32) (main_arg16 : IVec S160000 32) (main_arg17 : FVec F S160000 .f32) (main_arg18 : IVec S240000 32) (main_arg19 : IVec S240000 32) (main_arg20 : FVec F S240000 .f32) (main_arg21 : IVec S240000 32) (main_arg22 : IVec S240000 32) (main_arg23 : FVec F S240000 .f32) (main_arg24 : IVec S160000 32) (main_arg25 : IVec S160000 32) (main_arg26 : FVec F S160000 .f32) (main_arg27 : IVec S20000 32) (main_arg28 : IVec S60000 32) (main_arg29 : IVec S40000 32) (main_arg30 : FVec F S256x256 .f32) (main_arg31 : FVec F S256x256 .f32) (main_arg32 : FVec F S256x256 .f32) (main_arg33 : FVec F S256x256 .f32) (main_arg34 : FVec F S256x256 .f32) (main_arg35 : FVec F S256x256 .f32) (main_arg36 : FVec F S256x256 .f32) (main_arg37 : FVec F S256x64 .f32) (main_arg38 : FVec F S64 .f32) (main_arg39 : FVec F S256x64 .f32) (main_arg40 : FVec F S64 .f32) (main_arg41 : FVec F S256x64 .f32) (main_arg42 : FVec F S64 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S60000x256 .f32 := Host.absf main_arg1
  let main_cst_0 : FVec F S_ .f32 := constant S_ .f32 0x7F800000#32
  let main_v5 : FVec F S60000x256 .f32 := broadcastInDim S60000x256 ![] bcast_S_S60000x256 main_cst_0
  let main_v6 : IVec S60000x256 1 := cmpf .olt main_v4 main_v5
  let main_c_1 : IVec S_ 1 := constantI S_ 1 1#1
  let main_v7 : IVec S_ 1 := (fun x v => Host.reduce IntOp.andi x v reducesTo_S60000x256_S_d0_1 h_S_) main_v6 main_c_1
  let main_v8 : IVec S_ 1 := andi main_v3 main_v7
  let main_v9 : FVec F S40000x256 .f32 := Host.absf main_arg2
  let main_cst_2 : FVec F S_ .f32 := constant S_ .f32 0x7F800000#32
  let main_v10 : FVec F S40000x256 .f32 := broadcastInDim S40000x256 ![] bcast_S_S40000x256 main_cst_2
  let main_v11 : IVec S40000x256 1 := cmpf .olt main_v9 main_v10
  let main_c_3 : IVec S_ 1 := constantI S_ 1 1#1
  let main_v12 : IVec S_ 1 := (fun x v => Host.reduce IntOp.andi x v reducesTo_S40000x256_S_d0_1 h_S_) main_v11 main_c_3
  let main_v13 : IVec S_ 1 := andi main_v8 main_v12
  let main_v14 : FVec F S120000 .f32 := Host.absf main_arg5
  let main_cst_4 : FVec F S_ .f32 := constant S_ .f32 0x7F800000#32
  let main_v15 : FVec F S120000 .f32 := broadcastInDim S120000 ![] bcast_S_S120000 main_cst_4
  let main_v16 : IVec S120000 1 := cmpf .olt main_v14 main_v15
  fn_part1 (F := F) main_arg8 main_arg11 main_arg14 main_arg17 main_arg20 main_arg23 main_arg26 main_arg30 main_arg31 main_arg32 main_arg33 main_arg34 main_arg35 main_arg36 main_arg37 main_arg38 main_arg39 main_arg40 main_arg41 main_arg42 main_v13 main_v16
-- ==== Kernel.lean ====
abbrev S20000x256 : Shape := ⟨2, ![20000, 256]⟩
abbrev S60000x256 : Shape := ⟨2, ![60000, 256]⟩
abbrev S40000x256 : Shape := ⟨2, ![40000, 256]⟩
abbrev S120000 : Shape := ⟨1, ![120000]⟩
abbrev S160000 : Shape := ⟨1, ![160000]⟩
abbrev S240000 : Shape := ⟨1, ![240000]⟩
abbrev S20000 : Shape := ⟨1, ![20000]⟩
abbrev S60000 : Shape := ⟨1, ![60000]⟩
abbrev S40000 : Shape := ⟨1, ![40000]⟩
abbrev S256x256 : Shape := ⟨2, ![256, 256]⟩
abbrev S256x64 : Shape := ⟨2, ![256, 64]⟩
abbrev S64 : Shape := ⟨1, ![64]⟩
abbrev S2000x256 : Shape := ⟨2, ![2000, 256]⟩
abbrev S160000x1 : Shape := ⟨2, ![160000, 1]⟩
abbrev S_ : Shape := ⟨0, ![]⟩
abbrev S160000x256 : Shape := ⟨2, ![160000, 256]⟩
abbrev S120000x1 : Shape := ⟨2, ![120000, 1]⟩
abbrev S120000x256 : Shape := ⟨2, ![120000, 256]⟩
abbrev S480000 : Shape := ⟨1, ![480000]⟩
abbrev S480000x1 : Shape := ⟨2, ![480000, 1]⟩
abbrev S480000x256 : Shape := ⟨2, ![480000, 256]⟩
abbrev S1x64 : Shape := ⟨2, ![1, 64]⟩
abbrev S20000x64 : Shape := ⟨2, ![20000, 64]⟩
abbrev S2000x64 : Shape := ⟨2, ![2000, 64]⟩
abbrev S60000x64 : Shape := ⟨2, ![60000, 64]⟩
abbrev S40000x64 : Shape := ⟨2, ![40000, 64]⟩
abbrev S8x64 : Shape := ⟨2, ![8, 64]⟩
abbrev S20000x1 : Shape := ⟨2, ![20000, 1]⟩
abbrev S8x1 : Shape := ⟨2, ![8, 1]⟩
abbrev S60000x1 : Shape := ⟨2, ![60000, 1]⟩
abbrev S40000x1 : Shape := ⟨2, ![40000, 1]⟩

abbrev nBuf : Space → Nat
  | .hbm => 225
  | .vmem => 45
  | .smem => 0
  | _ => 0

abbrev hbmTy0_0 (i : Nat) : BufTy := match i % 128 with
  | 0 => ⟨S20000x256, .f32⟩
  | 1 => ⟨S60000x256, .f32⟩
  | 2 => ⟨S40000x256, .f32⟩
  | 3 => ⟨S120000, .i32⟩
  | 4 => ⟨S120000, .i32⟩
  | 5 => ⟨S120000, .f32⟩
  | 6 => ⟨S120000, .i32⟩
  | 7 => ⟨S120000, .i32⟩
  | 8 => ⟨S120000, .f32⟩
  | 9 => ⟨S120000, .i32⟩
  | 10 => ⟨S120000, .i32⟩
  | 11 => ⟨S120000, .f32⟩
  | 12 => ⟨S120000, .i32⟩
  | 13 => ⟨S120000, .i32⟩
  | 14 => ⟨S120000, .f32⟩
  | 15 => ⟨S160000, .i32⟩
  | 16 => ⟨S160000, .i32⟩
  | 17 => ⟨S160000, .f32⟩
  | 18 => ⟨S240000, .i32⟩
  | 19 => ⟨S240000, .i32⟩
  | 20 => ⟨S240000, .f32⟩
  | 21 => ⟨S240000, .i32⟩
  | 22 => ⟨S240000, .i32⟩
  | 23 => ⟨S240000, .f32⟩
  | 24 => ⟨S160000, .i32⟩
  | 25 => ⟨S160000, .i32⟩
  | 26 => ⟨S160000, .f32⟩
  | 27 => ⟨S20000, .i32⟩
  | 28 => ⟨S60000, .i32⟩
  | 29 => ⟨S40000, .i32⟩
  | 30 => ⟨S256x256, .f32⟩
  | 31 => ⟨S256x256, .f32⟩
  | 32 => ⟨S256x256, .f32⟩
  | 33 => ⟨S256x256, .f32⟩
  | 34 => ⟨S256x256, .f32⟩
  | 35 => ⟨S256x256, .f32⟩
  | 36 => ⟨S256x256, .f32⟩
  | 37 => ⟨S256x64, .f32⟩
  | 38 => ⟨S64, .f32⟩
  | 39 => ⟨S256x64, .f32⟩
  | 40 => ⟨S64, .f32⟩
  | 41 => ⟨S256x64, .f32⟩
  | 42 => ⟨S64, .f32⟩
  | 43 => ⟨S20000x256, .f32⟩
  | 44 => ⟨S20000x256, .f32⟩
  | 45 => ⟨S60000x256, .f32⟩
  | 46 => ⟨S60000x256, .f32⟩
  | 47 => ⟨S60000x256, .f32⟩
  | 48 => ⟨S40000x256, .f32⟩
  | 49 => ⟨S40000x256, .f32⟩
  | 50 => ⟨S160000x1, .f32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S160000x256, .f32⟩
  | 60 => ⟨S160000x256, .f32⟩
  | 61 => ⟨S160000x256, .f32⟩
  | 62 => ⟨S_, .f32⟩
  | 63 => ⟨S20000x256, .f32⟩
  | 64 => ⟨S160000x1, .i32⟩
  | 65 => ⟨S20000x256, .f32⟩
  | 66 => ⟨S120000x1, .f32⟩
  | 67 => ⟨S_, .i32⟩
  | 68 => ⟨S120000, .i32⟩
  | 69 => ⟨S120000, .i1⟩
  | 70 => ⟨S_, .i32⟩
  | 71 => ⟨S120000, .i32⟩
  | 72 => ⟨S120000, .i32⟩
  | 73 => ⟨S120000, .i32⟩
  | 74 => ⟨S120000x1, .i32⟩
  | 75 => ⟨S120000x256, .f32⟩
  | 76 => ⟨S120000x256, .f32⟩
  | 77 => ⟨S120000x256, .f32⟩
  | 78 => ⟨S_, .f32⟩
  | 79 => ⟨S20000x256, .f32⟩
  | 80 => ⟨S120000x1, .i32⟩
  | 81 => ⟨S20000x256, .f32⟩
  | 82 => ⟨S120000x1, .f32⟩
  | 83 => ⟨S_, .i32⟩
  | 84 => ⟨S120000, .i32⟩
  | 85 => ⟨S120000, .i1⟩
  | 86 => ⟨S_, .i32⟩
  | 87 => ⟨S120000, .i32⟩
  | 88 => ⟨S120000, .i32⟩
  | 89 => ⟨S120000, .i32⟩
  | 90 => ⟨S120000x1, .i32⟩
  | 91 => ⟨S120000x256, .f32⟩
  | 92 => ⟨S120000x256, .f32⟩
  | 93 => ⟨S120000x256, .f32⟩
  | 94 => ⟨S_, .f32⟩
  | 95 => ⟨S60000x256, .f32⟩
  | 96 => ⟨S120000x1, .i32⟩
  | 97 => ⟨S60000x256, .f32⟩
  | 98 => ⟨S480000, .i32⟩
  | 99 => ⟨S480000, .i32⟩
  | 100 => ⟨S480000, .f32⟩
  | 101 => ⟨S480000x1, .f32⟩
  | 102 => ⟨S_, .i32⟩
  | 103 => ⟨S480000, .i32⟩
  | 104 => ⟨S480000, .i1⟩
  | 105 => ⟨S_, .i32⟩
  | 106 => ⟨S480000, .i32⟩
  | 107 => ⟨S480000, .i32⟩
  | 108 => ⟨S480000, .i32⟩
  | 109 => ⟨S480000x1, .i32⟩
  | 110 => ⟨S480000x256, .f32⟩
  | 111 => ⟨S480000x256, .f32⟩
  | 112 => ⟨S480000x256, .f32⟩
  | 113 => ⟨S_, .f32⟩
  | 114 => ⟨S60000x256, .f32⟩
  | 115 => ⟨S480000x1, .i32⟩
  | 116 => ⟨S60000x256, .f32⟩
  | 117 => ⟨S120000x1, .f32⟩
  | 118 => ⟨S_, .i32⟩
  | 119 => ⟨S120000, .i32⟩
  | 120 => ⟨S120000, .i1⟩
  | 121 => ⟨S_, .i32⟩
  | 122 => ⟨S120000, .i32⟩
  | 123 => ⟨S120000, .i32⟩
  | 124 => ⟨S120000, .i32⟩
  | 125 => ⟨S120000x1, .i32⟩
  | 126 => ⟨S120000x256, .f32⟩
  | 127 => ⟨S120000x256, .f32⟩
  | _ => ⟨S20000x256, .f32⟩

abbrev hbmTy0_1 (i : Nat) : BufTy := match i % 128 with
  | 0 => ⟨S120000x256, .f32⟩
  | 1 => ⟨S_, .f32⟩
  | 2 => ⟨S60000x256, .f32⟩
  | 3 => ⟨S120000x1, .i32⟩
  | 4 => ⟨S60000x256, .f32⟩
  | 5 => ⟨S120000x1, .f32⟩
  | 6 => ⟨S_, .i32⟩
  | 7 => ⟨S120000, .i32⟩
  | 8 => ⟨S120000, .i1⟩
  | 9 => ⟨S_, .i32⟩
  | 10 => ⟨S120000, .i32⟩
  | 11 => ⟨S120000, .i32⟩
  | 12 => ⟨S120000, .i32⟩
  | 13 => ⟨S120000x1, .i32⟩
  | 14 => ⟨S120000x256, .f32⟩
  | 15 => ⟨S120000x256, .f32⟩
  | 16 => ⟨S120000x256, .f32⟩
  | 17 => ⟨S_, .f32⟩
  | 18 => ⟨S40000x256, .f32⟩
  | 19 => ⟨S120000x1, .i32⟩
  | 20 => ⟨S40000x256, .f32⟩
  | 21 => ⟨S160000x1, .f32⟩
  | 22 => ⟨S_, .i32⟩
  | 23 => ⟨S160000, .i32⟩
  | 24 => ⟨S160000, .i1⟩
  | 25 => ⟨S_, .i32⟩
  | 26 => ⟨S160000, .i32⟩
  | 27 => ⟨S160000, .i32⟩
  | 28 => ⟨S160000, .i32⟩
  | 29 => ⟨S160000x1, .i32⟩
  | 30 => ⟨S160000x256, .f32⟩
  | 31 => ⟨S160000x256, .f32⟩
  | 32 => ⟨S160000x256, .f32⟩
  | 33 => ⟨S_, .f32⟩
  | 34 => ⟨S40000x256, .f32⟩
  | 35 => ⟨S160000x1, .i32⟩
  | 36 => ⟨S40000x256, .f32⟩
  | 37 => ⟨S20000x256, .f32⟩
  | 38 => ⟨S60000x256, .f32⟩
  | 39 => ⟨S60000x256, .f32⟩
  | 40 => ⟨S40000x256, .f32⟩
  | 41 => ⟨S1x64, .f32⟩
  | 42 => ⟨S20000x64, .f32⟩
  | 43 => ⟨S1x64, .f32⟩
  | 44 => ⟨S60000x64, .f32⟩
  | 45 => ⟨S1x64, .f32⟩
  | 46 => ⟨S40000x64, .f32⟩
  | 47 => ⟨S_, .f32⟩
  | 48 => ⟨S8x64, .f32⟩
  | 49 => ⟨S20000x1, .i32⟩
  | 50 => ⟨S8x64, .f32⟩
  | 51 => ⟨S_, .f32⟩
  | 52 => ⟨S20000x1, .f32⟩
  | 53 => ⟨S_, .f32⟩
  | 54 => ⟨S8x1, .f32⟩
  | 55 => ⟨S20000x1, .i32⟩
  | 56 => ⟨S8x1, .f32⟩
  | 57 => ⟨S_, .f32⟩
  | 58 => ⟨S8x1, .f32⟩
  | 59 => ⟨S8x1, .f32⟩
  | 60 => ⟨S8x64, .f32⟩
  | 61 => ⟨S8x64, .f32⟩
  | 62 => ⟨S_, .f32⟩
  | 63 => ⟨S8x64, .f32⟩
  | 64 => ⟨S60000x1, .i32⟩
  | 65 => ⟨S8x64, .f32⟩
  | 66 => ⟨S_, .f32⟩
  | 67 => ⟨S60000x1, .f32⟩
  | 68 => ⟨S_, .f32⟩
  | 69 => ⟨S8x1, .f32⟩
  | 70 => ⟨S60000x1, .i32⟩
  | 71 => ⟨S8x1, .f32⟩
  | 72 => ⟨S_, .f32⟩
  | 73 => ⟨S8x1, .f32⟩
  | 74 => ⟨S8x1, .f32⟩
  | 75 => ⟨S8x64, .f32⟩
  | 76 => ⟨S8x64, .f32⟩
  | 77 => ⟨S_, .f32⟩
  | 78 => ⟨S8x64, .f32⟩
  | 79 => ⟨S40000x1, .i32⟩
  | 80 => ⟨S8x64, .f32⟩
  | 81 => ⟨S_, .f32⟩
  | 82 => ⟨S40000x1, .f32⟩
  | 83 => ⟨S_, .f32⟩
  | 84 => ⟨S8x1, .f32⟩
  | 85 => ⟨S40000x1, .i32⟩
  | 86 => ⟨S8x1, .f32⟩
  | 87 => ⟨S_, .f32⟩
  | 88 => ⟨S8x1, .f32⟩
  | 89 => ⟨S8x1, .f32⟩
  | 90 => ⟨S8x64, .f32⟩
  | 91 => ⟨S8x64, .f32⟩
  | 92 => ⟨S8x64, .f32⟩
  | 93 => ⟨S8x64, .f32⟩
  | 94 => ⟨S_, .f32⟩
  | 95 => ⟨S8x64, .f32⟩
  | 96 => ⟨S8x64, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S256x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | .local _ .vmem, ⟨33, _⟩ => ⟨S2000x256, .f32⟩
  | .local _ .vmem, ⟨34, _⟩ => ⟨S2000x256, .f32⟩
  | .local _ .vmem, ⟨35, _⟩ => ⟨S256x64, .f32⟩
  | .local _ .vmem, ⟨36, _⟩ => ⟨S1x64, .f32⟩
  | .local _ .vmem, ⟨37, _⟩ => ⟨S2000x64, .f32⟩
  | .local _ .vmem, ⟨38, _⟩ => ⟨S2000x64, .f32⟩
  | .local _ .vmem, ⟨39, _⟩ => ⟨S2000x256, .f32⟩
  | .local _ .vmem, ⟨40, _⟩ => ⟨S2000x256, .f32⟩
  | .local _ .vmem, ⟨41, _⟩ => ⟨S256x64, .f32⟩
  | .local _ .vmem, ⟨42, _⟩ => ⟨S1x64, .f32⟩
  | .local _ .vmem, ⟨43, _⟩ => ⟨S2000x64, .f32⟩
  | .local _ .vmem, ⟨44, _⟩ => ⟨S2000x64, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_v0_0 : Ref sig .tc := ⟨.hbm, 43, rfl⟩
abbrev main_v0_1 : Ref sig .tc := ⟨.hbm, 44, rfl⟩
abbrev main_v1_0 : Ref sig .tc := ⟨.hbm, 45, rfl⟩
abbrev main_v1_1 : Ref sig .tc := ⟨.hbm, 46, rfl⟩
abbrev main_v1_2 : Ref sig .tc := ⟨.hbm, 47, rfl⟩
abbrev main_v2_0 : Ref sig .tc := ⟨.hbm, 48, rfl⟩
abbrev main_v2_1 : Ref sig .tc := ⟨.hbm, 49, rfl⟩
abbrev main_v3 : Ref sig .tc := ⟨.hbm, 50, rfl⟩
abbrev main_c : Ref sig .tc := ⟨.hbm, 51, rfl⟩
abbrev main_v4 : Ref sig .tc := ⟨.hbm, 52, rfl⟩
abbrev main_v5 : Ref sig .tc := ⟨.hbm, 53, rfl⟩
abbrev main_c_0 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_c_1 : Ref sig .tc := ⟨.hbm, 67, rfl⟩
abbrev main_v17 : Ref sig .tc := ⟨.hbm, 68, rfl⟩
abbrev main_v18 : Ref sig .tc := ⟨.hbm, 69, rfl⟩
abbrev main_c_2 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_cst_3 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_c_4 : Ref sig .tc := ⟨.hbm, 83, rfl⟩
abbrev main_v30 : Ref sig .tc := ⟨.hbm, 84, rfl⟩
abbrev main_v31 : Ref sig .tc := ⟨.hbm, 85, rfl⟩
abbrev main_c_5 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_6 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_7 : Ref sig .tc := ⟨.hbm, 102, rfl⟩
abbrev main_v46 : Ref sig .tc := ⟨.hbm, 103, rfl⟩
abbrev main_v47 : Ref sig .tc := ⟨.hbm, 104, rfl⟩
abbrev main_c_8 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_cst_9 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_c_10 : Ref sig .tc := ⟨.hbm, 118, rfl⟩
abbrev main_v59 : Ref sig .tc := ⟨.hbm, 119, rfl⟩
abbrev main_v60 : Ref sig .tc := ⟨.hbm, 120, rfl⟩
abbrev main_c_11 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_cst_12 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_c_13 : Ref sig .tc := ⟨.hbm, 134, rfl⟩
abbrev main_v72 : Ref sig .tc := ⟨.hbm, 135, rfl⟩
abbrev main_v73 : Ref sig .tc := ⟨.hbm, 136, rfl⟩
abbrev main_c_14 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_cst_15 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_c_16 : Ref sig .tc := ⟨.hbm, 150, rfl⟩
abbrev main_v85 : Ref sig .tc := ⟨.hbm, 151, rfl⟩
abbrev main_v86 : Ref sig .tc := ⟨.hbm, 152, rfl⟩
abbrev main_c_17 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_18 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_19 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_20 : Ref sig .tc := ⟨.hbm, 179, rfl⟩
abbrev main_v110 : Ref sig .tc := ⟨.hbm, 180, rfl⟩
abbrev main_cst_21 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_cst_22 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_23 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_24 : Ref sig .tc := ⟨.hbm, 194, rfl⟩
abbrev main_v121 : Ref sig .tc := ⟨.hbm, 195, rfl⟩
abbrev main_cst_25 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_26 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_27 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_cst_28 : Ref sig .tc := ⟨.hbm, 209, rfl⟩
abbrev main_v132 : Ref sig .tc := ⟨.hbm, 210, rfl⟩
abbrev main_cst_29 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_30 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_31 : Ref sig .tc := ⟨.hbm, 222, rfl⟩
abbrev main_v142 : Ref sig .tc := ⟨.hbm, 223, rfl⟩
abbrev main_v143 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x256_0_1 : S160000x1.BroadcastsInDim S160000x256 (![0, 1] : Fin 2 → Fin S160000x256.rank)
  bcast_S_S20000x256 : S_.BroadcastsInDim S20000x256 (![] : Fin 0 → Fin S20000x256.rank)
  bcast_S120000_S120000x1_0 : S120000.BroadcastsInDim S120000x1 (![0] : Fin 1 → Fin S120000x1.rank)
  bcast_S_S120000 : S_.BroadcastsInDim S120000 (![] : Fin 0 → Fin S120000.rank)
  bcast_S120000x1_S120000x256_0_1 : S120000x1.BroadcastsInDim S120000x256 (![0, 1] : Fin 2 → Fin S120000x256.rank)
  bcast_S_S60000x256 : S_.BroadcastsInDim S60000x256 (![] : Fin 0 → Fin S60000x256.rank)
  concatenates_S240000_S240000_S480000_d0 : Shape.Concatenates [S240000, S240000] S480000 0
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x256_0_1 : S480000x1.BroadcastsInDim S480000x256 (![0, 1] : Fin 2 → Fin S480000x256.rank)
  bcast_S_S40000x256 : S_.BroadcastsInDim S40000x256 (![] : Fin 0 → Fin S40000x256.rank)
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S8x64 : S_.BroadcastsInDim S8x64 (![] : Fin 0 → Fin S8x64.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S40000_S40000x1_0 : S40000.BroadcastsInDim S40000x1 (![0] : Fin 1 → Fin S40000x1.rank)
  bcast_S_S40000x1 : S_.BroadcastsInDim S40000x1 (![] : Fin 0 → Fin S40000x1.rank)
  dot_S2000x256_S256x256_S2000x256_1_0_0_1_n_n_wf : DotDims.WF S2000x256 S256x256 S2000x256 [1] [0] [0] [1] [] []
  gather_S20000x256_S160000x1_S160000x256_1_0_n_n_0_1_1256_wf : GatherDims.WF S20000x256 S160000x1 S160000x256 [1] [0] [] [0] [] 1 ![1, 256]
  scatter_S20000x256_S160000x1_S160000x256_1_0_0_1_wf : ScatterDims.WF S20000x256 S160000x1 S160000x256 [1] [0] [0] 1
  gather_S60000x256_S120000x1_S120000x256_1_0_n_n_0_1_1256_wf : GatherDims.WF S60000x256 S120000x1 S120000x256 [1] [0] [] [0] [] 1 ![1, 256]
  scatter_S20000x256_S120000x1_S120000x256_1_0_0_1_wf : ScatterDims.WF S20000x256 S120000x1 S120000x256 [1] [0] [0] 1
  gather_S20000x256_S120000x1_S120000x256_1_0_n_n_0_1_1256_wf : GatherDims.WF S20000x256 S120000x1 S120000x256 [1] [0] [] [0] [] 1 ![1, 256]
  scatter_S60000x256_S120000x1_S120000x256_1_0_0_1_wf : ScatterDims.WF S60000x256 S120000x1 S120000x256 [1] [0] [0] 1
  gather_S60000x256_S480000x1_S480000x256_1_0_n_n_0_1_1256_wf : GatherDims.WF S60000x256 S480000x1 S480000x256 [1] [0] [] [0] [] 1 ![1, 256]
  scatter_S60000x256_S480000x1_S480000x256_1_0_0_1_wf : ScatterDims.WF S60000x256 S480000x1 S480000x256 [1] [0] [0] 1
  gather_S40000x256_S120000x1_S120000x256_1_0_n_n_0_1_1256_wf : GatherDims.WF S40000x256 S120000x1 S120000x256 [1] [0] [] [0] [] 1 ![1, 256]
  scatter_S40000x256_S120000x1_S120000x256_1_0_0_1_wf : ScatterDims.WF S40000x256 S120000x1 S120000x256 [1] [0] [0] 1
  gather_S40000x256_S160000x1_S160000x256_1_0_n_n_0_1_1256_wf : GatherDims.WF S40000x256 S160000x1 S160000x256 [1] [0] [] [0] [] 1 ![1, 256]
  scatter_S40000x256_S160000x1_S160000x256_1_0_0_1_wf : ScatterDims.WF S40000x256 S160000x1 S160000x256 [1] [0] [0] 1
  dot_S2000x256_S256x64_S2000x64_1_0_0_1_n_n_wf : DotDims.WF S2000x256 S256x64 S2000x64 [1] [0] [0] [1] [] []
  scatter_S8x64_S20000x1_S20000x64_1_0_0_1_wf : ScatterDims.WF S8x64 S20000x1 S20000x64 [1] [0] [0] 1
  scatter_S8x1_S20000x1_S20000x1_1_0_0_1_wf : ScatterDims.WF S8x1 S20000x1 S20000x1 [1] [0] [0] 1
  scatter_S8x64_S60000x1_S60000x64_1_0_0_1_wf : ScatterDims.WF S8x64 S60000x1 S60000x64 [1] [0] [0] 1
  scatter_S8x1_S60000x1_S60000x1_1_0_0_1_wf : ScatterDims.WF S8x1 S60000x1 S60000x1 [1] [0] [0] 1
  scatter_S8x64_S40000x1_S40000x64_1_0_0_1_wf : ScatterDims.WF S8x64 S40000x1 S40000x64 [1] [0] [0] 1
  scatter_S8x1_S40000x1_S40000x1_1_0_0_1_wf : ScatterDims.WF S8x1 S40000x1 S40000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S20000x256.size a
  hwx0_4 : ∀ i : grid0.Coords, EltTy.bits .f32 = 32 ∨ (Rect.block (s := S20000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S60000x256.size a
  hwx1_0 : ∀ i : grid1.Coords, EltTy.bits .f32 = 32 ∨ (Rect.block (s := S60000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S60000x256.size a
  hwx1_4 : ∀ i : grid1.Coords, EltTy.bits .f32 = 32 ∨ (Rect.block (s := S60000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S60000x256.size a
  hwx1_5 : ∀ i : grid1.Coords, EltTy.bits .f32 = 32 ∨ (Rect.block (s := S60000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S60000x256.size a
  hwx1_6 : ∀ i : grid1.Coords, EltTy.bits .f32 = 32 ∨ (Rect.block (s := S60000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S40000x256.size a
  hwx2_0 : ∀ i : grid2.Coords, EltTy.bits .f32 = 32 ∨ (Rect.block (s := S40000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S40000x256.size a
  hwx2_3 : ∀ i : grid2.Coords, EltTy.bits .f32 = 32 ∨ (Rect.block (s := S40000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S40000x256.size a
  hwx2_4 : ∀ i : grid2.Coords, EltTy.bits .f32 = 32 ∨ (Rect.block (s := S40000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S20000x64.size a
  hwx3_3 : ∀ i : grid3.Coords, EltTy.bits .f32 = 32 ∨ (Rect.block (s := S20000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S60000x256.size a
  hwx4_0 : ∀ i : grid4.Coords, EltTy.bits .f32 = 32 ∨ (Rect.block (s := S60000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S60000x64.size a
  hwx4_3 : ∀ i : grid4.Coords, EltTy.bits .f32 = 32 ∨ (Rect.block (s := S60000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S40000x256.size a
  hwx5_0 : ∀ i : grid5.Coords, EltTy.bits .f32 = 32 ∨ (Rect.block (s := S40000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x64.size a ≤ S256x64.size a
  hwx5_1 : ∀ i : grid5.Coords, EltTy.bits .f32 = 32 ∨ (Rect.block (s := S256x64) S256x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S40000x64.size a
  hwx5_3 : ∀ i : grid5.Coords, EltTy.bits .f32 = 32 ∨ (Rect.block (s := S40000x64) S2000x64.size (cc5_transform_3 i) (hinb5_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S160000x1_S160000x256_1_0_n_n_0_1_1256 : GatherDims S20000x256 S160000x1 S160000x256 where
  offsetDims := [1]
  collapsedSliceDims := [0]
  operandBatchingDims := []
  startIndicesBatchingDims := []
  startIndexMap := [0]
  indexVectorDim := 1
  sliceSizes := ![1, 256]
  wf := gather_S20000x256_S160000x1_S160000x256_1_0_n_n_0_1_1256_wf
def scatter_S20000x256_S160000x1_S160000x256_1_0_0_1 : ScatterDims S20000x256 S160000x1 S160000x256 where
  updateWindowDims := [1]
  insertedWindowDims := [0]
  scatterDimsToOperandDims := [0]
  indexVectorDim := 1
  wf := scatter_S20000x256_S160000x1_S160000x256_1_0_0_1_wf
def gather_S60000x256_S120000x1_S120000x256_1_0_n_n_0_1_1256 : GatherDims S60000x256 S120000x1 S120000x256 where
  offsetDims := [1]
  collapsedSliceDims := [0]
  operandBatchingDims := []
  startIndicesBatchingDims := []
  startIndexMap := [0]
  indexVectorDim := 1
  sliceSizes := ![1, 256]
  wf := gather_S60000x256_S120000x1_S120000x256_1_0_n_n_0_1_1256_wf
def scatter_S20000x256_S120000x1_S120000x256_1_0_0_1 : ScatterDims S20000x256 S120000x1 S120000x256 where
  updateWindowDims := [1]
  insertedWindowDims := [0]
  scatterDimsToOperandDims := [0]
  indexVectorDim := 1
  wf := scatter_S20000x256_S120000x1_S120000x256_1_0_0_1_wf
def gather_S20000x256_S120000x1_S120000x256_1_0_n_n_0_1_1256 : GatherDims S20000x256 S120000x1 S120000x256 where
  offsetDims := [1]
  collapsedSliceDims := [0]
  operandBatchingDims := []
  startIndicesBatchingDims := []
  startIndexMap := [0]
  indexVectorDim := 1
  sliceSizes := ![1, 256]
  wf := gather_S20000x256_S120000x1_S120000x256_1_0_n_n_0_1_1256_wf
def scatter_S60000x256_S120000x1_S120000x256_1_0_0_1 : ScatterDims S60000x256 S120000x1 S120000x256 where
  updateWindowDims := [1]
  insertedWindowDims := [0]
  scatterDimsToOperandDims := [0]
  indexVectorDim := 1
  wf := scatter_S60000x256_S120000x1_S120000x256_1_0_0_1_wf
def gather_S60000x256_S480000x1_S480000x256_1_0_n_n_0_1_1256 : GatherDims S60000x256 S480000x1 S480000x256 where
  offsetDims := [1]
  collapsedSliceDims := [0]
  operandBatchingDims := []
  startIndicesBatchingDims := []
  startIndexMap := [0]
  indexVectorDim := 1
  sliceSizes := ![1, 256]
  wf := gather_S60000x256_S480000x1_S480000x256_1_0_n_n_0_1_1256_wf
def scatter_S60000x256_S480000x1_S480000x256_1_0_0_1 : ScatterDims S60000x256 S480000x1 S480000x256 where
  updateWindowDims := [1]
  insertedWindowDims := [0]
  scatterDimsToOperandDims := [0]
  indexVectorDim := 1
  wf := scatter_S60000x256_S480000x1_S480000x256_1_0_0_1_wf
def gather_S40000x256_S120000x1_S120000x256_1_0_n_n_0_1_1256 : GatherDims S40000x256 S120000x1 S120000x256 where
  offsetDims := [1]
  collapsedSliceDims := [0]
  operandBatchingDims := []
  startIndicesBatchingDims := []
  startIndexMap := [0]
  indexVectorDim := 1
  sliceSizes := ![1, 256]
  wf := gather_S40000x256_S120000x1_S120000x256_1_0_n_n_0_1_1256_wf
def scatter_S40000x256_S120000x1_S120000x256_1_0_0_1 : ScatterDims S40000x256 S120000x1 S120000x256 where
  updateWindowDims := [1]
  insertedWindowDims := [0]
  scatterDimsToOperandDims := [0]
  indexVectorDim := 1
  wf := scatter_S40000x256_S120000x1_S120000x256_1_0_0_1_wf
def gather_S40000x256_S160000x1_S160000x256_1_0_n_n_0_1_1256 : GatherDims S40000x256 S160000x1 S160000x256 where
  offsetDims := [1]
  collapsedSliceDims := [0]
  operandBatchingDims := []
  startIndicesBatchingDims := []
  startIndexMap := [0]
  indexVectorDim := 1
  sliceSizes := ![1, 256]
  wf := gather_S40000x256_S160000x1_S160000x256_1_0_n_n_0_1_1256_wf
def scatter_S40000x256_S160000x1_S160000x256_1_0_0_1 : ScatterDims S40000x256 S160000x1 S160000x256 where
  updateWindowDims := [1]
  insertedWindowDims := [0]
  scatterDimsToOperandDims := [0]
  indexVectorDim := 1
  wf := scatter_S40000x256_S160000x1_S160000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S8x64_S20000x1_S20000x64_1_0_0_1 : ScatterDims S8x64 S20000x1 S20000x64 where
  updateWindowDims := [1]
  insertedWindowDims := [0]
  scatterDimsToOperandDims := [0]
  indexVectorDim := 1
  wf := scatter_S8x64_S20000x1_S20000x64_1_0_0_1_wf
def scatter_S8x1_S20000x1_S20000x1_1_0_0_1 : ScatterDims S8x1 S20000x1 S20000x1 where
  updateWindowDims := [1]
  insertedWindowDims := [0]
  scatterDimsToOperandDims := [0]
  indexVectorDim := 1
  wf := scatter_S8x1_S20000x1_S20000x1_1_0_0_1_wf
def scatter_S8x64_S60000x1_S60000x64_1_0_0_1 : ScatterDims S8x64 S60000x1 S60000x64 where
  updateWindowDims := [1]
  insertedWindowDims := [0]
  scatterDimsToOperandDims := [0]
  indexVectorDim := 1
  wf := scatter_S8x64_S60000x1_S60000x64_1_0_0_1_wf
def scatter_S8x1_S60000x1_S60000x1_1_0_0_1 : ScatterDims S8x1 S60000x1 S60000x1 where
  updateWindowDims := [1]
  insertedWindowDims := [0]
  scatterDimsToOperandDims := [0]
  indexVectorDim := 1
  wf := scatter_S8x1_S60000x1_S60000x1_1_0_0_1_wf
def scatter_S8x64_S40000x1_S40000x64_1_0_0_1 : ScatterDims S8x64 S40000x1 S40000x64 where
  updateWindowDims := [1]
  insertedWindowDims := [0]
  scatterDimsToOperandDims := [0]
  indexVectorDim := 1
  wf := scatter_S8x64_S40000x1_S40000x64_1_0_0_1_wf
def scatter_S8x1_S40000x1_S40000x1_1_0_0_1 : ScatterDims S8x1 S40000x1 S40000x1 where
  updateWindowDims := [1]
  insertedWindowDims := [0]
  scatterDimsToOperandDims := [0]
  indexVectorDim := 1
  wf := scatter_S8x1_S40000x1_S40000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg30) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg32) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg31) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg33) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg35) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_2) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg34) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg36) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S2000x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v97) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg37) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v99) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg39) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v100) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg41) S256x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x256 : Shape := ⟨2, ![20000, 256]⟩
abbrev S60000x256 : Shape := ⟨2, ![60000, 256]⟩
abbrev S40000x256 : Shape := ⟨2, ![40000, 256]⟩
abbrev S120000 : Shape := ⟨1, ![120000]⟩
abbrev S160000 : Shape := ⟨1, ![160000]⟩
abbrev S240000 : Shape := ⟨1, ![240000]⟩
abbrev S20000 : Shape := ⟨1, ![20000]⟩
abbrev S60000 : Shape := ⟨1, ![60000]⟩
abbrev S40000 : Shape := ⟨1, ![40000]⟩
abbrev S256x256 : Shape := ⟨2, ![256, 256]⟩
abbrev S256x64 : Shape := ⟨2, ![256, 64]⟩
abbrev S64 : Shape := ⟨1, ![64]⟩
abbrev S160000x1 : Shape := ⟨2, ![160000, 1]⟩
abbrev S_ : Shape := ⟨0, ![]⟩
abbrev S160000x256 : Shape := ⟨2, ![160000, 256]⟩
abbrev S120000x1 : Shape := ⟨2, ![120000, 1]⟩
abbrev S120000x256 : Shape := ⟨2, ![120000, 256]⟩
abbrev S480000 : Shape := ⟨1, ![480000]⟩
abbrev S480000x1 : Shape := ⟨2, ![480000, 1]⟩
abbrev S480000x256 : Shape := ⟨2, ![480000, 256]⟩
abbrev S20000x64 : Shape := ⟨2, ![20000, 64]⟩
abbrev S1x64 : Shape := ⟨2, ![1, 64]⟩
abbrev S60000x64 : Shape := ⟨2, ![60000, 64]⟩
abbrev S40000x64 : Shape := ⟨2, ![40000, 64]⟩
abbrev S8x64 : Shape := ⟨2, ![8, 64]⟩
abbrev S20000x1 : Shape := ⟨2, ![20000, 1]⟩
abbrev S8x1 : Shape := ⟨2, ![8, 1]⟩
abbrev S60000x1 : Shape := ⟨2, ![60000, 1]⟩
abbrev S40000x1 : Shape := ⟨2, ![40000, 1]⟩

abbrev nBuf : Space → Nat
  | .hbm => 255
  | .vmem => 0
  | .smem => 0
  | _ => 0

abbrev hbmTy0_0 (i : Nat) : BufTy := match i % 128 with
  | 0 => ⟨S20000x256, .f32⟩
  | 1 => ⟨S60000x256, .f32⟩
  | 2 => ⟨S40000x256, .f32⟩
  | 3 => ⟨S120000, .i32⟩
  | 4 => ⟨S120000, .i32⟩
  | 5 => ⟨S120000, .f32⟩
  | 6 => ⟨S120000, .i32⟩
  | 7 => ⟨S120000, .i32⟩
  | 8 => ⟨S120000, .f32⟩
  | 9 => ⟨S120000, .i32⟩
  | 10 => ⟨S120000, .i32⟩
  | 11 => ⟨S120000, .f32⟩
  | 12 => ⟨S120000, .i32⟩
  | 13 => ⟨S120000, .i32⟩
  | 14 => ⟨S120000, .f32⟩
  | 15 => ⟨S160000, .i32⟩
  | 16 => ⟨S160000, .i32⟩
  | 17 => ⟨S160000, .f32⟩
  | 18 => ⟨S240000, .i32⟩
  | 19 => ⟨S240000, .i32⟩
  | 20 => ⟨S240000, .f32⟩
  | 21 => ⟨S240000, .i32⟩
  | 22 => ⟨S240000, .i32⟩
  | 23 => ⟨S240000, .f32⟩
  | 24 => ⟨S160000, .i32⟩
  | 25 => ⟨S160000, .i32⟩
  | 26 => ⟨S160000, .f32⟩
  | 27 => ⟨S20000, .i32⟩
  | 28 => ⟨S60000, .i32⟩
  | 29 => ⟨S40000, .i32⟩
  | 30 => ⟨S256x256, .f32⟩
  | 31 => ⟨S256x256, .f32⟩
  | 32 => ⟨S256x256, .f32⟩
  | 33 => ⟨S256x256, .f32⟩
  | 34 => ⟨S256x256, .f32⟩
  | 35 => ⟨S256x256, .f32⟩
  | 36 => ⟨S256x256, .f32⟩
  | 37 => ⟨S256x64, .f32⟩
  | 38 => ⟨S64, .f32⟩
  | 39 => ⟨S256x64, .f32⟩
  | 40 => ⟨S64, .f32⟩
  | 41 => ⟨S256x64, .f32⟩
  | 42 => ⟨S64, .f32⟩
  | 43 => ⟨S20000x256, .f32⟩
  | 44 => ⟨S160000x1, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x256, .f32⟩
  | 54 => ⟨S160000x256, .f32⟩
  | 55 => ⟨S160000x256, .f32⟩
  | 56 => ⟨S_, .f32⟩
  | 57 => ⟨S20000x256, .f32⟩
  | 58 => ⟨S160000x1, .i32⟩
  | 59 => ⟨S20000x256, .f32⟩
  | 60 => ⟨S60000x256, .f32⟩
  | 61 => ⟨S120000x1, .f32⟩
  | 62 => ⟨S_, .i32⟩
  | 63 => ⟨S120000, .i32⟩
  | 64 => ⟨S120000, .i1⟩
  | 65 => ⟨S_, .i32⟩
  | 66 => ⟨S120000, .i32⟩
  | 67 => ⟨S120000, .i32⟩
  | 68 => ⟨S120000, .i32⟩
  | 69 => ⟨S120000x1, .i32⟩
  | 70 => ⟨S120000x256, .f32⟩
  | 71 => ⟨S120000x256, .f32⟩
  | 72 => ⟨S120000x256, .f32⟩
  | 73 => ⟨S_, .f32⟩
  | 74 => ⟨S20000x256, .f32⟩
  | 75 => ⟨S120000x1, .i32⟩
  | 76 => ⟨S20000x256, .f32⟩
  | 77 => ⟨S20000x256, .f32⟩
  | 78 => ⟨S120000x1, .f32⟩
  | 79 => ⟨S_, .i32⟩
  | 80 => ⟨S120000, .i32⟩
  | 81 => ⟨S120000, .i1⟩
  | 82 => ⟨S_, .i32⟩
  | 83 => ⟨S120000, .i32⟩
  | 84 => ⟨S120000, .i32⟩
  | 85 => ⟨S120000, .i32⟩
  | 86 => ⟨S120000x1, .i32⟩
  | 87 => ⟨S120000x256, .f32⟩
  | 88 => ⟨S120000x256, .f32⟩
  | 89 => ⟨S120000x256, .f32⟩
  | 90 => ⟨S_, .f32⟩
  | 91 => ⟨S60000x256, .f32⟩
  | 92 => ⟨S120000x1, .i32⟩
  | 93 => ⟨S60000x256, .f32⟩
  | 94 => ⟨S480000, .i32⟩
  | 95 => ⟨S480000, .i32⟩
  | 96 => ⟨S480000, .f32⟩
  | 97 => ⟨S60000x256, .f32⟩
  | 98 => ⟨S480000x1, .f32⟩
  | 99 => ⟨S_, .i32⟩
  | 100 => ⟨S480000, .i32⟩
  | 101 => ⟨S480000, .i1⟩
  | 102 => ⟨S_, .i32⟩
  | 103 => ⟨S480000, .i32⟩
  | 104 => ⟨S480000, .i32⟩
  | 105 => ⟨S480000, .i32⟩
  | 106 => ⟨S480000x1, .i32⟩
  | 107 => ⟨S480000x256, .f32⟩
  | 108 => ⟨S480000x256, .f32⟩
  | 109 => ⟨S480000x256, .f32⟩
  | 110 => ⟨S_, .f32⟩
  | 111 => ⟨S60000x256, .f32⟩
  | 112 => ⟨S480000x1, .i32⟩
  | 113 => ⟨S60000x256, .f32⟩
  | 114 => ⟨S40000x256, .f32⟩
  | 115 => ⟨S120000x1, .f32⟩
  | 116 => ⟨S_, .i32⟩
  | 117 => ⟨S120000, .i32⟩
  | 118 => ⟨S120000, .i1⟩
  | 119 => ⟨S_, .i32⟩
  | 120 => ⟨S120000, .i32⟩
  | 121 => ⟨S120000, .i32⟩
  | 122 => ⟨S120000, .i32⟩
  | 123 => ⟨S120000x1, .i32⟩
  | 124 => ⟨S120000x256, .f32⟩
  | 125 => ⟨S120000x256, .f32⟩
  | 126 => ⟨S120000x256, .f32⟩
  | 127 => ⟨S_, .f32⟩
  | _ => ⟨S20000x256, .f32⟩

abbrev hbmTy0_1 (i : Nat) : BufTy := match i % 128 with
  | 0 => ⟨S60000x256, .f32⟩
  | 1 => ⟨S120000x1, .i32⟩
  | 2 => ⟨S60000x256, .f32⟩
  | 3 => ⟨S60000x256, .f32⟩
  | 4 => ⟨S120000x1, .f32⟩
  | 5 => ⟨S_, .i32⟩
  | 6 => ⟨S120000, .i32⟩
  | 7 => ⟨S120000, .i1⟩
  | 8 => ⟨S_, .i32⟩
  | 9 => ⟨S120000, .i32⟩
  | 10 => ⟨S120000, .i32⟩
  | 11 => ⟨S120000, .i32⟩
  | 12 => ⟨S120000x1, .i32⟩
  | 13 => ⟨S120000x256, .f32⟩
  | 14 => ⟨S120000x256, .f32⟩
  | 15 => ⟨S120000x256, .f32⟩
  | 16 => ⟨S_, .f32⟩
  | 17 => ⟨S40000x256, .f32⟩
  | 18 => ⟨S120000x1, .i32⟩
  | 19 => ⟨S40000x256, .f32⟩
  | 20 => ⟨S40000x256, .f32⟩
  | 21 => ⟨S160000x1, .f32⟩
  | 22 => ⟨S_, .i32⟩
  | 23 => ⟨S160000, .i32⟩
  | 24 => ⟨S160000, .i1⟩
  | 25 => ⟨S_, .i32⟩
  | 26 => ⟨S160000, .i32⟩
  | 27 => ⟨S160000, .i32⟩
  | 28 => ⟨S160000, .i32⟩
  | 29 => ⟨S160000x1, .i32⟩
  | 30 => ⟨S160000x256, .f32⟩
  | 31 => ⟨S160000x256, .f32⟩
  | 32 => ⟨S160000x256, .f32⟩
  | 33 => ⟨S_, .f32⟩
  | 34 => ⟨S40000x256, .f32⟩
  | 35 => ⟨S160000x1, .i32⟩
  | 36 => ⟨S40000x256, .f32⟩
  | 37 => ⟨S20000x256, .f32⟩
  | 38 => ⟨S20000x256, .f32⟩
  | 39 => ⟨S20000x256, .f32⟩
  | 40 => ⟨S_, .f32⟩
  | 41 => ⟨S20000x256, .f32⟩
  | 42 => ⟨S20000x256, .f32⟩
  | 43 => ⟨S_, .f32⟩
  | 44 => ⟨S20000x256, .f32⟩
  | 45 => ⟨S20000x256, .f32⟩
  | 46 => ⟨S60000x256, .f32⟩
  | 47 => ⟨S60000x256, .f32⟩
  | 48 => ⟨S60000x256, .f32⟩
  | 49 => ⟨S60000x256, .f32⟩
  | 50 => ⟨S_, .f32⟩
  | 51 => ⟨S60000x256, .f32⟩
  | 52 => ⟨S60000x256, .f32⟩
  | 53 => ⟨S_, .f32⟩
  | 54 => ⟨S60000x256, .f32⟩
  | 55 => ⟨S60000x256, .f32⟩
  | 56 => ⟨S40000x256, .f32⟩
  | 57 => ⟨S40000x256, .f32⟩
  | 58 => ⟨S40000x256, .f32⟩
  | 59 => ⟨S_, .f32⟩
  | 60 => ⟨S40000x256, .f32⟩
  | 61 => ⟨S40000x256, .f32⟩
  | 62 => ⟨S_, .f32⟩
  | 63 => ⟨S40000x256, .f32⟩
  | 64 => ⟨S40000x256, .f32⟩
  | 65 => ⟨S20000x64, .f32⟩
  | 66 => ⟨S1x64, .f32⟩
  | 67 => ⟨S20000x64, .f32⟩
  | 68 => ⟨S20000x64, .f32⟩
  | 69 => ⟨S60000x64, .f32⟩
  | 70 => ⟨S1x64, .f32⟩
  | 71 => ⟨S60000x64, .f32⟩
  | 72 => ⟨S60000x64, .f32⟩
  | 73 => ⟨S40000x64, .f32⟩
  | 74 => ⟨S1x64, .f32⟩
  | 75 => ⟨S40000x64, .f32⟩
  | 76 => ⟨S40000x64, .f32⟩
  | 77 => ⟨S_, .f32⟩
  | 78 => ⟨S8x64, .f32⟩
  | 79 => ⟨S20000x1, .i32⟩
  | 80 => ⟨S8x64, .f32⟩
  | 81 => ⟨S_, .f32⟩
  | 82 => ⟨S20000x1, .f32⟩
  | 83 => ⟨S_, .f32⟩
  | 84 => ⟨S8x1, .f32⟩
  | 85 => ⟨S20000x1, .i32⟩
  | 86 => ⟨S8x1, .f32⟩
  | 87 => ⟨S_, .f32⟩
  | 88 => ⟨S8x1, .f32⟩
  | 89 => ⟨S8x1, .f32⟩
  | 90 => ⟨S8x64, .f32⟩
  | 91 => ⟨S8x64, .f32⟩
  | 92 => ⟨S_, .f32⟩
  | 93 => ⟨S8x64, .f32⟩
  | 94 => ⟨S60000x1, .i32⟩
  | 95 => ⟨S8x64, .f32⟩
  | 96 => ⟨S_, .f32⟩
  | 97 => ⟨S60000x1, .f32⟩
  | 98 => ⟨S_, .f32⟩
  | 99 => ⟨S8x1, .f32⟩
  | 100 => ⟨S60000x1, .i32⟩
  | 101 => ⟨S8x1, .f32⟩
  | 102 => ⟨S_, .f32⟩
  | 103 => ⟨S8x1, .f32⟩
  | 104 => ⟨S8x1, .f32⟩
  | 105 => ⟨S8x64, .f32⟩
  | 106 => ⟨S8x64, .f32⟩
  | 107 => ⟨S_, .f32⟩
  | 108 => ⟨S8x64, .f32⟩
  | 109 => ⟨S40000x1, .i32⟩
  | 110 => ⟨S8x64, .f32⟩
  | 111 => ⟨S_, .f32⟩
  | 112 => ⟨S40000x1, .f32⟩
  | 113 => ⟨S_, .f32⟩
  | 114 => ⟨S8x1, .f32⟩
  | 115 => ⟨S40000x1, .i32⟩
  | 116 => ⟨S8x1, .f32⟩
  | 117 => ⟨S_, .f32⟩
  | 118 => ⟨S8x1, .f32⟩
  | 119 => ⟨S8x1, .f32⟩
  | 120 => ⟨S8x64, .f32⟩
  | 121 => ⟨S8x64, .f32⟩
  | 122 => ⟨S8x64, .f32⟩
  | 123 => ⟨S8x64, .f32⟩
  | 124 => ⟨S_, .f32⟩
  | 125 => ⟨S8x64, .f32⟩
  | 126 => ⟨S8x64, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_v0 : Ref sig .tc := ⟨.hbm, 43, rfl⟩
abbrev main_v1 : Ref sig .tc := ⟨.hbm, 44, rfl⟩
abbrev main_c : Ref sig .tc := ⟨.hbm, 45, rfl⟩
abbrev main_v2 : Ref sig .tc := ⟨.hbm, 46, rfl⟩
abbrev main_v3 : Ref sig .tc := ⟨.hbm, 47, rfl⟩
abbrev main_c_0 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_c_1 : Ref sig .tc := ⟨.hbm, 62, rfl⟩
abbrev main_v16 : Ref sig .tc := ⟨.hbm, 63, rfl⟩
abbrev main_v17 : Ref sig .tc := ⟨.hbm, 64, rfl⟩
abbrev main_c_2 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_3 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_c_4 : Ref sig .tc := ⟨.hbm, 79, rfl⟩
abbrev main_v30 : Ref sig .tc := ⟨.hbm, 80, rfl⟩
abbrev main_v31 : Ref sig .tc := ⟨.hbm, 81, rfl⟩
abbrev main_c_5 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_6 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_7 : Ref sig .tc := ⟨.hbm, 99, rfl⟩
abbrev main_v47 : Ref sig .tc := ⟨.hbm, 100, rfl⟩
abbrev main_v48 : Ref sig .tc := ⟨.hbm, 101, rfl⟩
abbrev main_c_8 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_9 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_c_10 : Ref sig .tc := ⟨.hbm, 116, rfl⟩
abbrev main_v61 : Ref sig .tc := ⟨.hbm, 117, rfl⟩
abbrev main_v62 : Ref sig .tc := ⟨.hbm, 118, rfl⟩
abbrev main_c_11 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_12 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_c_13 : Ref sig .tc := ⟨.hbm, 133, rfl⟩
abbrev main_v75 : Ref sig .tc := ⟨.hbm, 134, rfl⟩
abbrev main_v76 : Ref sig .tc := ⟨.hbm, 135, rfl⟩
abbrev main_c_14 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_cst_15 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_c_16 : Ref sig .tc := ⟨.hbm, 150, rfl⟩
abbrev main_v89 : Ref sig .tc := ⟨.hbm, 151, rfl⟩
abbrev main_v90 : Ref sig .tc := ⟨.hbm, 152, rfl⟩
abbrev main_c_17 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_18 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_19 : Ref sig .tc := ⟨.hbm, 168, rfl⟩
abbrev main_v104 : Ref sig .tc := ⟨.hbm, 169, rfl⟩
abbrev main_v105 : Ref sig .tc := ⟨.hbm, 170, rfl⟩
abbrev main_cst_20 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_21 : Ref sig .tc := ⟨.hbm, 178, rfl⟩
abbrev main_v112 : Ref sig .tc := ⟨.hbm, 179, rfl⟩
abbrev main_v113 : Ref sig .tc := ⟨.hbm, 180, rfl⟩
abbrev main_cst_22 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_23 : Ref sig .tc := ⟨.hbm, 187, rfl⟩
abbrev main_v119 : Ref sig .tc := ⟨.hbm, 188, rfl⟩
abbrev main_v120 : Ref sig .tc := ⟨.hbm, 189, rfl⟩
abbrev main_cst_24 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_cst_25 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_26 : Ref sig .tc := ⟨.hbm, 209, rfl⟩
abbrev main_v138 : Ref sig .tc := ⟨.hbm, 210, rfl⟩
abbrev main_cst_27 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_cst_28 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_cst_29 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_cst_30 : Ref sig .tc := ⟨.hbm, 224, rfl⟩
abbrev main_v149 : Ref sig .tc := ⟨.hbm, 225, rfl⟩
abbrev main_cst_31 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_cst_32 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_cst_33 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst_34 : Ref sig .tc := ⟨.hbm, 239, rfl⟩
abbrev main_v160 : Ref sig .tc := ⟨.hbm, 240, rfl⟩
abbrev main_cst_35 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_cst_36 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_cst_37 : Ref sig .tc := ⟨.hbm, 252, rfl⟩
abbrev main_v170 : Ref sig .tc := ⟨.hbm, 253, rfl⟩
abbrev main_v171 : Ref sig .tc := ⟨.hbm, 254, rfl⟩

abbrev nD : Nat := 1
abbrev τ : Topo := Topo.v7x

variable {F : FTy → Type} [FloatOps F]

class Facts₀ : Prop where
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x256_0_1 : S160000x1.BroadcastsInDim S160000x256 (![0, 1] : Fin 2 → Fin S160000x256.rank)
  bcast_S_S20000x256 : S_.BroadcastsInDim S20000x256 (![] : Fin 0 → Fin S20000x256.rank)
  bcast_S120000_S120000x1_0 : S120000.BroadcastsInDim S120000x1 (![0] : Fin 1 → Fin S120000x1.rank)
  bcast_S_S120000 : S_.BroadcastsInDim S120000 (![] : Fin 0 → Fin S120000.rank)
  bcast_S120000x1_S120000x256_0_1 : S120000x1.BroadcastsInDim S120000x256 (![0, 1] : Fin 2 → Fin S120000x256.rank)
  bcast_S_S60000x256 : S_.BroadcastsInDim S60000x256 (![] : Fin 0 → Fin S60000x256.rank)
  concatenates_S240000_S240000_S480000_d0 : Shape.Concatenates [S240000, S240000] S480000 0
  bcast_S480000_S480000x1_0 : S480000.BroadcastsInDim S480000x1 (![0] : Fin 1 → Fin S480000x1.rank)
  bcast_S_S480000 : S_.BroadcastsInDim S480000 (![] : Fin 0 → Fin S480000.rank)
  bcast_S480000x1_S480000x256_0_1 : S480000x1.BroadcastsInDim S480000x256 (![0, 1] : Fin 2 → Fin S480000x256.rank)
  bcast_S_S40000x256 : S_.BroadcastsInDim S40000x256 (![] : Fin 0 → Fin S40000x256.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S1x64_S60000x64_0_1 : S1x64.BroadcastsInDim S60000x64 (![0, 1] : Fin 2 → Fin S60000x64.rank)
  bcast_S1x64_S40000x64_0_1 : S1x64.BroadcastsInDim S40000x64 (![0, 1] : Fin 2 → Fin S40000x64.rank)
  bcast_S_S8x64 : S_.BroadcastsInDim S8x64 (![] : Fin 0 → Fin S8x64.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S40000_S40000x1_0 : S40000.BroadcastsInDim S40000x1 (![0] : Fin 1 → Fin S40000x1.rank)
  bcast_S_S40000x1 : S_.BroadcastsInDim S40000x1 (![] : Fin 0 → Fin S40000x1.rank)
  dot_S20000x256_S256x256_S20000x256_1_0_0_1_n_n_wf : DotDims.WF S20000x256 S256x256 S20000x256 [1] [0] [0] [1] [] []
  gather_S20000x256_S160000x1_S160000x256_1_0_n_n_0_1_1256_wf : GatherDims.WF S20000x256 S160000x1 S160000x256 [1] [0] [] [0] [] 1 ![1, 256]
  scatter_S20000x256_S160000x1_S160000x256_1_0_0_1_wf : ScatterDims.WF S20000x256 S160000x1 S160000x256 [1] [0] [0] 1
  dot_S60000x256_S256x256_S60000x256_1_0_0_1_n_n_wf : DotDims.WF S60000x256 S256x256 S60000x256 [1] [0] [0] [1] [] []
  gather_S60000x256_S120000x1_S120000x256_1_0_n_n_0_1_1256_wf : GatherDims.WF S60000x256 S120000x1 S120000x256 [1] [0] [] [0] [] 1 ![1, 256]
  scatter_S20000x256_S120000x1_S120000x256_1_0_0_1_wf : ScatterDims.WF S20000x256 S120000x1 S120000x256 [1] [0] [0] 1
  gather_S20000x256_S120000x1_S120000x256_1_0_n_n_0_1_1256_wf : GatherDims.WF S20000x256 S120000x1 S120000x256 [1] [0] [] [0] [] 1 ![1, 256]
  scatter_S60000x256_S120000x1_S120000x256_1_0_0_1_wf : ScatterDims.WF S60000x256 S120000x1 S120000x256 [1] [0] [0] 1
  gather_S60000x256_S480000x1_S480000x256_1_0_n_n_0_1_1256_wf : GatherDims.WF S60000x256 S480000x1 S480000x256 [1] [0] [] [0] [] 1 ![1, 256]
  scatter_S60000x256_S480000x1_S480000x256_1_0_0_1_wf : ScatterDims.WF S60000x256 S480000x1 S480000x256 [1] [0] [0] 1
  dot_S40000x256_S256x256_S40000x256_1_0_0_1_n_n_wf : DotDims.WF S40000x256 S256x256 S40000x256 [1] [0] [0] [1] [] []
  gather_S40000x256_S120000x1_S120000x256_1_0_n_n_0_1_1256_wf : GatherDims.WF S40000x256 S120000x1 S120000x256 [1] [0] [] [0] [] 1 ![1, 256]
  scatter_S40000x256_S120000x1_S120000x256_1_0_0_1_wf : ScatterDims.WF S40000x256 S120000x1 S120000x256 [1] [0] [0] 1
  gather_S40000x256_S160000x1_S160000x256_1_0_n_n_0_1_1256_wf : GatherDims.WF S40000x256 S160000x1 S160000x256 [1] [0] [] [0] [] 1 ![1, 256]
  scatter_S40000x256_S160000x1_S160000x256_1_0_0_1_wf : ScatterDims.WF S40000x256 S160000x1 S160000x256 [1] [0] [0] 1
  dot_S20000x256_S256x64_S20000x64_1_0_0_1_n_n_wf : DotDims.WF S20000x256 S256x64 S20000x64 [1] [0] [0] [1] [] []
  dot_S60000x256_S256x64_S60000x64_1_0_0_1_n_n_wf : DotDims.WF S60000x256 S256x64 S60000x64 [1] [0] [0] [1] [] []
  dot_S40000x256_S256x64_S40000x64_1_0_0_1_n_n_wf : DotDims.WF S40000x256 S256x64 S40000x64 [1] [0] [0] [1] [] []
  scatter_S8x64_S20000x1_S20000x64_1_0_0_1_wf : ScatterDims.WF S8x64 S20000x1 S20000x64 [1] [0] [0] 1
  scatter_S8x1_S20000x1_S20000x1_1_0_0_1_wf : ScatterDims.WF S8x1 S20000x1 S20000x1 [1] [0] [0] 1
  scatter_S8x64_S60000x1_S60000x64_1_0_0_1_wf : ScatterDims.WF S8x64 S60000x1 S60000x64 [1] [0] [0] 1
  scatter_S8x1_S60000x1_S60000x1_1_0_0_1_wf : ScatterDims.WF S8x1 S60000x1 S60000x1 [1] [0] [0] 1
  scatter_S8x64_S40000x1_S40000x64_1_0_0_1_wf : ScatterDims.WF S8x64 S40000x1 S40000x64 [1] [0] [0] 1
  scatter_S8x1_S40000x1_S40000x1_1_0_0_1_wf : ScatterDims.WF S8x1 S40000x1 S40000x1 [1] [0] [0] 1

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S160000x1_S160000x256_1_0_n_n_0_1_1256 : GatherDims S20000x256 S160000x1 S160000x256 where
  offsetDims := [1]
  collapsedSliceDims := [0]
  operandBatchingDims := []
  startIndicesBatchingDims := []
  startIndexMap := [0]
  indexVectorDim := 1
  sliceSizes := ![1, 256]
  wf := gather_S20000x256_S160000x1_S160000x256_1_0_n_n_0_1_1256_wf
def scatter_S20000x256_S160000x1_S160000x256_1_0_0_1 : ScatterDims S20000x256 S160000x1 S160000x256 where
  updateWindowDims := [1]
  insertedWindowDims := [0]
  scatterDimsToOperandDims := [0]
  indexVectorDim := 1
  wf := scatter_S20000x256_S160000x1_S160000x256_1_0_0_1_wf
def dot_S60000x256_S256x256_S60000x256_1_0_0_1_n_n : DotDims S60000x256 S256x256 S60000x256 where
  lhsContracting := [1]
  rhsContracting := [0]
  lhsNonContracting := [0]
  rhsNonContracting := [1]
  lhsBatch := []
  rhsBatch := []
  wf := dot_S60000x256_S256x256_S60000x256_1_0_0_1_n_n_wf
def gather_S60000x256_S120000x1_S120000x256_1_0_n_n_0_1_1256 : GatherDims S60000x256 S120000x1 S120000x256 where
  offsetDims := [1]
  collapsedSliceDims := [0]
  operandBatchingDims := []
  startIndicesBatchingDims := []
  startIndexMap := [0]
  indexVectorDim := 1
  sliceSizes := ![1, 256]
  wf := gather_S60000x256_S120000x1_S120000x256_1_0_n_n_0_1_1256_wf
def scatter_S20000x256_S120000x1_S120000x256_1_0_0_1 : ScatterDims S20000x256 S120000x1 S120000x256 where
  updateWindowDims := [1]
  insertedWindowDims := [0]
  scatterDimsToOperandDims := [0]
  indexVectorDim := 1
  wf := scatter_S20000x256_S120000x1_S120000x256_1_0_0_1_wf
def gather_S20000x256_S120000x1_S120000x256_1_0_n_n_0_1_1256 : GatherDims S20000x256 S120000x1 S120000x256 where
  offsetDims := [1]
  collapsedSliceDims := [0]
  operandBatchingDims := []
  startIndicesBatchingDims := []
  startIndexMap := [0]
  indexVectorDim := 1
  sliceSizes := ![1, 256]
  wf := gather_S20000x256_S120000x1_S120000x256_1_0_n_n_0_1_1256_wf
def scatter_S60000x256_S120000x1_S120000x256_1_0_0_1 : ScatterDims S60000x256 S120000x1 S120000x256 where
  updateWindowDims := [1]
  insertedWindowDims := [0]
  scatterDimsToOperandDims := [0]
  indexVectorDim := 1
  wf := scatter_S60000x256_S120000x1_S120000x256_1_0_0_1_wf
def gather_S60000x256_S480000x1_S480000x256_1_0_n_n_0_1_1256 : GatherDims S60000x256 S480000x1 S480000x256 where
  offsetDims := [1]
  collapsedSliceDims := [0]
  operandBatchingDims := []
  startIndicesBatchingDims := []
  startIndexMap := [0]
  indexVectorDim := 1
  sliceSizes := ![1, 256]
  wf := gather_S60000x256_S480000x1_S480000x256_1_0_n_n_0_1_1256_wf
def scatter_S60000x256_S480000x1_S480000x256_1_0_0_1 : ScatterDims S60000x256 S480000x1 S480000x256 where
  updateWindowDims := [1]
  insertedWindowDims := [0]
  scatterDimsToOperandDims := [0]
  indexVectorDim := 1
  wf := scatter_S60000x256_S480000x1_S480000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S40000x256_S120000x1_S120000x256_1_0_n_n_0_1_1256 : GatherDims S40000x256 S120000x1 S120000x256 where
  offsetDims := [1]
  collapsedSliceDims := [0]
  operandBatchingDims := []
  startIndicesBatchingDims := []
  startIndexMap := [0]
  indexVectorDim := 1
  sliceSizes := ![1, 256]
  wf := gather_S40000x256_S120000x1_S120000x256_1_0_n_n_0_1_1256_wf
def scatter_S40000x256_S120000x1_S120000x256_1_0_0_1 : ScatterDims S40000x256 S120000x1 S120000x256 where
  updateWindowDims := [1]
  insertedWindowDims := [0]
  scatterDimsToOperandDims := [0]
  indexVectorDim := 1
  wf := scatter_S40000x256_S120000x1_S120000x256_1_0_0_1_wf
def gather_S40000x256_S160000x1_S160000x256_1_0_n_n_0_1_1256 : GatherDims S40000x256 S160000x1 S160000x256 where
  offsetDims := [1]
  collapsedSliceDims := [0]
  operandBatchingDims := []
  startIndicesBatchingDims := []
  startIndexMap := [0]
  indexVectorDim := 1
  sliceSizes := ![1, 256]
  wf := gather_S40000x256_S160000x1_S160000x256_1_0_n_n_0_1_1256_wf
def scatter_S40000x256_S160000x1_S160000x256_1_0_0_1 : ScatterDims S40000x256 S160000x1 S160000x256 where
  updateWindowDims := [1]
  insertedWindowDims := [0]
  scatterDimsToOperandDims := [0]
  indexVectorDim := 1
  wf := scatter_S40000x256_S160000x1_S160000x256_1_0_0_1_wf
def dot_S20000x256_S256x64_S20000x64_1_0_0_1_n_n : DotDims S20000x256 S256x64 S20000x64 where
  lhsContracting := [1]
  rhsContracting := [0]
  lhsNonContracting := [0]
  rhsNonContracting := [1]
  lhsBatch := []
  rhsBatch := []
  wf := dot_S20000x256_S256x64_S20000x64_1_0_0_1_n_n_wf
def dot_S60000x256_S256x64_S60000x64_1_0_0_1_n_n : DotDims S60000x256 S256x64 S60000x64 where
  lhsContracting := [1]
  rhsContracting := [0]
  lhsNonContracting := [0]
  rhsNonContracting := [1]
  lhsBatch := []
  rhsBatch := []
  wf := dot_S60000x256_S256x64_S60000x64_1_0_0_1_n_n_wf
def dot_S40000x256_S256x64_S40000x64_1_0_0_1_n_n : DotDims S40000x256 S256x64 S40000x64 where
  lhsContracting := [1]
  rhsContracting := [0]
  lhsNonContracting := [0]
  rhsNonContracting := [1]
  lhsBatch := []
  rhsBatch := []
  wf := dot_S40000x256_S256x64_S40000x64_1_0_0_1_n_n_wf
def scatter_S8x64_S20000x1_S20000x64_1_0_0_1 : ScatterDims S8x64 S20000x1 S20000x64 where
  updateWindowDims := [1]
  insertedWindowDims := [0]
  scatterDimsToOperandDims := [0]
  indexVectorDim := 1
  wf := scatter_S8x64_S20000x1_S20000x64_1_0_0_1_wf
def scatter_S8x1_S20000x1_S20000x1_1_0_0_1 : ScatterDims S8x1 S20000x1 S20000x1 where
  updateWindowDims := [1]
  insertedWindowDims := [0]
  scatterDimsToOperandDims := [0]
  indexVectorDim := 1
  wf := scatter_S8x1_S20000x1_S20000x1_1_0_0_1_wf
def scatter_S8x64_S60000x1_S60000x64_1_0_0_1 : ScatterDims S8x64 S60000x1 S60000x64 where
  updateWindowDims := [1]
  insertedWindowDims := [0]
  scatterDimsToOperandDims := [0]
  indexVectorDim := 1
  wf := scatter_S8x64_S60000x1_S60000x64_1_0_0_1_wf
def scatter_S8x1_S60000x1_S60000x1_1_0_0_1 : ScatterDims S8x1 S60000x1 S60000x1 where
  updateWindowDims := [1]
  insertedWindowDims := [0]
  scatterDimsToOperandDims := [0]
  indexVectorDim := 1
  wf := scatter_S8x1_S60000x1_S60000x1_1_0_0_1_wf
def scatter_S8x64_S40000x1_S40000x64_1_0_0_1 : ScatterDims S8x64 S40000x1 S40000x64 where
  updateWindowDims := [1]
  insertedWindowDims := [0]
  scatterDimsToOperandDims := [0]
  indexVectorDim := 1
  wf := scatter_S8x64_S40000x1_S40000x64_1_0_0_1_wf
def scatter_S8x1_S40000x1_S40000x1_1_0_0_1 : ScatterDims S8x1 S40000x1 S40000x1 where
  updateWindowDims := [1]
  insertedWindowDims := [0]
  scatterDimsToOperandDims := [0]
  indexVectorDim := 1
  wf := scatter_S8x1_S40000x1_S40000x1_1_0_0_1_wf

class Facts : Prop extends Facts₀ where

variable [Facts]
-- ==== Proof.KernelRun.lean ====
/-
  The idealized kernel's run, with the result kept.

  Its entry point is ten segments: three transform launches, the stretch of host operations that gathers and
  scatters their outputs into the three summed feature arrays, and then three times a head launch followed by a
  stretch of host operations, the last stretch being the mean pooling. Every weakly fair execution runs through the
  ten segments and ends with every buffer at the contents the fold of the segments leaves in it. Read at the result
  buffer this names the result; read at an argument buffer it gives back what was launched, since no segment writes an
  argument.
-/
import proofs.«159332_j33492154974470_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; the result buffer ends at what the last stretch of host
    operations leaves there, and every argument array ends as launched. -/
theorem run_result : θ_run defs (onTc (τ := τ) (main (F := F))) ⟨m, fun _ => 0, ρ⟩ (fun r => ∀ c : Dev nD,
      r.2.mem ((c.tc : Thread nD τ).loc main_v143) = W10 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v143 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c),
       (h c _ (mem_uc main_arg25 (by decide))).trans (W10_main_arg25 m ρ c),
       (h c _ (mem_uc main_arg26 (by decide))).trans (W10_main_arg26 m ρ c),
       (h c _ (mem_uc main_arg27 (by decide))).trans (W10_main_arg27 m ρ c),
       (h c _ (mem_uc main_arg28 (by decide))).trans (W10_main_arg28 m ρ c),
       (h c _ (mem_uc main_arg29 (by decide))).trans (W10_main_arg29 m ρ c),
       (h c _ (mem_uc main_arg30 (by decide))).trans (W10_main_arg30 m ρ c),
       (h c _ (mem_uc main_arg31 (by decide))).trans (W10_main_arg31 m ρ c),
       (h c _ (mem_uc main_arg32 (by decide))).trans (W10_main_arg32 m ρ c),
       (h c _ (mem_uc main_arg33 (by decide))).trans (W10_main_arg33 m ρ c),
       (h c _ (mem_uc main_arg34 (by decide))).trans (W10_main_arg34 m ρ c),
       (h c _ (mem_uc main_arg35 (by decide))).trans (W10_main_arg35 m ρ c),
       (h c _ (mem_uc main_arg36 (by decide))).trans (W10_main_arg36 m ρ c),
       (h c _ (mem_uc main_arg37 (by decide))).trans (W10_main_arg37 m ρ c),
       (h c _ (mem_uc main_arg38 (by decide))).trans (W10_main_arg38 m ρ c),
       (h c _ (mem_uc main_arg39 (by decide))).trans (W10_main_arg39 m ρ c),
       (h c _ (mem_uc main_arg40 (by decide))).trans (W10_main_arg40 m ρ c),
       (h c _ (mem_uc main_arg41 (by decide))).trans (W10_main_arg41 m ρ c),
       (h c _ (mem_uc main_arg42 (by decide))).trans (W10_main_arg42 m ρ c)⟩)

end Cert.KernelIdeal.Whole

end
-- ==== Proof.Kept.lean ====
/-
  What the four stretches of host operations leave alone.

  Between and after the launches the entry point runs four stretches of host operations: the long one that gathers,
  scales and scatter-adds the seven products into the three summed feature arrays (and lays the first bias out as a
  row), two one-operation stretches that lay the second and third bias out as rows, and the mean pooling at the end.
  Each operation writes one buffer of its own. A buffer that is not among those keeps its contents through the
  stretch; which buffers those are is read off the list once.
-/
import proofs.«159332_j33492154974470_1_alg».proof.Proof.Gen.KernelIdeal.Launch
import Idealize.ShloMosaic.Lib.StableHlo.Run

noncomputable section

namespace Cert.KernelIdeal.Whole

open Cert.KernelIdeal Cert.KernelIdeal.Gen Idealize.ShloMosaic Idealize.ShloMosaic.TcCoe Idealize.SL.Sem

variable {F : FTy → Type} [FloatOps F]

/-- The buffers the stretch after the three transform launches writes. -/
abbrev written3 : List (Ref sig .tc) := [main_v3, main_c, main_v4, main_v5, main_c_0, main_v6, main_v7, main_v8, main_v9, main_v10, main_v11, main_v12, main_cst, main_v13, main_v14, main_v15, main_v16, main_c_1, main_v17, main_v18, main_c_2, main_v19, main_v20, main_v21, main_v22, main_v23, main_v24, main_v25, main_cst_3, main_v26, main_v27, main_v28, main_v29, main_c_4, main_v30, main_v31, main_c_5, main_v32, main_v33, main_v34, main_v35, main_v36, main_v37, main_v38, main_cst_6, main_v39, main_v40, main_v41, main_v42, main_v43, main_v44, main_v45, main_c_7, main_v46, main_v47, main_c_8, main_v48, main_v49, main_v50, main_v51, main_v52, main_v53, main_v54, main_cst_9, main_v55, main_v56, main_v57, main_v58, main_c_10, main_v59, main_v60, main_c_11, main_v61, main_v62, main_v63, main_v64, main_v65, main_v66, main_v67, main_cst_12, main_v68, main_v69, main_v70, main_v71, main_c_13, main_v72, main_v73, main_c_14, main_v74, main_v75, main_v76, main_v77, main_v78, main_v79, main_v80, main_cst_15, main_v81, main_v82, main_v83, main_v84, main_c_16, main_v85, main_v86, main_c_17, main_v87, main_v88, main_v89, main_v90, main_v91, main_v92, main_v93, main_cst_18, main_v94, main_v95, main_v96, main_v97, main_v98, main_v99, main_v100, main_v101]

set_option maxRecDepth 8192 in
set_option maxHeartbeats 4000000 in
theorem stretch3_writes : (hostOps3 : List (HloOp τ sig (Elt F))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

/-- A buffer the stretch after the three transform launches does not write keeps its contents through it. -/
theorem kept3 (W : Valuation τ sig (Elt F)) (r : Ref sig .tc) (h : r ∉ written3) :
    StableHlo.after hostOps3 W (Proc.devRef .tc r) = W (Proc.devRef .tc r) :=
  StableHlo.after_of_writes_sub hostOps3 W stretch3_writes h

/-- The buffers the stretch after the first head launch writes. -/
abbrev written4 : List (Ref sig .tc) := [main_v103]

set_option maxRecDepth 8192 in
set_option maxHeartbeats 4000000 in
theorem stretch4_writes : (hostOps4 : List (HloOp τ sig (Elt F))).Forall fun op => op.writes ⊆ (written4.map (Proc.devRef (τ := τ) .tc)).toFinset := by
  simp only [hostOps4, List.Forall]
  (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

/-- A buffer the stretch after the first head launch does not write keeps its contents through it. -/
theorem kept4 (W : Valuation τ sig (Elt F)) (r : Ref sig .tc) (h : r ∉ written4) :
    StableHlo.after hostOps4 W (Proc.devRef .tc r) = W (Proc.devRef .tc r) :=
  StableHlo.after_of_writes_sub hostOps4 W stretch4_writes h

/-- The buffers the stretch after the second head launch writes. -/
abbrev written5 : List (Ref sig .tc) := [main_v105]

set_option maxRecDepth 8192 in
set_option maxHeartbeats 4000000 in
theorem stretch5_writes : (hostOps5 : List (HloOp τ sig (Elt F))).Forall fun op => op.writes ⊆ (written5.map (Proc.devRef (τ := τ) .tc)).toFinset := by
  simp only [hostOps5, List.Forall]
  (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

/-- A buffer the stretch after the second head launch does not write keeps its contents through it. -/
theorem kept5 (W : Valuation τ sig (Elt F)) (r : Ref sig .tc) (h : r ∉ written5) :
    StableHlo.after hostOps5 W (Proc.devRef .tc r) = W (Proc.devRef .tc r) :=
  StableHlo.after_of_writes_sub hostOps5 W stretch5_writes h

/-- The buffers the last stretch writes. -/
abbrev written6 : List (Ref sig .tc) := [main_cst_19, main_v107, main_v108, main_v109, main_cst_20, main_v110, main_cst_21, main_v111, main_v112, main_v113, main_cst_22, main_v114, main_v115, main_v116, main_v117, main_cst_23, main_v118, main_v119, main_v120, main_cst_24, main_v121, main_cst_25, main_v122, main_v123, main_v124, main_cst_26, main_v125, main_v126, main_v127, main_v128, main_cst_27, main_v129, main_v130, main_v131, main_cst_28, main_v132, main_cst_29, main_v133, main_v134, main_v135, main_cst_30, main_v136, main_v137, main_v138, main_v139, main_v140, main_v141, main_cst_31, main_v142, main_v143]

set_option maxRecDepth 8192 in
set_option maxHeartbeats 4000000 in
theorem stretch6_writes : (hostOps6 : List (HloOp τ sig (Elt F))).Forall fun op => op.writes ⊆ (written6.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

/-- A buffer the last stretch does not write keeps its contents through it. -/
theorem kept6 (W : Valuation τ sig (Elt F)) (r : Ref sig .tc) (h : r ∉ written6) :
    StableHlo.after hostOps6 W (Proc.devRef .tc r) = W (Proc.devRef .tc r) :=
  StableHlo.after_of_writes_sub hostOps6 W stretch6_writes h

end Cert.KernelIdeal.Whole

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.LibFloatWords.lean ====
/-
  A few float words as the extended reals they denote, and the two facts about `Ideal.div` and an absolute value that
  turn a product with a reciprocal `1 / (1 + |u|)` into the quotient by `1 + |u|`.

  The words are evaluated here once (unfolding `Ideal.ofBits` and `Ideal.ieee`), so that a proof reads them by name.
-/
import Idealize.ShloMosaic.PureOps.Ideal.Laws

noncomputable section

namespace Cert.LibFloatWords

open Idealize.ShloMosaic

/-- The word `0x3F800000` is the float one. -/
theorem ofBits_one_f32 : Ideal.ofBits .f32 0x3F800000#32 = 1 := by
  simp [Ideal.ofBits, Ideal.ieee, -EReal.coe_mul]; norm_num

/-- The word `0x43000000` is 128. -/
theorem ofBits_128_f32 : Ideal.ofBits .f32 0x43000000#32 = ((128 : ℝ) : EReal) := by
  simp [Ideal.ofBits, Ideal.ieee, -EReal.coe_mul]; norm_num

/-- The word `0x42FE0000` is 127. -/
theorem ofBits_127_f32 : Ideal.ofBits .f32 0x42FE0000#32 = ((127 : ℝ) : EReal) := by
  simp [Ideal.ofBits, Ideal.ieee, -EReal.coe_mul]; norm_num

/-- 128 less the integer one converted is the word of 127. -/
theorem c128_sub_one : Ideal.ofBits .f32 0x43000000#32 - (((1#32 : BitVec 32).toInt : ℝ) : EReal)
    = Ideal.ofBits .f32 0x42FE0000#32 := by
  rw [ofBits_128_f32, ofBits_127_f32, ← EReal.coe_sub]
  norm_num

/-- The word of 127 is above zero. -/
theorem cmp_ogt_127_zero : Ideal.cmp .ogt (Ideal.ofBits .f32 0x42FE0000#32) 0 = 1#1 := by
  rw [ofBits_127_f32]
  have h : (0 : EReal) < ((127 : ℝ) : EReal) := by exact_mod_cast (by norm_num : (0 : ℝ) < 127)
  simp [Ideal.cmp, h]

/-- A product with the reciprocal `1 / t` of a number at least one is the quotient by it. -/
theorem mul_div_one (a t : EReal) (ht : 1 ≤ t) : a * Ideal.div 1 t = Ideal.div a t := by
  have h0 : t ≠ 0 := (lt_of_lt_of_le zero_lt_one ht).ne'
  unfold Ideal.div
  rw [if_neg h0, if_neg h0, one_mul]

/-- One plus an absolute value is at least one. -/
theorem one_le_one_add_abs (u : EReal) : 1 ≤ 1 + max u (-u) := by
  have h : (0 : EReal) ≤ max u (-u) := by
    rcases le_total 0 u with hu | hu
    · exact le_max_of_le_left hu
    · exact le_max_of_le_right (EReal.neg_nonneg.mpr hu)
  exact le_add_of_nonneg_right h

end Cert.LibFloatWords

end
-- ==== Proof.RowTiles.lean ====
/-
  What the two kinds of kernel compute at one entry, on the extended reals, and what the reference computes there.

  A transform tile holds some rows of x. Narrowing a float to a shorter format is the identity on the extended
  reals, and a matrix product accumulated into zeros is the plain sum of products, so the tile's entry (p, q) is
  Σ_k x(p,k)·W(k,q). A head tile first applies the logistic function to every entry and afterwards adds the bias
  row, repeated down the tile: Σ_k σ(h(p,k))·W(k,q) + b(0,q).

  The reference works on whole arrays. Its matrix product read at (p, q) is the same sum. Its sigmoid is spelled
  1 / (1 + exp(−h)); on the extended reals the logistic function IS that expression, the two infinities included
  (σ(−∞) = 0 and σ(+∞) = 1 are the expression's own values there), so no entry has to be finite. Its bias is a
  vector laid out as one row and then repeated down the rows: at (p, q) it is b(q).
-/
import Idealize.ShloMosaic.PureOps.Ideal.Laws
import Idealize.ShloMosaic.Lib.ValueIdx
import Idealize.ShloMosaic.Lib.Pipeline.Value
import Idealize.ShloMosaic.Lib.ValueLayout
import proofs.«159332_j33492154974470_1_alg».proof.Proof.LibPlainMatmul
import proofs.«159332_j33492154974470_1_alg».proof.Proof.LibBroadcasts
import proofs.«159332_j33492154974470_1_alg».proof.Proof.LibFloatWords

noncomputable section

namespace Cert.RowTiles

open Idealize.ShloMosaic Idealize.ShloMosaic.ValueIdx
open scoped BigOperators

variable (M K N : ℕ)

/-- Entry (p, q) of the product of an [M, K] array with a [K, N] array: the sum over the shared axis. -/
def rowDot (x : (⟨2, ![M, K]⟩ : Shape).Idx → EReal) (w : (⟨2, ![K, N]⟩ : Shape).Idx → EReal) (p : Fin M) (q : Fin N) : EReal :=
  ∑ k : Fin K, x (ix2 p k) * w (ix2 k q)

/-- A transform tile: both operands narrowed, multiplied into zeros. -/
theorem transform_entry (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (h1 : FTy.bf16.bits < FTy.f32.bits) (h2 : FTy.bf16.bits < FTy.f32.bits) (p : Fin M) (q : Fin N) :
    matmul d prec (truncf .bf16 x h1) (truncf .bf16 w h2) (constant (F := Ideal) ⟨2, ![M, N]⟩ .f32 0x00000000#32) (ix2 p q)
      = rowDot M K N x w p q := by
  subst hd
  exact Cert.LibPlainMatmul.matmul_zero_apply M K N prec (truncf .bf16 x h1) (truncf .bf16 w h2) p q

/-- The reference's whole-array product at an entry. -/
theorem product_entry (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (p : Fin M) (q : Fin N) :
    Host.dotGeneral d prec x w (ix2 p q) = rowDot M K N x w p q := by
  subst hd
  exact Cert.LibPlainMatmul.dotGeneral_apply M K N prec x w p q

/-- The logistic function is the quotient 1 / (1 + exp(−x)) on every extended real. -/
theorem logistic_eq (x : EReal) : Ideal.logistic x = Ideal.div 1 (1 + Ideal.exp (-x)) := rfl

/-- The reference's sigmoid, written out with two splats of the word of 1.0, is the logistic function entry by entry. -/
theorem sigmoid_entry {S : Shape} (hb : (⟨0, ![]⟩ : Shape).BroadcastsInDim S ![]) (hb' : (⟨0, ![]⟩ : Shape).BroadcastsInDim S ![])
    (h : FVec Ideal S .f32) (i : S.Idx) :
    Host.divf (broadcastInDim S ![] hb (constant (F := Ideal) ⟨0, ![]⟩ .f32 0x3F800000#32))
        (addf (broadcastInDim S ![] hb' (constant (F := Ideal) ⟨0, ![]⟩ .f32 0x3F800000#32)) (Host.exp (Host.negf h))) i
      = Ideal.logistic (h i) := by
  simp only [Host.divf, addf, Host.exp, Host.negf, Cert.LibBroadcasts.scalar_apply, constant, Ideal.hostDivf_def,
    Ideal.addf_def, Ideal.hostUnary_exp_def, Ideal.hostNegf_def, Ideal.negf_def, Ideal.ofBits_def,
    Cert.LibFloatWords.ofBits_one_f32, logistic_eq]

/-- Entry (p, q) of a head: the logistic of every entry of row p against column q of the weights, plus the bias at q. -/
def headAt (h : (⟨2, ![M, K]⟩ : Shape).Idx → EReal) (w : (⟨2, ![K, N]⟩ : Shape).Idx → EReal) (b : Fin N → EReal)
    (p : Fin M) (q : Fin N) : EReal :=
  (∑ k : Fin K, Ideal.logistic (h (ix2 p k)) * w (ix2 k q)) + b q

/-- A head tile: logistic, narrowing, product into zeros, the bias row repeated down the tile. -/
theorem head_entry (d : DotDims ⟨2, ![M, K]⟩ ⟨2, ![K, N]⟩ ⟨2, ![M, N]⟩) (hd : d = DotDims.plain M K N)
    (prec : Option ContractPrecision) (h : FVec Ideal ⟨2, ![M, K]⟩ .f32) (w : FVec Ideal ⟨2, ![K, N]⟩ .f32)
    (b : FVec Ideal ⟨2, ![1, N]⟩ .f32)
    (hc1 : (⟨2, ![M, K]⟩ : Shape).ShapeCasts ⟨2, ![M, K]⟩) (hc2 : (⟨2, ![1, N]⟩ : Shape).ShapeCasts ⟨2, ![1, N]⟩)
    (hbr : (⟨2, ![1, N]⟩ : Shape).Broadcasts ⟨2, ![M, N]⟩)
    (h1 : FTy.bf16.bits < FTy.f32.bits) (h2 : FTy.bf16.bits < FTy.f32.bits) (p : Fin M) (q : Fin N) :
    addf (matmul d prec (truncf .bf16 (logistic (shapeCast ⟨2, ![M, K]⟩ h hc1)) h1) (truncf .bf16 w h2)
          (constant (F := Ideal) ⟨2, ![M, N]⟩ .f32 0x00000000#32))
        (broadcastTo ⟨2, ![M, N]⟩ (shapeCast ⟨2, ![1, N]⟩ b hc2) hbr) (ix2 p q)
      = headAt M K N h w (fun q => b (ix2 (0 : Fin 1) q)) p q := by
  subst hd
  rw [shapeCast_self, shapeCast_self]
  show (matmul (DotDims.plain M K N) prec (truncf .bf16 (logistic h) h1) (truncf .bf16 w h2)
      (constant (F := Ideal) ⟨2, ![M, N]⟩ .f32 0x00000000#32) (ix2 p q) : EReal)
      + broadcastTo ⟨2, ![M, N]⟩ b hbr (ix2 p q) = _
  rw [Cert.LibPlainMatmul.matmul_zero_apply M K N prec (truncf .bf16 (logistic h) h1) (truncf .bf16 w h2) p q,
    broadcastTo_1b_ab_apply]
  rfl

/-- The reference's head on whole arrays, at an entry: sigmoid written out, product, the bias laid out as a row and
    repeated down the rows. -/
theorem head_reference_entry (d : DotDims ⟨2, ![M, K]⟩ ⟨2, ![K, N]⟩ ⟨2, ![M, N]⟩) (hd : d = DotDims.plain M K N)
    (prec : Option ContractPrecision) (h : FVec Ideal ⟨2, ![M, K]⟩ .f32) (w : FVec Ideal ⟨2, ![K, N]⟩ .f32)
    (b : FVec Ideal ⟨1, ![N]⟩ .f32)
    (hb : (⟨0, ![]⟩ : Shape).BroadcastsInDim ⟨2, ![M, K]⟩ ![]) (hb' : (⟨0, ![]⟩ : Shape).BroadcastsInDim ⟨2, ![M, K]⟩ ![])
    (hrow : (⟨1, ![N]⟩ : Shape).BroadcastsInDim ⟨2, ![1, N]⟩ ![1])
    (hrows : (⟨2, ![1, N]⟩ : Shape).BroadcastsInDim ⟨2, ![M, N]⟩ ![0, 1]) (p : Fin M) (q : Fin N) :
    addf (Host.dotGeneral d prec
          (Host.divf (broadcastInDim ⟨2, ![M, K]⟩ ![] hb (constant (F := Ideal) ⟨0, ![]⟩ .f32 0x3F800000#32))
            (addf (broadcastInDim ⟨2, ![M, K]⟩ ![] hb' (constant (F := Ideal) ⟨0, ![]⟩ .f32 0x3F800000#32)) (Host.exp (Host.negf h))))
          w)
        (broadcastInDim ⟨2, ![M, N]⟩ ![0, 1] hrows (broadcastInDim ⟨2, ![1, N]⟩ ![1] hrow b)) (ix2 p q)
      = headAt M K N h w (fun q => b (ix1 q)) p q := by
  subst hd
  show (Host.dotGeneral (DotDims.plain M K N) prec _ w (ix2 p q) : EReal) + _ = _
  rw [Cert.LibPlainMatmul.dotGeneral_apply, Cert.LibBroadcasts.rows_apply, Cert.LibBroadcasts.row_apply]
  unfold headAt
  congr 1
  exact Finset.sum_congr rfl fun k _ => by rw [sigmoid_entry]

/-! ## Agreement of two entries -/

/-- Two row-against-column sums agree when their factors agree position by position. -/
theorem rowDot_agree (M' : ℕ) (x : (⟨2, ![M, K]⟩ : Shape).Idx → EReal) (w : (⟨2, ![K, N]⟩ : Shape).Idx → EReal)
    (X : (⟨2, ![M', K]⟩ : Shape).Idx → EReal) (Wt : (⟨2, ![K, N]⟩ : Shape).Idx → EReal)
    (p : Fin M) (q : Fin N) (p' : Fin M') (q' : Fin N)
    (hx : ∀ k : Fin K, x (ix2 p k) = X (ix2 p' k)) (hw : ∀ k : Fin K, w (ix2 k q) = Wt (ix2 k q')) :
    rowDot M K N x w p q = rowDot M' K N X Wt p' q' := by
  unfold rowDot
  exact Finset.sum_congr rfl fun k _ => by rw [hx k, hw k]

/-- Two head entries agree when their rows, weight columns and bias entries agree. -/
theorem headAt_agree (M' : ℕ) (h : (⟨2, ![M, K]⟩ : Shape).Idx → EReal) (w : (⟨2, ![K, N]⟩ : Shape).Idx → EReal) (b : Fin N → EReal)
    (H : (⟨2, ![M', K]⟩ : Shape).Idx → EReal) (Wt : (⟨2, ![K, N]⟩ : Shape).Idx → EReal) (B : Fin N → EReal)
    (p : Fin M) (q : Fin N) (p' : Fin M') (q' : Fin N)
    (hh : ∀ k : Fin K, h (ix2 p k) = H (ix2 p' k)) (hw : ∀ k : Fin K, w (ix2 k q) = Wt (ix2 k q')) (hb : b q = B q') :
    headAt M K N h w b p q = headAt M' K N H Wt B p' q' := by
  unfold headAt
  rw [hb]
  congr 1
  exact Finset.sum_congr rfl fun k _ => by rw [hh k, hw k]

/-! ## The same, as whole arrays -/

/-- The product array: entry i is row i₀ of x against column i₁ of w. -/
def product (x : (⟨2, ![M, K]⟩ : Shape).Idx → EReal) (w : (⟨2, ![K, N]⟩ : Shape).Idx → EReal) :
    (⟨2, ![M, N]⟩ : Shape).Idx → EReal :=
  fun i => rowDot M K N x w (i 0) (i 1)

/-- The head array: entry i is the logistic of row i₀ of h against column i₁ of w, plus the bias at i₁. -/
def head (h : (⟨2, ![M, K]⟩ : Shape).Idx → EReal) (w : (⟨2, ![K, N]⟩ : Shape).Idx → EReal) (b : Fin N → EReal) :
    (⟨2, ![M, N]⟩ : Shape).Idx → EReal :=
  fun i => headAt M K N h w b (i 0) (i 1)

/-- The reference's whole-array product is the product array. -/
theorem product_reference (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = product M K N x w := by
  funext i
  rw [eq_ix2 i]
  exact product_entry M K N d hd prec x w (i 0) (i 1)

/-- The reference's whole-array head is the head array of the bias vector. -/
theorem head_reference (d : DotDims ⟨2, ![M, K]⟩ ⟨2, ![K, N]⟩ ⟨2, ![M, N]⟩) (hd : d = DotDims.plain M K N)
    (prec : Option ContractPrecision) (h : FVec Ideal ⟨2, ![M, K]⟩ .f32) (w : FVec Ideal ⟨2, ![K, N]⟩ .f32)
    (b : FVec Ideal ⟨1, ![N]⟩ .f32)
    (hb : (⟨0, ![]⟩ : Shape).BroadcastsInDim ⟨2, ![M, K]⟩ ![]) (hb' : (⟨0, ![]⟩ : Shape).BroadcastsInDim ⟨2, ![M, K]⟩ ![])
    (hrow : (⟨1, ![N]⟩ : Shape).BroadcastsInDim ⟨2, ![1, N]⟩ ![1])
    (hrows : (⟨2, ![1, N]⟩ : Shape).BroadcastsInDim ⟨2, ![M, N]⟩ ![0, 1]) :
    addf (Host.dotGeneral d prec
          (Host.divf (broadcastInDim ⟨2, ![M, K]⟩ ![] hb (constant (F := Ideal) ⟨0, ![]⟩ .f32 0x3F800000#32))
            (addf (broadcastInDim ⟨2, ![M, K]⟩ ![] hb' (constant (F := Ideal) ⟨0, ![]⟩ .f32 0x3F800000#32)) (Host.exp (Host.negf h))))
          w)
        (broadcastInDim ⟨2, ![M, N]⟩ ![0, 1] hrows (broadcastInDim ⟨2, ![1, N]⟩ ![1] hrow b))
      = head M K N h w (fun q => b (ix1 q)) := by
  funext i
  rw [eq_ix2 i]
  exact head_reference_entry M K N d hd prec h w b hb hb' hrow hrows (i 0) (i 1)

end Cert.RowTiles

end
-- ==== Proof.Transform0.lean ====
/-
  The first transform launch: its two output arrays as whole-array products.

  The launch walks ten row tiles of 2000 rows. At tile t it stages rows 2000·t … 2000·t + 1999 of x₀ and both weight
  matrices whole, and writes the tile's two products back to the same rows of the two outputs. Row r of an output is
  therefore written exactly once, by tile r / 2000, with Σ_k x₀(r,k)·W(k,q): each output is the product array of x₀
  with its weight matrix.
-/
import proofs.«159332_j33492154974470_1_alg».proof.Proof.Gen.KernelIdeal.Frame
import proofs.«159332_j33492154974470_1_alg».proof.Proof.RowTiles

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_start0 : (![0, 0] : Fin 2 → Nat) = fun _ => 0 := funext fun a => by fin_cases a <;> rfl

/-- The printed index maps over the 10 tiles: x and the outputs move down the rows with the tile number, the weight
    matrices stay put. -/
theorem tiles0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One tile's first product at an entry. -/
theorem tile0_3 (x0 : Vec Ideal S2000x256 .f32) (x1 : Vec Ideal S256x256 .f32) (p : Fin 2000) (q : Fin 256) :
    k0_pay2 x0 x1 (ix2 p q) = Cert.RowTiles.rowDot 2000 256 256 x0 x1 p q := by
  unfold k0_pay2 k0_pay1
  exact Cert.RowTiles.transform_entry 2000 256 256 _ rfl none x0 x1 _ _ p q

/-- What tile t writes back to the first output is tile t of the product array. -/
theorem written0_3 (c : Dev nD) (t : Fin cfg0.N) :
    (dat0 V c).flushed 3 t = ((cfg0.win 3).blk t).view.read (Elt Ideal)
      (Cert.RowTiles.product 20000 256 256 (V c main_arg0) (V c main_arg30)) := by
  show (cfg0.win 3).cut (grid0.coords t) ((dat0 V c).after 3 t) = _
  rw [after0_3]
  unfold out0_3
  rw [View.canon_unit_zero zero_start0]
  simp only [View.ld_unit_zero (S := S2000x256) zero_start0, View.ld_unit_zero (S := S256x256) zero_start0]
  obtain ⟨e0, e1, e2, e3, e4, e5, e6, e7, e8, e9⟩ := tiles0 t
  funext j
  obtain ⟨p, q, rfl⟩ : ∃ (p : Fin 2000) (q : Fin 256), j = ix2 p q := ⟨j 0, j 1, eq_ix2 j⟩
  refine (tile0_3 (iblk0 V c 0 t) (iblk0 V c 1 t) p q).trans ?_
  refine Cert.RowTiles.rowDot_agree 2000 256 256 20000 (iblk0 V c 0 t) (iblk0 V c 1 t) (V c main_arg0) (V c main_arg30) p q _ _ (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * k.val = k.val; omega
  · show V c main_arg30 (((cfg0.win 1).blk t).view.emb (ix2 k q)) = _
    refine congrArg (V c main_arg30) ?_
    funext a; apply Fin.ext
    match a with
    | ⟨0, _⟩ => show win0_1.index t (0 : Fin 2) * 256 + 1 * k.val = k.val; omega
    | ⟨1, _⟩ => show win0_1.index t (1 : Fin 2) * 256 + 1 * q.val = win0_3.index t (1 : Fin 2) * 256 + 1 * q.val; omega

/-- An index of the first output lies in tile t's block iff each coordinate lies in the block's range. -/
theorem in_tile0_3 (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v0_0).slice (win0_3.rect t)).set ↔ _
  rw [View.set_slice_whole, Rect.mem_set_unit]
  exact Iff.rfl

/-- Every row of the first output is in some tile: row r in tile r / 2000. -/
theorem tiled0_3 (i : S20000x256.Idx) :
    ∃ t : Fin cfg0.N, (cfg0.win 3).flush t = true ∧ i ∈ ((cfg0.win 3).blk t).view.set := by
  have hi0 : (i 0).val < 20000 := (i 0).isLt
  have hi1 : (i 1).val < 256 := (i 1).isLt
  have hN : grid0.N = 10 := N_0
  have ht : (i 0).val / 2000 < grid0.N := by rw [hN]; omega
  refine ⟨⟨(i 0).val / 2000, ht⟩, flush0_3 _, ?_⟩
  rw [in_tile0_3]
  obtain ⟨e0, e1, e2, e3, e4, e5, e6, e7, e8, e9⟩ := tiles0 ⟨(i 0).val / 2000, ht⟩
  have hrow : win0_3.index ⟨(i 0).val / 2000, ht⟩ (0 : Fin 2) = (i 0).val / 2000 := e6
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; omega
  | ⟨1, _⟩ => show win0_3.index ⟨(i 0).val / 2000, ht⟩ (1 : Fin 2) * 256 ≤ (i 1).val ∧ (i 1).val < win0_3.index ⟨(i 0).val / 2000, ht⟩ (1 : Fin 2) * 256 + 256; omega

/-- The first output array after the launch is the product array of x with its weight matrix. -/
theorem array0_3 (c : Dev nD) :
    (dat0 V c).arrAt 3 cfg0.N = Cert.RowTiles.product 20000 256 256 (V c main_arg0) (V c main_arg30) :=
  (dat0 V c).arrAt_eq_of_cover 3 _ (fun t _ => written0_3 V c t) tiled0_3

/-- One tile's second product at an entry. -/
theorem tile0_4 (x0 : Vec Ideal S2000x256 .f32) (x1 : Vec Ideal S256x256 .f32) (p : Fin 2000) (q : Fin 256) :
    k0_pay3 x0 x1 (ix2 p q) = Cert.RowTiles.rowDot 2000 256 256 x0 x1 p q := by
  unfold k0_pay3 k0_pay1
  exact Cert.RowTiles.transform_entry 2000 256 256 _ rfl none x0 x1 _ _ p q

/-- What tile t writes back to the second output is tile t of the product array. -/
theorem written0_4 (c : Dev nD) (t : Fin cfg0.N) :
    (dat0 V c).flushed 4 t = ((cfg0.win 4).blk t).view.read (Elt Ideal)
      (Cert.RowTiles.product 20000 256 256 (V c main_arg0) (V c main_arg32)) := by
  show (cfg0.win 4).cut (grid0.coords t) ((dat0 V c).after 4 t) = _
  rw [after0_4]
  unfold out0_4
  rw [View.canon_unit_zero zero_start0]
  simp only [View.ld_unit_zero (S := S2000x256) zero_start0, View.ld_unit_zero (S := S256x256) zero_start0]
  obtain ⟨e0, e1, e2, e3, e4, e5, e6, e7, e8, e9⟩ := tiles0 t
  funext j
  obtain ⟨p, q, rfl⟩ : ∃ (p : Fin 2000) (q : Fin 256), j = ix2 p q := ⟨j 0, j 1, eq_ix2 j⟩
  refine (tile0_4 (iblk0 V c 0 t) (iblk0 V c 2 t) p q).trans ?_
  refine Cert.RowTiles.rowDot_agree 2000 256 256 20000 (iblk0 V c 0 t) (iblk0 V c 2 t) (V c main_arg0) (V c main_arg32) p q _ _ (fun k => ?_) (fun k => ?_)
  · show V c main_arg0 (((cfg0.win 0).blk t).view.emb (ix2 p k)) = _
    refine congrArg (V c main_arg0) ?_
    funext a; apply Fin.ext
    match a with
    | ⟨0, _⟩ => show win0_0.index t (0 : Fin 2) * 2000 + 1 * p.val = win0_4.index t (0 : Fin 2) * 2000 + 1 * p.val; omega
    | ⟨1, _⟩ => show win0_0.index t (1 : Fin 2) * 256 + 1 * k.val = k.val; omega
  · show V c main_arg32 (((cfg0.win 2).blk t).view.emb (ix2 k q)) = _
    refine congrArg (V c main_arg32) ?_
    funext a; apply Fin.ext
    match a with
    | ⟨0, _⟩ => show win0_2.index t (0 : Fin 2) * 256 + 1 * k.val = k.val; omega
    | ⟨1, _⟩ => show win0_2.index t (1 : Fin 2) * 256 + 1 * q.val = win0_4.index t (1 : Fin 2) * 256 + 1 * q.val; omega

/-- An index of the second output lies in tile t's block iff each coordinate lies in the block's range. -/
theorem in_tile0_4 (t : Fin cfg0.N) (i : S20000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v0_1).slice (win0_4.rect t)).set ↔ _
  rw [View.set_slice_whole, Rect.mem_set_unit]
  exact Iff.rfl

/-- Every row of the second output is in some tile: row r in tile r / 2000. -/
theorem tiled0_4 (i : S20000x256.Idx) :
    ∃ t : Fin cfg0.N, (cfg0.win 4).flush t = true ∧ i ∈ ((cfg0.win 4).blk t).view.set := by
  have hi0 : (i 0).val < 20000 := (i 0).isLt
  have hi1 : (i 1).val < 256 := (i 1).isLt
  have hN : grid0.N = 10 := N_0
  have ht : (i 0).val / 2000 < grid0.N := by rw [hN]; omega
  refine ⟨⟨(i 0).val / 2000, ht⟩, flush0_4 _, ?_⟩
  rw [in_tile0_4]
  obtain ⟨e0, e1, e2, e3, e4, e5, e6, e7, e8, e9⟩ := tiles0 ⟨(i 0).val / 2000, ht⟩
  have hrow : win0_4.index ⟨(i 0).val / 2000, ht⟩ (0 : Fin 2) = (i 0).val / 2000 := e8
  intro a
  match a with
  | ⟨0, _⟩ => show win0_4.index ⟨(i 0).val / 2000, ht⟩ (0 : Fin 2) * 2000 ≤ (i 0).val ∧ (i 0).val < win0_4.index ⟨(i 0).val / 2000, ht⟩ (0 : Fin 2) * 2000 + 2000; omega
  | ⟨1, _⟩ => show win0_4.index ⟨(i 0).val / 2000, ht⟩ (1 : Fin 2) * 256 ≤ (i 1).val ∧ (i 1).val < win0_4.index ⟨(i 0).val / 2000, ht⟩ (1 : Fin 2) * 256 + 256; omega

/-- The second output array after the launch is the product array of x with its weight matrix. -/
theorem array0_4 (c : Dev nD) :
    (dat0 V c).arrAt 4 cfg0.N = Cert.RowTiles.product 20000 256 256 (V c main_arg0) (V c main_arg32) :=
  (dat0 V c).arrAt_eq_of_cover 4 _ (fun t _ => written0_4 V c t) tiled0_4

end Cert.KernelIdeal.Whole

end
-- ==== Proof.Transform1.lean ====
/-
  The second transform launch: its three output arrays as whole-array products.

  Thirty row tiles of 2000 rows of x₁, three weight matrices staged whole, three outputs. Row r of each output is
  written once, by tile r / 2000, with Σ_k x₁(r,k)·W(k,q): each output is the product array of x₁ with its weight matrix.
-/
import proofs.«159332_j33492154974470_1_alg».proof.Proof.Gen.KernelIdeal.Frame
import proofs.«159332_j33492154974470_1_alg».proof.Proof.RowTiles

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_start1 : (![0, 0] : Fin 2 → Nat) = fun _ => 0 := funext fun a => by fin_cases a <;> rfl

/-- The printed index maps over the 30 tiles: x and the outputs move down the rows with the tile number, the weight
    matrices stay put. -/
theorem tiles1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- One tile's first product at an entry. -/
theorem tile1_4 (x0 : Vec Ideal S2000x256 .f32) (x1 : Vec Ideal S256x256 .f32) (p : Fin 2000) (q : Fin 256) :
    k1_pay2 x0 x1 (ix2 p q) = Cert.RowTiles.rowDot 2000 256 256 x0 x1 p q := by
  unfold k1_pay2 k1_pay1
  exact Cert.RowTiles.transform_entry 2000 256 256 _ rfl none x0 x1 _ _ p q

/-- What tile t writes back to the first output is tile t of the product array. -/
theorem written1_4 (c : Dev nD) (t : Fin cfg1.N) :
    (dat1 V c).flushed 4 t = ((cfg1.win 4).blk t).view.read (Elt Ideal)
      (Cert.RowTiles.product 60000 256 256 (V c main_arg1) (V c main_arg31)) := by
  show (cfg1.win 4).cut (grid1.coords t) ((dat1 V c).after 4 t) = _
  rw [after1_4]
  unfold out1_4
  rw [View.canon_unit_zero zero_start1]
  simp only [View.ld_unit_zero (S := S2000x256) zero_start1, View.ld_unit_zero (S := S256x256) zero_start1]
  obtain ⟨e0, e1, e2, e3, e4, e5, e6, e7, e8, e9, e10, e11, e12, e13⟩ := tiles1 t
  funext j
  obtain ⟨p, q, rfl⟩ : ∃ (p : Fin 2000) (q : Fin 256), j = ix2 p q := ⟨j 0, j 1, eq_ix2 j⟩
  refine (tile1_4 (iblk1 V c 0 t) (iblk1 V c 1 t) p q).trans ?_
  refine Cert.RowTiles.rowDot_agree 2000 256 256 60000 (iblk1 V c 0 t) (iblk1 V c 1 t) (V c main_arg1) (V c main_arg31) p q _ _ (fun k => ?_) (fun k => ?_)
  · show V c main_arg1 (((cfg1.win 0).blk t).view.emb (ix2 p k)) = _
    refine congrArg (V c main_arg1) ?_
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 256 + 1 * k.val = k.val; omega
  · show V c main_arg31 (((cfg1.win 1).blk t).view.emb (ix2 k q)) = _
    refine congrArg (V c main_arg31) ?_
    funext a; apply Fin.ext
    match a with
    | ⟨0, _⟩ => show win1_1.index t (0 : Fin 2) * 256 + 1 * k.val = k.val; omega
    | ⟨1, _⟩ => show win1_1.index t (1 : Fin 2) * 256 + 1 * q.val = win1_4.index t (1 : Fin 2) * 256 + 1 * q.val; omega

/-- An index of the first output lies in tile t's block iff each coordinate lies in the block's range. -/
theorem in_tile1_4 (t : Fin cfg1.N) (i : S60000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v1_0).slice (win1_4.rect t)).set ↔ _
  rw [View.set_slice_whole, Rect.mem_set_unit]
  exact Iff.rfl

/-- Every row of the first output is in some tile: row r in tile r / 2000. -/
theorem tiled1_4 (i : S60000x256.Idx) :
    ∃ t : Fin cfg1.N, (cfg1.win 4).flush t = true ∧ i ∈ ((cfg1.win 4).blk t).view.set := by
  have hi0 : (i 0).val < 60000 := (i 0).isLt
  have hi1 : (i 1).val < 256 := (i 1).isLt
  have hN : grid1.N = 30 := N_1
  have ht : (i 0).val / 2000 < grid1.N := by rw [hN]; omega
  refine ⟨⟨(i 0).val / 2000, ht⟩, flush1_4 _, ?_⟩
  rw [in_tile1_4]
  obtain ⟨e0, e1, e2, e3, e4, e5, e6, e7, e8, e9, e10, e11, e12, e13⟩ := tiles1 ⟨(i 0).val / 2000, ht⟩
  have hrow : win1_4.index ⟨(i 0).val / 2000, ht⟩ (0 : Fin 2) = (i 0).val / 2000 := e8
  intro a
  match a with
  | ⟨0, _⟩ => show win1_4.index ⟨(i 0).val / 2000, ht⟩ (0 : Fin 2) * 2000 ≤ (i 0).val ∧ (i 0).val < win1_4.index ⟨(i 0).val / 2000, ht⟩ (0 : Fin 2) * 2000 + 2000; omega
  | ⟨1, _⟩ => show win1_4.index ⟨(i 0).val / 2000, ht⟩ (1 : Fin 2) * 256 ≤ (i 1).val ∧ (i 1).val < win1_4.index ⟨(i 0).val / 2000, ht⟩ (1 : Fin 2) * 256 + 256; omega

/-- The first output array after the launch is the product array of x with its weight matrix. -/
theorem array1_4 (c : Dev nD) :
    (dat1 V c).arrAt 4 cfg1.N = Cert.RowTiles.product 60000 256 256 (V c main_arg1) (V c main_arg31) :=
  (dat1 V c).arrAt_eq_of_cover 4 _ (fun t _ => written1_4 V c t) tiled1_4

/-- One tile's second product at an entry. -/
theorem tile1_5 (x0 : Vec Ideal S2000x256 .f32) (x1 : Vec Ideal S256x256 .f32) (p : Fin 2000) (q : Fin 256) :
    k1_pay3 x0 x1 (ix2 p q) = Cert.RowTiles.rowDot 2000 256 256 x0 x1 p q := by
  unfold k1_pay3 k1_pay1
  exact Cert.RowTiles.transform_entry 2000 256 256 _ rfl none x0 x1 _ _ p q

/-- What tile t writes back to the second output is tile t of the product array. -/
theorem written1_5 (c : Dev nD) (t : Fin cfg1.N) :
    (dat1 V c).flushed 5 t = ((cfg1.win 5).blk t).view.read (Elt Ideal)
      (Cert.RowTiles.product 60000 256 256 (V c main_arg1) (V c main_arg33)) := by
  show (cfg1.win 5).cut (grid1.coords t) ((dat1 V c).after 5 t) = _
  rw [after1_5]
  unfold out1_5
  rw [View.canon_unit_zero zero_start1]
  simp only [View.ld_unit_zero (S := S2000x256) zero_start1, View.ld_unit_zero (S := S256x256) zero_start1]
  obtain ⟨e0, e1, e2, e3, e4, e5, e6, e7, e8, e9, e10, e11, e12, e13⟩ := tiles1 t
  funext j
  obtain ⟨p, q, rfl⟩ : ∃ (p : Fin 2000) (q : Fin 256), j = ix2 p q := ⟨j 0, j 1, eq_ix2 j⟩
  refine (tile1_5 (iblk1 V c 0 t) (iblk1 V c 2 t) p q).trans ?_
  refine Cert.RowTiles.rowDot_agree 2000 256 256 60000 (iblk1 V c 0 t) (iblk1 V c 2 t) (V c main_arg1) (V c main_arg33) p q _ _ (fun k => ?_) (fun k => ?_)
  · show V c main_arg1 (((cfg1.win 0).blk t).view.emb (ix2 p k)) = _
    refine congrArg (V c main_arg1) ?_
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 256 + 1 * k.val = k.val; omega
  · show V c main_arg33 (((cfg1.win 2).blk t).view.emb (ix2 k q)) = _
    refine congrArg (V c main_arg33) ?_
    funext a; apply Fin.ext
    match a with
    | ⟨0, _⟩ => show win1_2.index t (0 : Fin 2) * 256 + 1 * k.val = k.val; omega
    | ⟨1, _⟩ => show win1_2.index t (1 : Fin 2) * 256 + 1 * q.val = win1_5.index t (1 : Fin 2) * 256 + 1 * q.val; omega

/-- An index of the second output lies in tile t's block iff each coordinate lies in the block's range. -/
theorem in_tile1_5 (t : Fin cfg1.N) (i : S60000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v1_1).slice (win1_5.rect t)).set ↔ _
  rw [View.set_slice_whole, Rect.mem_set_unit]
  exact Iff.rfl

/-- Every row of the second output is in some tile: row r in tile r / 2000. -/
theorem tiled1_5 (i : S60000x256.Idx) :
    ∃ t : Fin cfg1.N, (cfg1.win 5).flush t = true ∧ i ∈ ((cfg1.win 5).blk t).view.set := by
  have hi0 : (i 0).val < 60000 := (i 0).isLt
  have hi1 : (i 1).val < 256 := (i 1).isLt
  have hN : grid1.N = 30 := N_1
  have ht : (i 0).val / 2000 < grid1.N := by rw [hN]; omega
  refine ⟨⟨(i 0).val / 2000, ht⟩, flush1_5 _, ?_⟩
  rw [in_tile1_5]
  obtain ⟨e0, e1, e2, e3, e4, e5, e6, e7, e8, e9, e10, e11, e12, e13⟩ := tiles1 ⟨(i 0).val / 2000, ht⟩
  have hrow : win1_5.index ⟨(i 0).val / 2000, ht⟩ (0 : Fin 2) = (i 0).val / 2000 := e10
  intro a
  match a with
  | ⟨0, _⟩ => show win1_5.index ⟨(i 0).val / 2000, ht⟩ (0 : Fin 2) * 2000 ≤ (i 0).val ∧ (i 0).val < win1_5.index ⟨(i 0).val / 2000, ht⟩ (0 : Fin 2) * 2000 + 2000; omega
  | ⟨1, _⟩ => show win1_5.index ⟨(i 0).val / 2000, ht⟩ (1 : Fin 2) * 256 ≤ (i 1).val ∧ (i 1).val < win1_5.index ⟨(i 0).val / 2000, ht⟩ (1 : Fin 2) * 256 + 256; omega

/-- The second output array after the launch is the product array of x with its weight matrix. -/
theorem array1_5 (c : Dev nD) :
    (dat1 V c).arrAt 5 cfg1.N = Cert.RowTiles.product 60000 256 256 (V c main_arg1) (V c main_arg33) :=
  (dat1 V c).arrAt_eq_of_cover 5 _ (fun t _ => written1_5 V c t) tiled1_5

/-- One tile's third product at an entry. -/
theorem tile1_6 (x0 : Vec Ideal S2000x256 .f32) (x1 : Vec Ideal S256x256 .f32) (p : Fin 2000) (q : Fin 256) :
    k1_pay4 x0 x1 (ix2 p q) = Cert.RowTiles.rowDot 2000 256 256 x0 x1 p q := by
  unfold k1_pay4 k1_pay1
  exact Cert.RowTiles.transform_entry 2000 256 256 _ rfl none x0 x1 _ _ p q

/-- What tile t writes back to the third output is tile t of the product array. -/
theorem written1_6 (c : Dev nD) (t : Fin cfg1.N) :
    (dat1 V c).flushed 6 t = ((cfg1.win 6).blk t).view.read (Elt Ideal)
      (Cert.RowTiles.product 60000 256 256 (V c main_arg1) (V c main_arg35)) := by
  show (cfg1.win 6).cut (grid1.coords t) ((dat1 V c).after 6 t) = _
  rw [after1_6]
  unfold out1_6
  rw [View.canon_unit_zero zero_start1]
  simp only [View.ld_unit_zero (S := S2000x256) zero_start1, View.ld_unit_zero (S := S256x256) zero_start1]
  obtain ⟨e0, e1, e2, e3, e4, e5, e6, e7, e8, e9, e10, e11, e12, e13⟩ := tiles1 t
  funext j
  obtain ⟨p, q, rfl⟩ : ∃ (p : Fin 2000) (q : Fin 256), j = ix2 p q := ⟨j 0, j 1, eq_ix2 j⟩
  refine (tile1_6 (iblk1 V c 0 t) (iblk1 V c 3 t) p q).trans ?_
  refine Cert.RowTiles.rowDot_agree 2000 256 256 60000 (iblk1 V c 0 t) (iblk1 V c 3 t) (V c main_arg1) (V c main_arg35) p q _ _ (fun k => ?_) (fun k => ?_)
  · show V c main_arg1 (((cfg1.win 0).blk t).view.emb (ix2 p k)) = _
    refine congrArg (V c main_arg1) ?_
    funext a; apply Fin.ext
    match a with
    | ⟨0, _⟩ => show win1_0.index t (0 : Fin 2) * 2000 + 1 * p.val = win1_6.index t (0 : Fin 2) * 2000 + 1 * p.val; omega
    | ⟨1, _⟩ => show win1_0.index t (1 : Fin 2) * 256 + 1 * k.val = k.val; omega
  · show V c main_arg35 (((cfg1.win 3).blk t).view.emb (ix2 k q)) = _
    refine congrArg (V c main_arg35) ?_
    funext a; apply Fin.ext
    match a with
    | ⟨0, _⟩ => show win1_3.index t (0 : Fin 2) * 256 + 1 * k.val = k.val; omega
    | ⟨1, _⟩ => show win1_3.index t (1 : Fin 2) * 256 + 1 * q.val = win1_6.index t (1 : Fin 2) * 256 + 1 * q.val; omega

/-- An index of the third output lies in tile t's block iff each coordinate lies in the block's range. -/
theorem in_tile1_6 (t : Fin cfg1.N) (i : S60000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v1_2).slice (win1_6.rect t)).set ↔ _
  rw [View.set_slice_whole, Rect.mem_set_unit]
  exact Iff.rfl

/-- Every row of the third output is in some tile: row r in tile r / 2000. -/
theorem tiled1_6 (i : S60000x256.Idx) :
    ∃ t : Fin cfg1.N, (cfg1.win 6).flush t = true ∧ i ∈ ((cfg1.win 6).blk t).view.set := by
  have hi0 : (i 0).val < 60000 := (i 0).isLt
  have hi1 : (i 1).val < 256 := (i 1).isLt
  have hN : grid1.N = 30 := N_1
  have ht : (i 0).val / 2000 < grid1.N := by rw [hN]; omega
  refine ⟨⟨(i 0).val / 2000, ht⟩, flush1_6 _, ?_⟩
  rw [in_tile1_6]
  obtain ⟨e0, e1, e2, e3, e4, e5, e6, e7, e8, e9, e10, e11, e12, e13⟩ := tiles1 ⟨(i 0).val / 2000, ht⟩
  have hrow : win1_6.index ⟨(i 0).val / 2000, ht⟩ (0 : Fin 2) = (i 0).val / 2000 := e12
  intro a
  match a with
  | ⟨0, _⟩ => show win1_6.index ⟨(i 0).val / 2000, ht⟩ (0 : Fin 2) * 2000 ≤ (i 0).val ∧ (i 0).val < win1_6.index ⟨(i 0).val / 2000, ht⟩ (0 : Fin 2) * 2000 + 2000; omega
  | ⟨1, _⟩ => show win1_6.index ⟨(i 0).val / 2000, ht⟩ (1 : Fin 2) * 256 ≤ (i 1).val ∧ (i 1).val < win1_6.index ⟨(i 0).val / 2000, ht⟩ (1 : Fin 2) * 256 + 256; omega

/-- The third output array after the launch is the product array of x with its weight matrix. -/
theorem array1_6 (c : Dev nD) :
    (dat1 V c).arrAt 6 cfg1.N = Cert.RowTiles.product 60000 256 256 (V c main_arg1) (V c main_arg35) :=
  (dat1 V c).arrAt_eq_of_cover 6 _ (fun t _ => written1_6 V c t) tiled1_6

end Cert.KernelIdeal.Whole

end
-- ==== Proof.Transform2.lean ====
/-
  The third transform launch: its two output arrays as whole-array products.

  Twenty row tiles of 2000 rows of x₂, two weight matrices staged whole, two outputs. Row r of each output is written
  once, by tile r / 2000, with Σ_k x₂(r,k)·W(k,q): each output is the product array of x₂ with its weight matrix.
-/
import proofs.«159332_j33492154974470_1_alg».proof.Proof.Gen.KernelIdeal.Frame
import proofs.«159332_j33492154974470_1_alg».proof.Proof.RowTiles

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_start2 : (![0, 0] : Fin 2 → Nat) = fun _ => 0 := funext fun a => by fin_cases a <;> rfl

/-- The printed index maps over the 20 tiles: x and the outputs move down the rows with the tile number, the weight
    matrices stay put. -/
theorem tiles2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- One tile's first product at an entry. -/
theorem tile2_3 (x0 : Vec Ideal S2000x256 .f32) (x1 : Vec Ideal S256x256 .f32) (p : Fin 2000) (q : Fin 256) :
    k2_pay2 x0 x1 (ix2 p q) = Cert.RowTiles.rowDot 2000 256 256 x0 x1 p q := by
  unfold k2_pay2 k2_pay1
  exact Cert.RowTiles.transform_entry 2000 256 256 _ rfl none x0 x1 _ _ p q

/-- What tile t writes back to the first output is tile t of the product array. -/
theorem written2_3 (c : Dev nD) (t : Fin cfg2.N) :
    (dat2 V c).flushed 3 t = ((cfg2.win 3).blk t).view.read (Elt Ideal)
      (Cert.RowTiles.product 40000 256 256 (V c main_arg2) (V c main_arg34)) := by
  show (cfg2.win 3).cut (grid2.coords t) ((dat2 V c).after 3 t) = _
  rw [after2_3]
  unfold out2_3
  rw [View.canon_unit_zero zero_start2]
  simp only [View.ld_unit_zero (S := S2000x256) zero_start2, View.ld_unit_zero (S := S256x256) zero_start2]
  obtain ⟨e0, e1, e2, e3, e4, e5, e6, e7, e8, e9⟩ := tiles2 t
  funext j
  obtain ⟨p, q, rfl⟩ : ∃ (p : Fin 2000) (q : Fin 256), j = ix2 p q := ⟨j 0, j 1, eq_ix2 j⟩
  refine (tile2_3 (iblk2 V c 0 t) (iblk2 V c 1 t) p q).trans ?_
  refine Cert.RowTiles.rowDot_agree 2000 256 256 40000 (iblk2 V c 0 t) (iblk2 V c 1 t) (V c main_arg2) (V c main_arg34) p q _ _ (fun k => ?_) (fun k => ?_)
  · show V c main_arg2 (((cfg2.win 0).blk t).view.emb (ix2 p k)) = _
    refine congrArg (V c main_arg2) ?_
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 256 + 1 * k.val = k.val; omega
  · show V c main_arg34 (((cfg2.win 1).blk t).view.emb (ix2 k q)) = _
    refine congrArg (V c main_arg34) ?_
    funext a; apply Fin.ext
    match a with
    | ⟨0, _⟩ => show win2_1.index t (0 : Fin 2) * 256 + 1 * k.val = k.val; omega
    | ⟨1, _⟩ => show win2_1.index t (1 : Fin 2) * 256 + 1 * q.val = win2_3.index t (1 : Fin 2) * 256 + 1 * q.val; omega

/-- An index of the first output lies in tile t's block iff each coordinate lies in the block's range. -/
theorem in_tile2_3 (t : Fin cfg2.N) (i : S40000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v2_0).slice (win2_3.rect t)).set ↔ _
  rw [View.set_slice_whole, Rect.mem_set_unit]
  exact Iff.rfl

/-- Every row of the first output is in some tile: row r in tile r / 2000. -/
theorem tiled2_3 (i : S40000x256.Idx) :
    ∃ t : Fin cfg2.N, (cfg2.win 3).flush t = true ∧ i ∈ ((cfg2.win 3).blk t).view.set := by
  have hi0 : (i 0).val < 40000 := (i 0).isLt
  have hi1 : (i 1).val < 256 := (i 1).isLt
  have hN : grid2.N = 20 := N_2
  have ht : (i 0).val / 2000 < grid2.N := by rw [hN]; omega
  refine ⟨⟨(i 0).val / 2000, ht⟩, flush2_3 _, ?_⟩
  rw [in_tile2_3]
  obtain ⟨e0, e1, e2, e3, e4, e5, e6, e7, e8, e9⟩ := tiles2 ⟨(i 0).val / 2000, ht⟩
  have hrow : win2_3.index ⟨(i 0).val / 2000, ht⟩ (0 : Fin 2) = (i 0).val / 2000 := e6
  intro a
  match a with
  | ⟨0, _⟩ => show win2_3.index ⟨(i 0).val / 2000, ht⟩ (0 : Fin 2) * 2000 ≤ (i 0).val ∧ (i 0).val < win2_3.index ⟨(i 0).val / 2000, ht⟩ (0 : Fin 2) * 2000 + 2000; omega
  | ⟨1, _⟩ => show win2_3.index ⟨(i 0).val / 2000, ht⟩ (1 : Fin 2) * 256 ≤ (i 1).val ∧ (i 1).val < win2_3.index ⟨(i 0).val / 2000, ht⟩ (1 : Fin 2) * 256 + 256; omega

/-- The first output array after the launch is the product array of x with its weight matrix. -/
theorem array2_3 (c : Dev nD) :
    (dat2 V c).arrAt 3 cfg2.N = Cert.RowTiles.product 40000 256 256 (V c main_arg2) (V c main_arg34) :=
  (dat2 V c).arrAt_eq_of_cover 3 _ (fun t _ => written2_3 V c t) tiled2_3

/-- One tile's second product at an entry. -/
theorem tile2_4 (x0 : Vec Ideal S2000x256 .f32) (x1 : Vec Ideal S256x256 .f32) (p : Fin 2000) (q : Fin 256) :
    k2_pay3 x0 x1 (ix2 p q) = Cert.RowTiles.rowDot 2000 256 256 x0 x1 p q := by
  unfold k2_pay3 k2_pay1
  exact Cert.RowTiles.transform_entry 2000 256 256 _ rfl none x0 x1 _ _ p q

/-- What tile t writes back to the second output is tile t of the product array. -/
theorem written2_4 (c : Dev nD) (t : Fin cfg2.N) :
    (dat2 V c).flushed 4 t = ((cfg2.win 4).blk t).view.read (Elt Ideal)
      (Cert.RowTiles.product 40000 256 256 (V c main_arg2) (V c main_arg36)) := by
  show (cfg2.win 4).cut (grid2.coords t) ((dat2 V c).after 4 t) = _
  rw [after2_4]
  unfold out2_4
  rw [View.canon_unit_zero zero_start2]
  simp only [View.ld_unit_zero (S := S2000x256) zero_start2, View.ld_unit_zero (S := S256x256) zero_start2]
  obtain ⟨e0, e1, e2, e3, e4, e5, e6, e7, e8, e9⟩ := tiles2 t
  funext j
  obtain ⟨p, q, rfl⟩ : ∃ (p : Fin 2000) (q : Fin 256), j = ix2 p q := ⟨j 0, j 1, eq_ix2 j⟩
  refine (tile2_4 (iblk2 V c 0 t) (iblk2 V c 2 t) p q).trans ?_
  refine Cert.RowTiles.rowDot_agree 2000 256 256 40000 (iblk2 V c 0 t) (iblk2 V c 2 t) (V c main_arg2) (V c main_arg36) p q _ _ (fun k => ?_) (fun k => ?_)
  · show V c main_arg2 (((cfg2.win 0).blk t).view.emb (ix2 p k)) = _
    refine congrArg (V c main_arg2) ?_
    funext a; apply Fin.ext
    match a with
    | ⟨0, _⟩ => show win2_0.index t (0 : Fin 2) * 2000 + 1 * p.val = win2_4.index t (0 : Fin 2) * 2000 + 1 * p.val; omega
    | ⟨1, _⟩ => show win2_0.index t (1 : Fin 2) * 256 + 1 * k.val = k.val; omega
  · show V c main_arg36 (((cfg2.win 2).blk t).view.emb (ix2 k q)) = _
    refine congrArg (V c main_arg36) ?_
    funext a; apply Fin.ext
    match a with
    | ⟨0, _⟩ => show win2_2.index t (0 : Fin 2) * 256 + 1 * k.val = k.val; omega
    | ⟨1, _⟩ => show win2_2.index t (1 : Fin 2) * 256 + 1 * q.val = win2_4.index t (1 : Fin 2) * 256 + 1 * q.val; omega

/-- An index of the second output lies in tile t's block iff each coordinate lies in the block's range. -/
theorem in_tile2_4 (t : Fin cfg2.N) (i : S40000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v2_1).slice (win2_4.rect t)).set ↔ _
  rw [View.set_slice_whole, Rect.mem_set_unit]
  exact Iff.rfl

/-- Every row of the second output is in some tile: row r in tile r / 2000. -/
theorem tiled2_4 (i : S40000x256.Idx) :
    ∃ t : Fin cfg2.N, (cfg2.win 4).flush t = true ∧ i ∈ ((cfg2.win 4).blk t).view.set := by
  have hi0 : (i 0).val < 40000 := (i 0).isLt
  have hi1 : (i 1).val < 256 := (i 1).isLt
  have hN : grid2.N = 20 := N_2
  have ht : (i 0).val / 2000 < grid2.N := by rw [hN]; omega
  refine ⟨⟨(i 0).val / 2000, ht⟩, flush2_4 _, ?_⟩
  rw [in_tile2_4]
  obtain ⟨e0, e1, e2, e3, e4, e5, e6, e7, e8, e9⟩ := tiles2 ⟨(i 0).val / 2000, ht⟩
  have hrow : win2_4.index ⟨(i 0).val / 2000, ht⟩ (0 : Fin 2) = (i 0).val / 2000 := e8
  intro a
  match a with
  | ⟨0, _⟩ => show win2_4.index ⟨(i 0).val / 2000, ht⟩ (0 : Fin 2) * 2000 ≤ (i 0).val ∧ (i 0).val < win2_4.index ⟨(i 0).val / 2000, ht⟩ (0 : Fin 2) * 2000 + 2000; omega
  | ⟨1, _⟩ => show win2_4.index ⟨(i 0).val / 2000, ht⟩ (1 : Fin 2) * 256 ≤ (i 1).val ∧ (i 1).val < win2_4.index ⟨(i 0).val / 2000, ht⟩ (1 : Fin 2) * 256 + 256; omega

/-- The second output array after the launch is the product array of x with its weight matrix. -/
theorem array2_4 (c : Dev nD) :
    (dat2 V c).arrAt 4 cfg2.N = Cert.RowTiles.product 40000 256 256 (V c main_arg2) (V c main_arg36) :=
  (dat2 V c).arrAt_eq_of_cover 4 _ (fun t _ => written2_4 V c t) tiled2_4

end Cert.KernelIdeal.Whole

end
-- ==== Proof.Head3.lean ====
/-
  The first head launch: its output array as a whole-array head.

  Ten row tiles of 2000 rows of the summed features h₀. At tile t the launch stages those rows, the weight matrix
  and the bias row whole, and writes back, to the same rows of the output, the logistic of each feature row against
  the weight columns plus the bias. Row r is written once, by tile r / 2000: the output is the head array.
-/
import proofs.«159332_j33492154974470_1_alg».proof.Proof.Gen.KernelIdeal.Frame
import proofs.«159332_j33492154974470_1_alg».proof.Proof.RowTiles

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_start3 : (![0, 0] : Fin 2 → Nat) = fun _ => 0 := funext fun a => by fin_cases a <;> rfl

/-- The printed index maps over the 10 tiles: the feature rows and the output move down the rows with the tile number;
    the weight matrix and the bias row stay put. -/
theorem tiles3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One tile of the head at an entry. -/
theorem tile3_3 (x0 : Vec Ideal S2000x256 .f32) (x1 : Vec Ideal S256x64 .f32) (x2 : Vec Ideal S1x64 .f32) (p : Fin 2000) (q : Fin 64) :
    k3_pay1 x0 x1 x2 (ix2 p q) = Cert.RowTiles.headAt 2000 256 64 x0 x1 (fun q => x2 (ix2 (0 : Fin 1) q)) p q := by
  unfold k3_pay1
  exact Cert.RowTiles.head_entry 2000 256 64 _ rfl none x0 x1 x2 _ _ _ _ _ p q

/-- What tile t writes back is tile t of the head array. -/
theorem written3_3 (c : Dev nD) (t : Fin cfg3.N) :
    (dat3 V c).flushed 3 t = ((cfg3.win 3).blk t).view.read (Elt Ideal)
      (Cert.RowTiles.head 20000 256 64 (V c main_v97) (V c main_arg37) (fun q => V c main_v101 (ix2 (0 : Fin 1) q))) := by
  show (cfg3.win 3).cut (grid3.coords t) ((dat3 V c).after 3 t) = _
  rw [after3_3]
  unfold out3_3
  rw [View.canon_unit_zero zero_start3]
  simp only [View.ld_unit_zero (S := S2000x256) zero_start3, View.ld_unit_zero (S := S256x64) zero_start3, View.ld_unit_zero (S := S1x64) zero_start3]
  obtain ⟨e0, e1, e2, e3, e4, e5, e6, e7⟩ := tiles3 t
  funext j
  obtain ⟨p, q, rfl⟩ : ∃ (p : Fin 2000) (q : Fin 64), j = ix2 p q := ⟨j 0, j 1, eq_ix2 j⟩
  refine (tile3_3 (iblk3 V c 0 t) (iblk3 V c 1 t) (iblk3 V c 2 t) p q).trans ?_
  refine Cert.RowTiles.headAt_agree 2000 256 64 20000 (iblk3 V c 0 t) (iblk3 V c 1 t) (fun q => iblk3 V c 2 t (ix2 (0 : Fin 1) q))
    (V c main_v97) (V c main_arg37) (fun q => V c main_v101 (ix2 (0 : Fin 1) q)) p q _ _ (fun k => ?_) (fun k => ?_) ?_
  · show V c main_v97 (((cfg3.win 0).blk t).view.emb (ix2 p k)) = _
    refine congrArg (V c main_v97) ?_
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 256 + 1 * k.val = k.val; omega
  · show V c main_arg37 (((cfg3.win 1).blk t).view.emb (ix2 k q)) = _
    refine congrArg (V c main_arg37) ?_
    funext a; apply Fin.ext
    match a with
    | ⟨0, _⟩ => show win3_1.index t (0 : Fin 2) * 256 + 1 * k.val = k.val; omega
    | ⟨1, _⟩ => show win3_1.index t (1 : Fin 2) * 64 + 1 * q.val = win3_3.index t (1 : Fin 2) * 64 + 1 * q.val; omega
  · show V c main_v101 (((cfg3.win 2).blk t).view.emb (ix2 (0 : Fin 1) q)) = _
    refine congrArg (V c main_v101) ?_
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega

/-- An index of the output lies in tile t's block iff each coordinate lies in the block's range. -/
theorem in_tile3_3 (t : Fin cfg3.N) (i : S20000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v102).slice (win3_3.rect t)).set ↔ _
  rw [View.set_slice_whole, Rect.mem_set_unit]
  exact Iff.rfl

/-- Every row of the output is in some tile: row r in tile r / 2000. -/
theorem tiled3_3 (i : S20000x64.Idx) :
    ∃ t : Fin cfg3.N, (cfg3.win 3).flush t = true ∧ i ∈ ((cfg3.win 3).blk t).view.set := by
  have hi0 : (i 0).val < 20000 := (i 0).isLt
  have hi1 : (i 1).val < 64 := (i 1).isLt
  have hN : grid3.N = 10 := N_3
  have ht : (i 0).val / 2000 < grid3.N := by rw [hN]; omega
  refine ⟨⟨(i 0).val / 2000, ht⟩, flush3_3 _, ?_⟩
  rw [in_tile3_3]
  obtain ⟨e0, e1, e2, e3, e4, e5, e6, e7⟩ := tiles3 ⟨(i 0).val / 2000, ht⟩
  have hrow : win3_3.index ⟨(i 0).val / 2000, ht⟩ (0 : Fin 2) = (i 0).val / 2000 := e6
  intro a
  match a with
  | ⟨0, _⟩ => show win3_3.index ⟨(i 0).val / 2000, ht⟩ (0 : Fin 2) * 2000 ≤ (i 0).val ∧ (i 0).val < win3_3.index ⟨(i 0).val / 2000, ht⟩ (0 : Fin 2) * 2000 + 2000; omega
  | ⟨1, _⟩ => show win3_3.index ⟨(i 0).val / 2000, ht⟩ (1 : Fin 2) * 64 ≤ (i 1).val ∧ (i 1).val < win3_3.index ⟨(i 0).val / 2000, ht⟩ (1 : Fin 2) * 64 + 64; omega

/-- The output array after the launch is the head array of the summed features, the weights and the bias row. -/
theorem array3_3 (c : Dev nD) :
    (dat3 V c).arrAt 3 cfg3.N
      = Cert.RowTiles.head 20000 256 64 (V c main_v97) (V c main_arg37) (fun q => V c main_v101 (ix2 (0 : Fin 1) q)) :=
  (dat3 V c).arrAt_eq_of_cover 3 _ (fun t _ => written3_3 V c t) tiled3_3

end Cert.KernelIdeal.Whole

end
-- ==== Proof.Head4.lean ====
/-
  The second head launch: its output array as a whole-array head.

  Thirty row tiles of 2000 rows of the summed features h₁. At tile t the launch stages those rows, the weight matrix
  and the bias row whole, and writes back, to the same rows of the output, the logistic of each feature row against
  the weight columns plus the bias. Row r is written once, by tile r / 2000: the output is the head array.
-/
import proofs.«159332_j33492154974470_1_alg».proof.Proof.Gen.KernelIdeal.Frame
import proofs.«159332_j33492154974470_1_alg».proof.Proof.RowTiles

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_start4 : (![0, 0] : Fin 2 → Nat) = fun _ => 0 := funext fun a => by fin_cases a <;> rfl

/-- The printed index maps over the 30 tiles: the feature rows and the output move down the rows with the tile number;
    the weight matrix and the bias row stay put. -/
theorem tiles4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- One tile of the head at an entry. -/
theorem tile4_3 (x0 : Vec Ideal S2000x256 .f32) (x1 : Vec Ideal S256x64 .f32) (x2 : Vec Ideal S1x64 .f32) (p : Fin 2000) (q : Fin 64) :
    k4_pay1 x0 x1 x2 (ix2 p q) = Cert.RowTiles.headAt 2000 256 64 x0 x1 (fun q => x2 (ix2 (0 : Fin 1) q)) p q := by
  unfold k4_pay1
  exact Cert.RowTiles.head_entry 2000 256 64 _ rfl none x0 x1 x2 _ _ _ _ _ p q

/-- What tile t writes back is tile t of the head array. -/
theorem written4_3 (c : Dev nD) (t : Fin cfg4.N) :
    (dat4 V c).flushed 3 t = ((cfg4.win 3).blk t).view.read (Elt Ideal)
      (Cert.RowTiles.head 60000 256 64 (V c main_v99) (V c main_arg39) (fun q => V c main_v103 (ix2 (0 : Fin 1) q))) := by
  show (cfg4.win 3).cut (grid4.coords t) ((dat4 V c).after 3 t) = _
  rw [after4_3]
  unfold out4_3
  rw [View.canon_unit_zero zero_start4]
  simp only [View.ld_unit_zero (S := S2000x256) zero_start4, View.ld_unit_zero (S := S256x64) zero_start4, View.ld_unit_zero (S := S1x64) zero_start4]
  obtain ⟨e0, e1, e2, e3, e4, e5, e6, e7⟩ := tiles4 t
  funext j
  obtain ⟨p, q, rfl⟩ : ∃ (p : Fin 2000) (q : Fin 64), j = ix2 p q := ⟨j 0, j 1, eq_ix2 j⟩
  refine (tile4_3 (iblk4 V c 0 t) (iblk4 V c 1 t) (iblk4 V c 2 t) p q).trans ?_
  refine Cert.RowTiles.headAt_agree 2000 256 64 60000 (iblk4 V c 0 t) (iblk4 V c 1 t) (fun q => iblk4 V c 2 t (ix2 (0 : Fin 1) q))
    (V c main_v99) (V c main_arg39) (fun q => V c main_v103 (ix2 (0 : Fin 1) q)) p q _ _ (fun k => ?_) (fun k => ?_) ?_
  · show V c main_v99 (((cfg4.win 0).blk t).view.emb (ix2 p k)) = _
    refine congrArg (V c main_v99) ?_
    funext a; apply Fin.ext
    match a with
    | ⟨0, _⟩ => show win4_0.index t (0 : Fin 2) * 2000 + 1 * p.val = win4_3.index t (0 : Fin 2) * 2000 + 1 * p.val; omega
    | ⟨1, _⟩ => show win4_0.index t (1 : Fin 2) * 256 + 1 * k.val = k.val; omega
  · show V c main_arg39 (((cfg4.win 1).blk t).view.emb (ix2 k q)) = _
    refine congrArg (V c main_arg39) ?_
    funext a; apply Fin.ext
    match a with
    | ⟨0, _⟩ => show win4_1.index t (0 : Fin 2) * 256 + 1 * k.val = k.val; omega
    | ⟨1, _⟩ => show win4_1.index t (1 : Fin 2) * 64 + 1 * q.val = win4_3.index t (1 : Fin 2) * 64 + 1 * q.val; omega
  · show V c main_v103 (((cfg4.win 2).blk t).view.emb (ix2 (0 : Fin 1) q)) = _
    refine congrArg (V c main_v103) ?_
    funext a; apply Fin.ext
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega

/-- An index of the output lies in tile t's block iff each coordinate lies in the block's range. -/
theorem in_tile4_3 (t : Fin cfg4.N) (i : S60000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v104).slice (win4_3.rect t)).set ↔ _
  rw [View.set_slice_whole, Rect.mem_set_unit]
  exact Iff.rfl

/-- Every row of the output is in some tile: row r in tile r / 2000. -/
theorem tiled4_3 (i : S60000x64.Idx) :
    ∃ t : Fin cfg4.N, (cfg4.win 3).flush t = true ∧ i ∈ ((cfg4.win 3).blk t).view.set := by
  have hi0 : (i 0).val < 60000 := (i 0).isLt
  have hi1 : (i 1).val < 64 := (i 1).isLt
  have hN : grid4.N = 30 := N_4
  have ht : (i 0).val / 2000 < grid4.N := by rw [hN]; omega
  refine ⟨⟨(i 0).val / 2000, ht⟩, flush4_3 _, ?_⟩
  rw [in_tile4_3]
  obtain ⟨e0, e1, e2, e3, e4, e5, e6, e7⟩ := tiles4 ⟨(i 0).val / 2000, ht⟩
  have hrow : win4_3.index ⟨(i 0).val / 2000, ht⟩ (0 : Fin 2) = (i 0).val / 2000 := e6
  intro a
  match a with
  | ⟨0, _⟩ => show win4_3.index ⟨(i 0).val / 2000, ht⟩ (0 : Fin 2) * 2000 ≤ (i 0).val ∧ (i 0).val < win4_3.index ⟨(i 0).val / 2000, ht⟩ (0 : Fin 2) * 2000 + 2000; omega
  | ⟨1, _⟩ => show win4_3.index ⟨(i 0).val / 2000, ht⟩ (1 : Fin 2) * 64 ≤ (i 1).val ∧ (i 1).val < win4_3.index ⟨(i 0).val / 2000, ht⟩ (1 : Fin 2) * 64 + 64; omega

/-- The output array after the launch is the head array of the summed features, the weights and the bias row. -/
theorem array4_3 (c : Dev nD) :
    (dat4 V c).arrAt 3 cfg4.N
      = Cert.RowTiles.head 60000 256 64 (V c main_v99) (V c main_arg39) (fun q => V c main_v103 (ix2 (0 : Fin 1) q)) :=
  (dat4 V c).arrAt_eq_of_cover 3 _ (fun t _ => written4_3 V c t) tiled4_3

end Cert.KernelIdeal.Whole

end
-- ==== Proof.Head5.lean ====
/-
  The third head launch: its output array as a whole-array head.

  Twenty row tiles of 2000 rows of the summed features h₂. At tile t the launch stages those rows, the weight matrix
  and the bias row whole, and writes back, to the same rows of the output, the logistic of each feature row against
  the weight columns plus the bias. Row r is written once, by tile r / 2000: the output is the head array.
-/
import proofs.«159332_j33492154974470_1_alg».proof.Proof.Gen.KernelIdeal.Frame
import proofs.«159332_j33492154974470_1_alg».proof.Proof.RowTiles

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero_start5 : (![0, 0] : Fin 2 → Nat) = fun _ => 0 := funext fun a => by fin_cases a <;> rfl

/-- The printed index maps over the 20 tiles: the feature rows and the output move down the rows with the tile number;
    the weight matrix and the bias row stay put. -/
theorem tiles5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- One tile of the head at an entry. -/
theorem tile5_3 (x0 : Vec Ideal S2000x256 .f32) (x1 : Vec Ideal S256x64 .f32) (x2 : Vec Ideal S1x64 .f32) (p : Fin 2000) (q : Fin 64) :
    k5_pay1 x0 x1 x2 (ix2 p q) = Cert.RowTiles.headAt 2000 256 64 x0 x1 (fun q => x2 (ix2 (0 : Fin 1) q)) p q := by
  unfold k5_pay1
  exact Cert.RowTiles.head_entry 2000 256 64 _ rfl none x0 x1 x2 _ _ _ _ _ p q

/-- What tile t writes back is tile t of the head array. -/
theorem written5_3 (c : Dev nD) (t : Fin cfg5.N) :
    (dat5 V c).flushed 3 t = ((cfg5.win 3).blk t).view.read (Elt Ideal)
      (Cert.RowTiles.head 40000 256 64 (V c main_v100) (V c main_arg41) (fun q => V c main_v105 (ix2 (0 : Fin 1) q))) := by
  show (cfg5.win 3).cut (grid5.coords t) ((dat5 V c).after 3 t) = _
  rw [after5_3]
  unfold out5_3
  rw [View.canon_unit_zero zero_start5]
  simp only [View.ld_unit_zero (S := S2000x256) zero_start5, View.ld_unit_zero (S := S256x64) zero_start5, View.ld_unit_zero (S := S1x64) zero_start5]
  obtain ⟨e0, e1, e2, e3, e4, e5, e6, e7⟩ := tiles5 t
  funext j
  obtain ⟨p, q, rfl⟩ : ∃ (p : Fin 2000) (q : Fin 64), j = ix2 p q := ⟨j 0, j 1, eq_ix2 j⟩
  refine (tile5_3 (iblk5 V c 0 t) (iblk5 V c 1 t) (iblk5 V c 2 t) p q).trans ?_
  refine Cert.RowTiles.headAt_agree 2000 256 64 40000 (iblk5 V c 0 t) (iblk5 V c 1 t) (fun q => iblk5 V c 2 t (ix2 (0 : Fin 1) q))
    (V c main_v100) (V c main_arg41) (fun q => V c main_v105 (ix2 (0 : Fin 1) q)) p q _ _ (fun k => ?_) (fun k => ?_) ?_
  · show V c main_v100 (((cfg5.win 0).blk t).view.emb (ix2 p k)) = _
    refine congrArg (V c main_v100) ?_
    funext a; apply Fin.ext
    match a with
    | ⟨0, _⟩ => show win5_0.index t (0 : Fin 2) * 2000 + 1 * p.val = win5_3.index t (0 : Fin 2) * 2000 + 1 * p.val; omega
    | ⟨1, _⟩ => show win5_0.index t (1 : Fin 2) * 256 + 1 * k.val = k.val; omega
  · show V c main_arg41 (((cfg5.win 1).blk t).view.emb (ix2 k q)) = _
    refine congrArg (V c main_arg41) ?_
    funext a; apply Fin.ext
    match a with
    | ⟨0, _⟩ => show win5_1.index t (0 : Fin 2) * 256 + 1 * k.val = k.val; omega
    | ⟨1, _⟩ => show win5_1.index t (1 : Fin 2) * 64 + 1 * q.val = win5_3.index t (1 : Fin 2) * 64 + 1 * q.val; omega
  · show V c main_v105 (((cfg5.win 2).blk t).view.emb (ix2 (0 : Fin 1) q)) = _
    refine congrArg (V c main_v105) ?_
    funext a; apply Fin.ext
    match a with
    | ⟨0, _⟩ => show win5_2.index t (0 : Fin 2) * 1 + 1 * 0 = 0; omega
    | ⟨1, _⟩ => show win5_2.index t (1 : Fin 2) * 64 + 1 * q.val = win5_3.index t (1 : Fin 2) * 64 + 1 * q.val; omega

/-- An index of the output lies in tile t's block iff each coordinate lies in the block's range. -/
theorem in_tile5_3 (t : Fin cfg5.N) (i : S40000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v106).slice (win5_3.rect t)).set ↔ _
  rw [View.set_slice_whole, Rect.mem_set_unit]
  exact Iff.rfl

/-- Every row of the output is in some tile: row r in tile r / 2000. -/
theorem tiled5_3 (i : S40000x64.Idx) :
    ∃ t : Fin cfg5.N, (cfg5.win 3).flush t = true ∧ i ∈ ((cfg5.win 3).blk t).view.set := by
  have hi0 : (i 0).val < 40000 := (i 0).isLt
  have hi1 : (i 1).val < 64 := (i 1).isLt
  have hN : grid5.N = 20 := N_5
  have ht : (i 0).val / 2000 < grid5.N := by rw [hN]; omega
  refine ⟨⟨(i 0).val / 2000, ht⟩, flush5_3 _, ?_⟩
  rw [in_tile5_3]
  obtain ⟨e0, e1, e2, e3, e4, e5, e6, e7⟩ := tiles5 ⟨(i 0).val / 2000, ht⟩
  have hrow : win5_3.index ⟨(i 0).val / 2000, ht⟩ (0 : Fin 2) = (i 0).val / 2000 := e6
  intro a
  match a with
  | ⟨0, _⟩ => show win5_3.index ⟨(i 0).val / 2000, ht⟩ (0 : Fin 2) * 2000 ≤ (i 0).val ∧ (i 0).val < win5_3.index ⟨(i 0).val / 2000, ht⟩ (0 : Fin 2) * 2000 + 2000; omega
  | ⟨1, _⟩ => show win5_3.index ⟨(i 0).val / 2000, ht⟩ (1 : Fin 2) * 64 ≤ (i 1).val ∧ (i 1).val < win5_3.index ⟨(i 0).val / 2000, ht⟩ (1 : Fin 2) * 64 + 64; omega

/-- The output array after the launch is the head array of the summed features, the weights and the bias row. -/
theorem array5_3 (c : Dev nD) :
    (dat5 V c).arrAt 3 cfg5.N
      = Cert.RowTiles.head 40000 256 64 (V c main_v100) (V c main_arg41) (fun q => V c main_v105 (ix2 (0 : Fin 1) q)) :=
  (dat5 V c).arrAt_eq_of_cover 3 _ (fun t _ => written5_3 V c t) tiled5_3

end Cert.KernelIdeal.Whole

end
-- ==== Proof.LibFoldRead.lean ====
/-
  Reading a fold of host operations back to the launch contents, one rewriting pass over the whole fold, past
  two spots where such a pass otherwise stops.

  (1) A concatenate holds its operands in a list of (shape, array) pairs, and a rewrite does not reach inside such a
  pair.  `join2` / `join3` are the concatenate of two / three pieces as an ordinary function of the pieces;
  `concatenate_two` / `concatenate_three` turn the one spelling into the other, by definition.
  (2) An operation with a literal family of three operand references (a three-piece `stablehlo.concatenate`) gives
  its result over `fun k => F (xs k)`, under whose binder no operand is a literal reference; `nary3_result'` states
  the result with each operand's contents at its own reference (the library has the four-operand form).

  `fold_read` is the library's one-pass reading of the operations' results with these added.
-/
import Idealize.ShloMosaic.Lib.StableHlo.Run

noncomputable section

namespace Cert.LibFoldRead

open Idealize.ShloMosaic Idealize.ShloMosaic.StableHlo

variable {α : Type}

/-- The concatenate of two pieces along axis `a`, as a function of the pieces. -/
def join2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The concatenate of three pieces along axis `a`, as a function of the pieces. -/
def join3 (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

theorem concatenate_two (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = join2 t a s₁ s₂ h x₁ x₂ := rfl

theorem concatenate_three (t : Shape) (a : Fin t.rank) (s₁ s₂ s₃ : Shape) (x₁ : s₁.Idx → α) (x₂ : s₂.Idx → α)
    (x₃ : s₃.Idx → α) (h : Shape.Concatenates [s₁, s₂, s₃] t a) :
    concatenate t a [⟨s₁, x₁⟩, ⟨s₂, x₂⟩, ⟨s₃, x₃⟩] h = join3 t a s₁ s₂ s₃ h x₁ x₂ x₃ := rfl

section
variable {τ : Topo} {sig : RefSig} {Val : EltTy → Type} {x a b y : Ref sig .tc}

/-- An operation over a literal family of three references: the result with each operand's contents at its own
    reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl
end

/-- The third member of a literal family of three. -/
theorem cons3_two {β : Fin 3 → Sort _} (u : β 0) (v : β 1) (w : β 2) (e : (i : Fin 0) → β i.succ.succ.succ) :
    (Fin.cons u (Fin.cons v (Fin.cons w e)) : (i : Fin 3) → β i) 2 = w := rfl

/-- The one-pass reading of a fold's results, entering concatenates and three-operand operations.  (The generic
    several-operand result lemma is left out: it would leave the operands under a binder before the literal
    three- and four-operand forms are tried.) -/
macro "fold_read" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne',
      concatenate_two, concatenate_three, Fin.cons_zero, Fin.cons_one, cons3_two]))

end Cert.LibFoldRead

end
-- ==== Proof.Fold.lean ====
/-
  The fold of the ten segments, read back.

  A launch changes only its own arrays and a stretch of host operations only the buffers it writes, so the contents of
  a buffer at any boundary are found by walking back to the segment that last wrote it. Walked back in this way:
  every argument array still holds what was launched; after the three transform launches the seven outputs are the
  seven product arrays; each head launch finds the summed features the long stretch computed, its own weights, and its
  bias laid out as a row, and leaves the head array; and the three head arrays are still in place when the mean
  pooling starts.
-/
import proofs.«159332_j33492154974470_1_alg».proof.Proof.Gen.KernelIdeal.Frame
import proofs.«159332_j33492154974470_1_alg».proof.Proof.Kept
import proofs.«159332_j33492154974470_1_alg».proof.Proof.Transform0
import proofs.«159332_j33492154974470_1_alg».proof.Proof.Transform1
import proofs.«159332_j33492154974470_1_alg».proof.Proof.Transform2
import proofs.«159332_j33492154974470_1_alg».proof.Proof.Head3
import proofs.«159332_j33492154974470_1_alg».proof.Proof.Head4
import proofs.«159332_j33492154974470_1_alg».proof.Proof.Head5
import proofs.«159332_j33492154974470_1_alg».proof.Proof.LibFoldRead
import proofs.«159332_j33492154974470_1_alg».proof.Proof.LibBroadcasts
import proofs.«159332_j33492154974470_1_alg».proof.Proof.RowTiles

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Cert.LibFoldRead
open scoped BigOperators

variable (m : (ℓ : Loc nD τ sig) → Buf (Elt Ideal) ℓ) (ρ : Dev nD → PrngReg) (c : Dev nD)

/-! ## Buffers no earlier segment writes hold what was launched -/

theorem launched3 (b : Ref sig .tc) (h0 : ∀ w, Pipeline.arrRef spec0 w ≠ b) (h1 : ∀ w, Pipeline.arrRef spec1 w ≠ b)
    (h2 : ∀ w, Pipeline.arrRef spec2 w ≠ b) :
    W3 m ρ c (Proc.devRef .tc b) = m ((c : Thread nD τ).loc b) :=
  (W3_of_ne m ρ c b h2).trans ((W2_of_ne m ρ c b h1).trans (W1_of_ne m ρ c b h0))

theorem launched5 (b : Ref sig .tc) (h0 : ∀ w, Pipeline.arrRef spec0 w ≠ b) (h1 : ∀ w, Pipeline.arrRef spec1 w ≠ b)
    (h2 : ∀ w, Pipeline.arrRef spec2 w ≠ b) (k3 : b ∉ written3) (h3 : ∀ w, Pipeline.arrRef spec3 w ≠ b) :
    W5 m ρ c (Proc.devRef .tc b) = m ((c : Thread nD τ).loc b) :=
  (W5_of_ne m ρ c b h3).trans ((kept3 (W3 m ρ c) b k3).trans (launched3 m ρ c b h0 h1 h2))

theorem launched7 (b : Ref sig .tc) (h0 : ∀ w, Pipeline.arrRef spec0 w ≠ b) (h1 : ∀ w, Pipeline.arrRef spec1 w ≠ b)
    (h2 : ∀ w, Pipeline.arrRef spec2 w ≠ b) (k3 : b ∉ written3) (h3 : ∀ w, Pipeline.arrRef spec3 w ≠ b)
    (k4 : b ∉ written4) (h4 : ∀ w, Pipeline.arrRef spec4 w ≠ b) :
    W7 m ρ c (Proc.devRef .tc b) = m ((c : Thread nD τ).loc b) :=
  (W7_of_ne m ρ c b h4).trans ((kept4 (W5 m ρ c) b k4).trans (launched5 m ρ c b h0 h1 h2 k3 h3))

theorem launched9 (b : Ref sig .tc) (h0 : ∀ w, Pipeline.arrRef spec0 w ≠ b) (h1 : ∀ w, Pipeline.arrRef spec1 w ≠ b)
    (h2 : ∀ w, Pipeline.arrRef spec2 w ≠ b) (k3 : b ∉ written3) (h3 : ∀ w, Pipeline.arrRef spec3 w ≠ b)
    (k4 : b ∉ written4) (h4 : ∀ w, Pipeline.arrRef spec4 w ≠ b) (k5 : b ∉ written5) (h5 : ∀ w, Pipeline.arrRef spec5 w ≠ b) :
    W9 m ρ c (Proc.devRef .tc b) = m ((c : Thread nD τ).loc b) :=
  (W9_of_ne m ρ c b h5).trans ((kept5 (W7 m ρ c) b k5).trans (launched7 m ρ c b h0 h1 h2 k3 h3 k4 h4))

/-! ## The seven product arrays, as the long stretch finds them -/

theorem at3_v0_0 : W3 m ρ c (Proc.devRef .tc main_v0_0) = Cert.RowTiles.product 20000 256 256 (m ((c : Thread nD τ).loc main_arg0)) (m ((c : Thread nD τ).loc main_arg30)) :=
  (W3_of_ne m ρ c main_v0_0 (by decide)).trans ((W2_of_ne m ρ c main_v0_0 (by decide)).trans ((W1_arr m ρ c 3).trans (array0_3 (V0 m ρ) c)))

theorem at3_v0_1 : W3 m ρ c (Proc.devRef .tc main_v0_1) = Cert.RowTiles.product 20000 256 256 (m ((c : Thread nD τ).loc main_arg0)) (m ((c : Thread nD τ).loc main_arg32)) :=
  (W3_of_ne m ρ c main_v0_1 (by decide)).trans ((W2_of_ne m ρ c main_v0_1 (by decide)).trans ((W1_arr m ρ c 4).trans (array0_4 (V0 m ρ) c)))

theorem at3_v1_0 : W3 m ρ c (Proc.devRef .tc main_v1_0) = Cert.RowTiles.product 60000 256 256 (m ((c : Thread nD τ).loc main_arg1)) (m ((c : Thread nD τ).loc main_arg31)) :=
  (W3_of_ne m ρ c main_v1_0 (by decide)).trans ((W2_arr m ρ c 4).trans ((array1_4 (V1 m ρ) c).trans
    (congrArg₂ (Cert.RowTiles.product 60000 256 256) (W1_of_ne m ρ c main_arg1 (by decide)) (W1_of_ne m ρ c main_arg31 (by decide)))))

theorem at3_v1_1 : W3 m ρ c (Proc.devRef .tc main_v1_1) = Cert.RowTiles.product 60000 256 256 (m ((c : Thread nD τ).loc main_arg1)) (m ((c : Thread nD τ).loc main_arg33)) :=
  (W3_of_ne m ρ c main_v1_1 (by decide)).trans ((W2_arr m ρ c 5).trans ((array1_5 (V1 m ρ) c).trans
    (congrArg₂ (Cert.RowTiles.product 60000 256 256) (W1_of_ne m ρ c main_arg1 (by decide)) (W1_of_ne m ρ c main_arg33 (by decide)))))

theorem at3_v1_2 : W3 m ρ c (Proc.devRef .tc main_v1_2) = Cert.RowTiles.product 60000 256 256 (m ((c : Thread nD τ).loc main_arg1)) (m ((c : Thread nD τ).loc main_arg35)) :=
  (W3_of_ne m ρ c main_v1_2 (by decide)).trans ((W2_arr m ρ c 6).trans ((array1_6 (V1 m ρ) c).trans
    (congrArg₂ (Cert.RowTiles.product 60000 256 256) (W1_of_ne m ρ c main_arg1 (by decide)) (W1_of_ne m ρ c main_arg35 (by decide)))))

theorem at3_v2_0 : W3 m ρ c (Proc.devRef .tc main_v2_0) = Cert.RowTiles.product 40000 256 256 (m ((c : Thread nD τ).loc main_arg2)) (m ((c : Thread nD τ).loc main_arg34)) :=
  (W3_arr m ρ c 3).trans ((array2_3 (V2 m ρ) c).trans
    (congrArg₂ (Cert.RowTiles.product 40000 256 256)
      ((W2_of_ne m ρ c main_arg2 (by decide)).trans (W1_of_ne m ρ c main_arg2 (by decide)))
      ((W2_of_ne m ρ c main_arg34 (by decide)).trans (W1_of_ne m ρ c main_arg34 (by decide)))))

theorem at3_v2_1 : W3 m ρ c (Proc.devRef .tc main_v2_1) = Cert.RowTiles.product 40000 256 256 (m ((c : Thread nD τ).loc main_arg2)) (m ((c : Thread nD τ).loc main_arg36)) :=
  (W3_arr m ρ c 4).trans ((array2_4 (V2 m ρ) c).trans
    (congrArg₂ (Cert.RowTiles.product 40000 256 256)
      ((W2_of_ne m ρ c main_arg2 (by decide)).trans (W1_of_ne m ρ c main_arg2 (by decide)))
      ((W2_of_ne m ρ c main_arg36 (by decide)).trans (W1_of_ne m ρ c main_arg36 (by decide)))))

/-! ## The first head -/

/-- The first bias, laid out as a row by the long stretch's last operation. -/
theorem bias_row3 (q : Fin 64) :
    W4 m ρ c (Proc.devRef .tc main_v101) (ix2 (0 : Fin 1) q) = m ((c : Thread nD τ).loc main_arg38) (ix1 q) := by
  show StableHlo.after hostOps3 (W3 m ρ c) (Proc.devRef .tc main_v101) (ix2 (0 : Fin 1) q) = _
  simp only [hostOps3]
  fold_read
  rw [launched3 m ρ c main_arg38 (by decide) (by decide) (by decide)]
  exact Cert.LibBroadcasts.row_cast_apply _ _ 0 q

theorem at5_v102 : W5 m ρ c (Proc.devRef .tc main_v102)
    = Cert.RowTiles.head 20000 256 64 (W4 m ρ c (Proc.devRef .tc main_v97)) (m ((c : Thread nD τ).loc main_arg37)) (fun q => m ((c : Thread nD τ).loc main_arg38) (ix1 q)) := by
  refine (W5_arr m ρ c 3).trans ((array3_3 (V4 m ρ) c).trans ?_)
  have hw : V4 m ρ c main_arg37 = m ((c : Thread nD τ).loc main_arg37) :=
    (kept3 (W3 m ρ c) main_arg37 (by decide)).trans (launched3 m ρ c main_arg37 (by decide) (by decide) (by decide))
  rw [hw]
  exact congrArg (Cert.RowTiles.head 20000 256 64 _ _) (funext fun q => bias_row3 m ρ c q)

/-! ## The second head -/

theorem bias_row4 (q : Fin 64) :
    W6 m ρ c (Proc.devRef .tc main_v103) (ix2 (0 : Fin 1) q) = m ((c : Thread nD τ).loc main_arg40) (ix1 q) := by
  show StableHlo.after hostOps4 (W5 m ρ c) (Proc.devRef .tc main_v103) (ix2 (0 : Fin 1) q) = _
  simp only [hostOps4]
  fold_read
  rw [launched5 m ρ c main_arg40 (by decide) (by decide) (by decide) (by decide) (by decide)]
  exact Cert.LibBroadcasts.row_cast_apply _ _ 0 q

theorem at7_v104 : W7 m ρ c (Proc.devRef .tc main_v104)
    = Cert.RowTiles.head 60000 256 64 (W4 m ρ c (Proc.devRef .tc main_v99)) (m ((c : Thread nD τ).loc main_arg39)) (fun q => m ((c : Thread nD τ).loc main_arg40) (ix1 q)) := by
  refine (W7_arr m ρ c 3).trans ((array4_3 (V6 m ρ) c).trans ?_)
  have hh : V6 m ρ c main_v99 = W4 m ρ c (Proc.devRef .tc main_v99) :=
    (kept4 (W5 m ρ c) main_v99 (by decide)).trans (W5_of_ne m ρ c main_v99 (by decide))
  have hw : V6 m ρ c main_arg39 = m ((c : Thread nD τ).loc main_arg39) :=
    (kept4 (W5 m ρ c) main_arg39 (by decide)).trans (launched5 m ρ c main_arg39 (by decide) (by decide) (by decide) (by decide) (by decide))
  rw [hh, hw]
  exact congrArg (Cert.RowTiles.head 60000 256 64 _ _) (funext fun q => bias_row4 m ρ c q)

/-! ## The third head -/

theorem bias_row5 (q : Fin 64) :
    W8 m ρ c (Proc.devRef .tc main_v105) (ix2 (0 : Fin 1) q) = m ((c : Thread nD τ).loc main_arg42) (ix1 q) := by
  show StableHlo.after hostOps5 (W7 m ρ c) (Proc.devRef .tc main_v105) (ix2 (0 : Fin 1) q) = _
  simp only [hostOps5]
  fold_read
  rw [launched7 m ρ c main_arg42 (by decide) (by decide) (by decide) (by decide) (by decide) (by decide) (by decide)]
  exact Cert.LibBroadcasts.row_cast_apply _ _ 0 q

theorem at9_v106 : W9 m ρ c (Proc.devRef .tc main_v106)
    = Cert.RowTiles.head 40000 256 64 (W4 m ρ c (Proc.devRef .tc main_v100)) (m ((c : Thread nD τ).loc main_arg41)) (fun q => m ((c : Thread nD τ).loc main_arg42) (ix1 q)) := by
  refine (W9_arr m ρ c 3).trans ((array5_3 (V8 m ρ) c).trans ?_)
  have hh : V8 m ρ c main_v100 = W4 m ρ c (Proc.devRef .tc main_v100) :=
    (kept5 (W7 m ρ c) main_v100 (by decide)).trans ((W7_of_ne m ρ c main_v100 (by decide)).trans
      ((kept4 (W5 m ρ c) main_v100 (by decide)).trans (W5_of_ne m ρ c main_v100 (by decide))))
  have hw : V8 m ρ c main_arg41 = m ((c : Thread nD τ).loc main_arg41) :=
    (kept5 (W7 m ρ c) main_arg41 (by decide)).trans (launched7 m ρ c main_arg41 (by decide) (by decide) (by decide) (by decide) (by decide) (by decide) (by decide))
  rw [hh, hw]
  exact congrArg (Cert.RowTiles.head 40000 256 64 _ _) (funext fun q => bias_row5 m ρ c q)

/-! ## The first two head arrays are still there when the mean pooling starts -/

theorem at9_v102 : W9 m ρ c (Proc.devRef .tc main_v102)
    = Cert.RowTiles.head 20000 256 64 (W4 m ρ c (Proc.devRef .tc main_v97)) (m ((c : Thread nD τ).loc main_arg37)) (fun q => m ((c : Thread nD τ).loc main_arg38) (ix1 q)) :=
  (W9_of_ne m ρ c main_v102 (by decide)).trans ((kept5 (W7 m ρ c) main_v102 (by decide)).trans
    ((W7_of_ne m ρ c main_v102 (by decide)).trans ((kept4 (W5 m ρ c) main_v102 (by decide)).trans (at5_v102 m ρ c))))

theorem at9_v104 : W9 m ρ c (Proc.devRef .tc main_v104)
    = Cert.RowTiles.head 60000 256 64 (W4 m ρ c (Proc.devRef .tc main_v99)) (m ((c : Thread nD τ).loc main_arg39)) (fun q => m ((c : Thread nD τ).loc main_arg40) (ix1 q)) :=
  (W9_of_ne m ρ c main_v104 (by decide)).trans ((kept5 (W7 m ρ c) main_v104 (by decide)).trans (at7_v104 m ρ c))

end Cert.KernelIdeal.Whole

end
-- ==== Proof.Bridge.lean ====
/-
  The two results are one array.

  Walk the idealized kernel's result back through its ten segments: the mean pooling of the three head arrays, each
  head array built from the summed features that the long stretch of gathers and scatter-adds computes from the seven
  product arrays, each product array a function of what was launched. Unfold the reference's result in the same way.
  The two expressions are then the same tree, operation for operation — the same gathers, the same scatter-adds, the
  same concatenations of the two adjacency lists, the same segment sums and counts, the same division by three — over
  the same product arrays and the same head arrays, because the reference's matrix products and its written-out
  sigmoid are those arrays (the two facts about one entry). None of the gathers or scatters is ever opened.
-/
import proofs.«159332_j33492154974470_1_alg».proof.Proof.Fold
import proofs.«159332_j33492154974470_1_alg».proof.Proof.KernelRun
import proofs.«159332_j33492154974470_1_alg».proof.Proof.Gen.ReferenceIdeal.Run
import proofs.«159332_j33492154974470_1_alg».proof.Proof.RowTiles
import proofs.«159332_j33492154974470_1_alg».proof.Proof.LibFoldRead

set_option maxRecDepth 16384

noncomputable section

namespace Cert.Bridge

open Idealize.ShloMosaic Idealize.ShloMosaic.TcCoe Idealize.ShloMosaic.ValueIdx Idealize.SL.Sem Idealize.ShloMosaic.StableHlo
open Cert.LibFoldRead Cert.KernelIdeal.Whole

set_option maxHeartbeats 40000000 in
/-- From memories that agree on the arguments, the reference's result term is the array the kernel's last stretch of
    host operations leaves in its result buffer. -/
theorem result_agrees
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42))
    (c : Dev Cert.KernelIdeal.nD) :
    Host.divf (Cert.ReferenceIdeal.Value.res_main_v169 (launchContents m' c))
        (broadcastInDim Cert.ReferenceIdeal.S8x64 ![] Cert.ReferenceIdeal.Facts₀.bcast_S_S8x64 (constant Cert.ReferenceIdeal.S_ .f32 0x40400000#32))
      = Cert.KernelIdeal.Gen.W10 m ρ c (Proc.devRef .tc Cert.KernelIdeal.main_v143) := by
  have a0 : launchContents m' c (Proc.devRef .tc Cert.ReferenceIdeal.main_arg0) = m ((c.tc : Thread Cert.KernelIdeal.nD Cert.KernelIdeal.τ).loc Cert.KernelIdeal.main_arg0) := (hagree c).1
  have a1 : launchContents m' c (Proc.devRef .tc Cert.ReferenceIdeal.main_arg1) = m ((c.tc : Thread Cert.KernelIdeal.nD Cert.KernelIdeal.τ).loc Cert.KernelIdeal.main_arg1) := (hagree c).2.1
  have a2 : launchContents m' c (Proc.devRef .tc Cert.ReferenceIdeal.main_arg2) = m ((c.tc : Thread Cert.KernelIdeal.nD Cert.KernelIdeal.τ).loc Cert.KernelIdeal.main_arg2) := (hagree c).2.2.1
  have a3 : launchContents m' c (Proc.devRef .tc Cert.ReferenceIdeal.main_arg3) = m ((c.tc : Thread Cert.KernelIdeal.nD Cert.KernelIdeal.τ).loc Cert.KernelIdeal.main_arg3) := (hagree c).2.2.2.1
  have a4 : launchContents m' c (Proc.devRef .tc Cert.ReferenceIdeal.main_arg4) = m ((c.tc : Thread Cert.KernelIdeal.nD Cert.KernelIdeal.τ).loc Cert.KernelIdeal.main_arg4) := (hagree c).2.2.2.2.1
  have a5 : launchContents m' c (Proc.devRef .tc Cert.ReferenceIdeal.main_arg5) = m ((c.tc : Thread Cert.KernelIdeal.nD Cert.KernelIdeal.τ).loc Cert.KernelIdeal.main_arg5) := (hagree c).2.2.2.2.2.1
  have a6 : launchContents m' c (Proc.devRef .tc Cert.ReferenceIdeal.main_arg6) = m ((c.tc : Thread Cert.KernelIdeal.nD Cert.KernelIdeal.τ).loc Cert.KernelIdeal.main_arg6) := (hagree c).2.2.2.2.2.2.1
  have a7 : launchContents m' c (Proc.devRef .tc Cert.ReferenceIdeal.main_arg7) = m ((c.tc : Thread Cert.KernelIdeal.nD Cert.KernelIdeal.τ).loc Cert.KernelIdeal.main_arg7) := (hagree c).2.2.2.2.2.2.2.1
  have a8 : launchContents m' c (Proc.devRef .tc Cert.ReferenceIdeal.main_arg8) = m ((c.tc : Thread Cert.KernelIdeal.nD Cert.KernelIdeal.τ).loc Cert.KernelIdeal.main_arg8) := (hagree c).2.2.2.2.2.2.2.2.1
  have a9 : launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
  have a10 : launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2.1
  have a11 : launchContents m' c (Proc.devRef .tc Cert.ReferenceIdeal.main_arg11) = m ((c.tc : Thread Cert.KernelIdeal.nD Cert.KernelIdeal.τ).loc Cert.KernelIdeal.main_arg11) := (hagree c).2.2.2.2.2.2.2.2.2.2.2.1
  have a12 : launchContents m' c (Proc.devRef .tc Cert.ReferenceIdeal.main_arg12) = m ((c.tc : Thread Cert.KernelIdeal.nD Cert.KernelIdeal.τ).loc Cert.KernelIdeal.main_arg12) := (hagree c).2.2.2.2.2.2.2.2.2.2.2.2.1
  have a13 : launchContents m' c (Proc.devRef .tc Cert.ReferenceIdeal.main_arg13) = m ((c.tc : Thread Cert.KernelIdeal.nD Cert.KernelIdeal.τ).loc Cert.KernelIdeal.main_arg13) := (hagree c).2.2.2.2.2.2.2.2.2.2.2.2.2.1
  have a14 : launchContents m' c (Proc.devRef .tc Cert.ReferenceIdeal.main_arg14) = m ((c.tc : Thread Cert.KernelIdeal.nD Cert.KernelIdeal.τ).loc Cert.KernelIdeal.main_arg14) := (hagree c).2.2.2.2.2.2.2.2.2.2.2.2.2.2.1
  have a15 : launchContents m' c (Proc.devRef .tc Cert.ReferenceIdeal.main_arg15) = m ((c.tc : Thread Cert.KernelIdeal.nD Cert.KernelIdeal.τ).loc Cert.KernelIdeal.main_arg15) := (hagree c).2.2.2.2.2.2.2.2.2.2.2.2.2.2.2.1
  have a16 : launchContents m' c (Proc.devRef .tc Cert.ReferenceIdeal.main_arg16) = m ((c.tc : Thread Cert.KernelIdeal.nD Cert.KernelIdeal.τ).loc Cert.KernelIdeal.main_arg16) := (hagree c).2.2.2.2.2.2.2.2.2.2.2.2.2.2.2.2.1
  have a17 : launchContents m' c (Proc.devRef .tc Cert.ReferenceIdeal.main_arg17) = m ((c.tc : Thread Cert.KernelIdeal.nD Cert.KernelIdeal.τ).loc Cert.KernelIdeal.main_arg17) := (hagree c).2.2.2.2.2.2.2.2.2.2.2.2.2.2.2.2.2.1
  have a18 : launchContents m' c (Proc.devRef .tc Cert.ReferenceIdeal.main_arg18) = m ((c.tc : Thread Cert.KernelIdeal.nD Cert.KernelIdeal.τ).loc Cert.KernelIdeal.main_arg18) := (hagree c).2.2.2.2.2.2.2.2.2.2.2.2.2.2.2.2.2.2.1
  have a19 : launchContents m' c (Proc.devRef .tc Cert.ReferenceIdeal.main_arg19) = m ((c.tc : Thread Cert.KernelIdeal.nD Cert.KernelIdeal.τ).loc Cert.KernelIdeal.main_arg19) := (hagree c).2.2.2.2.2.2.2.2.2.2.2.2.2.2.2.2.2.2.2.1
  have a20 : launchContents m' c (Proc.devRef .tc Cert.ReferenceIdeal.main_arg20) = m ((c.tc : Thread Cert.KernelIdeal.nD Cert.KernelIdeal.τ).loc Cert.KernelIdeal.main_arg20) := (hagree c).2.2.2.2.2.2.2.2.2.2.2.2.2.2.2.2.2.2.2.2.1
  have a21 : launchContents m' c (Proc.devRef .tc Cert.ReferenceIdeal.main_arg21) = m ((c.tc : Thread Cert.KernelIdeal.nD Cert.KernelIdeal.τ).loc Cert.KernelIdeal.main_arg21) := (hagree c).2.2.2.2.2.2.2.2.2.2.2.2.2.2.2.2.2.2.2.2.2.1
  have a22 : launchContents m' c (Proc.devRef .tc Cert.ReferenceIdeal.main_arg22) = m ((c.tc : Thread Cert.KernelIdeal.nD Cert.KernelIdeal.τ).loc Cert.KernelIdeal.main_arg22) := (hagree c).2.2.2.2.2.2.2.2.2.2.2.2.2.2.2.2.2.2.2.2.2.2.1
  have a23 : launchContents m' c (Proc.devRef .tc Cert.ReferenceIdeal.main_arg23) = m ((c.tc : Thread Cert.KernelIdeal.nD Cert.KernelIdeal.τ).loc Cert.KernelIdeal.main_arg23) := (hagree c).2.2.2.2.2.2.2.2.2.2.2.2.2.2.2.2.2.2.2.2.2.2.2.1
  have a24 : launchContents m' c (Proc.devRef .tc Cert.ReferenceIdeal.main_arg24) = m ((c.tc : Thread Cert.KernelIdeal.nD Cert.KernelIdeal.τ).loc Cert.KernelIdeal.main_arg24) := (hagree c).2.2.2.2.2.2.2.2.2.2.2.2.2.2.2.2.2.2.2.2.2.2.2.2.1
  have a25 : launchContents m' c (Proc.devRef .tc Cert.ReferenceIdeal.main_arg25) = m ((c.tc : Thread Cert.KernelIdeal.nD Cert.KernelIdeal.τ).loc Cert.KernelIdeal.main_arg25) := (hagree c).2.2.2.2.2.2.2.2.2.2.2.2.2.2.2.2.2.2.2.2.2.2.2.2.2.1
  have a26 : launchContents m' c (Proc.devRef .tc Cert.ReferenceIdeal.main_arg26) = m ((c.tc : Thread Cert.KernelIdeal.nD Cert.KernelIdeal.τ).loc Cert.KernelIdeal.main_arg26) := (hagree c).2.2.2.2.2.2.2.2.2.2.2.2.2.2.2.2.2.2.2.2.2.2.2.2.2.2.1
  have a27 : launchContents m' c (Proc.devRef .tc Cert.ReferenceIdeal.main_arg27) = m ((c.tc : Thread Cert.KernelIdeal.nD Cert.KernelIdeal.τ).loc Cert.KernelIdeal.main_arg27) := (hagree c).2.2.2.2.2.2.2.2.2.2.2.2.2.2.2.2.2.2.2.2.2.2.2.2.2.2.2.1
  have a28 : launchContents m' c (Proc.devRef .tc Cert.ReferenceIdeal.main_arg28) = m ((c.tc : Thread Cert.KernelIdeal.nD Cert.KernelIdeal.τ).loc Cert.KernelIdeal.main_arg28) := (hagree c).2.2.2.2.2.2.2.2.2.2.2.2.2.2.2.2.2.2.2.2.2.2.2.2.2.2.2.2.1
  have a29 : launchContents m' c (Proc.devRef .tc Cert.ReferenceIdeal.main_arg29) = m ((c.tc : Thread Cert.KernelIdeal.nD Cert.KernelIdeal.τ).loc Cert.KernelIdeal.main_arg29) := (hagree c).2.2.2.2.2.2.2.2.2.2.2.2.2.2.2.2.2.2.2.2.2.2.2.2.2.2.2.2.2.1
  have a30 : launchContents m' c (Proc.devRef .tc Cert.ReferenceIdeal.main_arg30) = m ((c.tc : Thread Cert.KernelIdeal.nD Cert.KernelIdeal.τ).loc Cert.KernelIdeal.main_arg30) := (hagree c).2.2.2.2.2.2.2.2.2.2.2.2.2.2.2.2.2.2.2.2.2.2.2.2.2.2.2.2.2.2.1
  have a31 : launchContents m' c (Proc.devRef .tc Cert.ReferenceIdeal.main_arg31) = m ((c.tc : Thread Cert.KernelIdeal.nD Cert.KernelIdeal.τ).loc Cert.KernelIdeal.main_arg31) := (hagree c).2.2.2.2.2.2.2.2.2.2.2.2.2.2.2.2.2.2.2.2.2.2.2.2.2.2.2.2.2.2.2.1
  have a32 : launchContents m' c (Proc.devRef .tc Cert.ReferenceIdeal.main_arg32) = m ((c.tc : Thread Cert.KernelIdeal.nD Cert.KernelIdeal.τ).loc Cert.KernelIdeal.main_arg32) := (hagree c).2.2.2.2.2.2.2.2.2.2.2.2.2.2.2.2.2.2.2.2.2.2.2.2.2.2.2.2.2.2.2.2.1
  have a33 : launchContents m' c (Proc.devRef .tc Cert.ReferenceIdeal.main_arg33) = m ((c.tc : Thread Cert.KernelIdeal.nD Cert.KernelIdeal.τ).loc Cert.KernelIdeal.main_arg33) := (hagree c).2.2.2.2.2.2.2.2.2.2.2.2.2.2.2.2.2.2.2.2.2.2.2.2.2.2.2.2.2.2.2.2.2.1
  have a34 : launchContents m' c (Proc.devRef .tc Cert.ReferenceIdeal.main_arg34) = m ((c.tc : Thread Cert.KernelIdeal.nD Cert.KernelIdeal.τ).loc Cert.KernelIdeal.main_arg34) := (hagree c).2.2.2.2.2.2.2.2.2.2.2.2.2.2.2.2.2.2.2.2.2.2.2.2.2.2.2.2.2.2.2.2.2.2.1
  have a35 : launchContents m' c (Proc.devRef .tc Cert.ReferenceIdeal.main_arg35) = m ((c.tc : Thread Cert.KernelIdeal.nD Cert.KernelIdeal.τ).loc Cert.KernelIdeal.main_arg35) := (hagree c).2.2.2.2.2.2.2.2.2.2.2.2.2.2.2.2.2.2.2.2.2.2.2.2.2.2.2.2.2.2.2.2.2.2.2.1
  have a36 : launchContents m' c (Proc.devRef .tc Cert.ReferenceIdeal.main_arg36) = m ((c.tc : Thread Cert.KernelIdeal.nD Cert.KernelIdeal.τ).loc Cert.KernelIdeal.main_arg36) := (hagree c).2.2.2.2.2.2.2.2.2.2.2.2.2.2.2.2.2.2.2.2.2.2.2.2.2.2.2.2.2.2.2.2.2.2.2.2.1
  have a37 : launchContents m' c (Proc.devRef .tc Cert.ReferenceIdeal.main_arg37) = m ((c.tc : Thread Cert.KernelIdeal.nD Cert.KernelIdeal.τ).loc Cert.KernelIdeal.main_arg37) := (hagree c).2.2.2.2.2.2.2.2.2.2.2.2.2.2.2.2.2.2.2.2.2.2.2.2.2.2.2.2.2.2.2.2.2.2.2.2.2.1
  have a38 : launchContents m' c (Proc.devRef .tc Cert.ReferenceIdeal.main_arg38) = m ((c.tc : Thread Cert.KernelIdeal.nD Cert.KernelIdeal.τ).loc Cert.KernelIdeal.main_arg38) := (hagree c).2.2.2.2.2.2.2.2.2.2.2.2.2.2.2.2.2.2.2.2.2.2.2.2.2.2.2.2.2.2.2.2.2.2.2.2.2.2.1
  have a39 : launchContents m' c (Proc.devRef .tc Cert.ReferenceIdeal.main_arg39) = m ((c.tc : Thread Cert.KernelIdeal.nD Cert.KernelIdeal.τ).loc Cert.KernelIdeal.main_arg39) := (hagree c).2.2.2.2.2.2.2.2.2.2.2.2.2.2.2.2.2.2.2.2.2.2.2.2.2.2.2.2.2.2.2.2.2.2.2.2.2.2.2.1
  have a40 : launchContents m' c (Proc.devRef .tc Cert.ReferenceIdeal.main_arg40) = m ((c.tc : Thread Cert.KernelIdeal.nD Cert.KernelIdeal.τ).loc Cert.KernelIdeal.main_arg40) := (hagree c).2.2.2.2.2.2.2.2.2.2.2.2.2.2.2.2.2.2.2.2.2.2.2.2.2.2.2.2.2.2.2.2.2.2.2.2.2.2.2.2.1
  have a41 : launchContents m' c (Proc.devRef .tc Cert.ReferenceIdeal.main_arg41) = m ((c.tc : Thread Cert.KernelIdeal.nD Cert.KernelIdeal.τ).loc Cert.KernelIdeal.main_arg41) := (hagree c).2.2.2.2.2.2.2.2.2.2.2.2.2.2.2.2.2.2.2.2.2.2.2.2.2.2.2.2.2.2.2.2.2.2.2.2.2.2.2.2.2.1
  have a42 : launchContents m' c (Proc.devRef .tc Cert.ReferenceIdeal.main_arg42) = m ((c.tc : Thread Cert.KernelIdeal.nD Cert.KernelIdeal.τ).loc Cert.KernelIdeal.main_arg42) := (hagree c).2.2.2.2.2.2.2.2.2.2.2.2.2.2.2.2.2.2.2.2.2.2.2.2.2.2.2.2.2.2.2.2.2.2.2.2.2.2.2.2.2.2
  symm
  -- the kernel's side: the mean pooling over the three head arrays …
  show StableHlo.after Cert.KernelIdeal.Gen.hostOps6 (Cert.KernelIdeal.Gen.W9 m ρ c) (Proc.devRef .tc Cert.KernelIdeal.main_v143) = _
  simp only [Cert.KernelIdeal.Gen.hostOps6]
  fold_read
  rw [at9_v102 m ρ c, at9_v104 m ρ c, at9_v106 m ρ c,
    launched9 m ρ c Cert.KernelIdeal.main_arg27 (by decide) (by decide) (by decide) (by decide) (by decide) (by decide) (by decide) (by decide) (by decide), launched9 m ρ c Cert.KernelIdeal.main_arg28 (by decide) (by decide) (by decide) (by decide) (by decide) (by decide) (by decide) (by decide) (by decide), launched9 m ρ c Cert.KernelIdeal.main_arg29 (by decide) (by decide) (by decide) (by decide) (by decide) (by decide) (by decide) (by decide) (by decide)]
  -- … the summed features under them, over the seven product arrays
  simp only [Cert.KernelIdeal.Gen.W4, Cert.KernelIdeal.Gen.hostOps3]
  fold_read
  simp (disch := decide) only [launched3 m ρ c]
  simp only [at3_v0_0 m ρ c, at3_v0_1 m ρ c, at3_v1_0 m ρ c, at3_v1_1 m ρ c, at3_v1_2 m ρ c, at3_v2_0 m ρ c, at3_v2_1 m ρ c]
  -- the reference's side
  unfold Cert.ReferenceIdeal.Value.res_main_v169 Cert.ReferenceIdeal.Value.res_main_v156 Cert.ReferenceIdeal.Value.res_main_v43
  simp only [concatenate_two,
    Cert.RowTiles.product_reference 20000 256 256 Cert.ReferenceIdeal.dot_S20000x256_S256x256_S20000x256_1_0_0_1_n_n rfl,
    Cert.RowTiles.product_reference 60000 256 256 Cert.ReferenceIdeal.dot_S60000x256_S256x256_S60000x256_1_0_0_1_n_n rfl,
    Cert.RowTiles.product_reference 40000 256 256 Cert.ReferenceIdeal.dot_S40000x256_S256x256_S40000x256_1_0_0_1_n_n rfl,
    Cert.RowTiles.head_reference 20000 256 64 Cert.ReferenceIdeal.dot_S20000x256_S256x64_S20000x64_1_0_0_1_n_n rfl,
    Cert.RowTiles.head_reference 60000 256 64 Cert.ReferenceIdeal.dot_S60000x256_S256x64_S60000x64_1_0_0_1_n_n rfl,
    Cert.RowTiles.head_reference 40000 256 64 Cert.ReferenceIdeal.dot_S40000x256_S256x64_S40000x64_1_0_0_1_n_n rfl,
    a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42]
  rfl

end Cert.Bridge

end
-- ==== Proof.lean ====
/-
  Three transform launches, a sparse message-passing stage on the host, three sigmoid–linear head launches and a mean
  pooling, against the same network written with whole-array products.

  The kernel computes the seven products xᵢ·W in row tiles of 2000 rows, hands them to host code that gathers rows,
  scales them by the edge values and scatter-adds them into three summed feature arrays, applies in row tiles
  σ(h)·W + b for the three heads, and pools the three head arrays by segment means before averaging them. The reference
  does the same with one whole-array product per weight matrix and with the sigmoid written 1 / (1 + exp(−h)).

  On the extended reals nothing separates the two: narrowing a float format is the identity, a product into a zero
  accumulator is the plain sum of products whatever the tiling, the logistic function is that quotient by definition
  (at both infinities too), and the bias row repeated down a tile is the bias vector repeated down the array. The
  host code between the launches is the reference's, operation for operation, so the two results are one tree over
  equal arrays (Proof/Bridge.lean); no precondition on the inputs is used for the values.

  The frames of the two kernels are the generated launch proofs; the reference's frame is its generated run with the
  result dropped. The idealization rewrote nothing, so there is nothing to preserve.
-/
import proofs.«159332_j33492154974470_1_alg».proof.Defs
import proofs.«159332_j33492154974470_1_alg».proof.Proof.Gen.Kernel
import proofs.«159332_j33492154974470_1_alg».proof.Proof.Gen.Kernel.Frame
import proofs.«159332_j33492154974470_1_alg».proof.Proof.Gen.KernelIdeal
import proofs.«159332_j33492154974470_1_alg».proof.Proof.Gen.KernelIdeal.Frame
import proofs.«159332_j33492154974470_1_alg».proof.Proof.Gen.ReferenceIdeal
import proofs.«159332_j33492154974470_1_alg».proof.Proof.Gen.ReferenceIdeal.Run
import proofs.«159332_j33492154974470_1_alg».proof.Proof.Gen.Pre_finite_inputs
import proofs.«159332_j33492154974470_1_alg».proof.Proof.KernelRun
import proofs.«159332_j33492154974470_1_alg».proof.Proof.Bridge
import Idealize.ShloMosaic.Adequacy
import Idealize.ShloMosaic.Init

noncomputable section

namespace Cert.Proof

open Idealize.ShloMosaic Idealize.SL.Sem

/-- The kernel as printed runs, and leaves its arguments alone. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference runs and leaves its arguments alone: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the arguments both programs run, and end with the same array: the one the kernel's last
    stretch of host operations leaves, which the reference's result term equals. -/
theorem algebraic : Cert.algebraic_KernelIdeal_ReferenceIdeal := by
  intro m ρ m' ρ' _ hagree
  refine ⟨fun c => Cert.KernelIdeal.Gen.W10 m ρ c (Proc.devRef .tc Cert.KernelIdeal.main_v143),
    Cert.KernelIdeal.Whole.run_result m ρ, ?_⟩
  exact (θ_run Cert.ReferenceIdeal.defs _ _).mono
    (fun _ h c => ⟨(h c).1.trans (Cert.Bridge.result_agrees m ρ m' hagree c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
